-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 4096, 256]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 4096, 256]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x256 : Shape := ⟨2, ![4, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x512x256 .f32) (main_arg1 : FVec F S4x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Pre_finite_inputs_ReferenceIdeal.lean ====
abbrev S4x4096x256 : Shape := ⟨3, ![4, 4096, 256]⟩
abbrev S4x256 : Shape := ⟨2, ![4, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_

variable [Facts]

def fn {F : FTy → Type} [FloatOps F] (main_arg0 : FVec F S4x4096x256 .f32) (main_arg1 : FVec F S4x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  main_v8
-- ==== Kernel.lean ====
abbrev S4x512x256 : Shape := ⟨3, ![4, 512, 256]⟩
abbrev S4x256 : Shape := ⟨2, ![4, 256]⟩
abbrev S4x3x256 : Shape := ⟨3, ![4, 3, 256]⟩
abbrev S2 : Shape := ⟨1, ![2]⟩
abbrev S3 : Shape := ⟨1, ![3]⟩
abbrev S_ : Shape := ⟨0, ![]⟩
abbrev S1 : Shape := ⟨1, ![1]⟩
abbrev S4x256x256 : Shape := ⟨3, ![4, 256, 256]⟩
abbrev S1x256 : Shape := ⟨2, ![1, 256]⟩
abbrev S256 : Shape := ⟨1, ![256]⟩
abbrev S1x1x256 : Shape := ⟨3, ![1, 1, 256]⟩
abbrev S4x248x256 : Shape := ⟨3, ![4, 248, 256]⟩
abbrev S4x264x256 : Shape := ⟨3, ![4, 264, 256]⟩
abbrev S4x6x256 : Shape := ⟨3, ![4, 6, 256]⟩
abbrev S4x4x256 : Shape := ⟨3, ![4, 4, 256]⟩
abbrev S4x8x256 : Shape := ⟨3, ![4, 8, 256]⟩

abbrev nBuf : Space → Nat
  | .hbm => 3
  | .vmem => 5
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S4x512x256, .bf16⟩
  | .local _ .vmem, ⟨0, _⟩ => ⟨S4x512x256, .f32⟩
  | .local _ .vmem, ⟨1, _⟩ => ⟨S4x256, .f32⟩
  | .local _ .vmem, ⟨2, _⟩ => ⟨S4x512x256, .bf16⟩
  | .local _ .vmem, ⟨3, _⟩ => ⟨S4x3x256, .f32⟩
  | .local _ .vmem, ⟨4, _⟩ => ⟨S4x3x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  { ofTc nBuf bufTy 1 7 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .eq v2 c0_i32
  let v_true : BitVec 1 := 1#1
  let v8 : BitVec 1 := Scalar.xori v5 v_true
  let v9 : BitVec 32 := Scalar.extui v8
  let c0_i32_2 : BitVec 32 := 0#32
  let v10 : BitVec 1 := Scalar.cmpi .ne v9 c0_i32_2
  v10

def k0_dev1 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c1_i32_100 : BitVec 32 := 1#32
  let v178 : BitVec 32 := Scalar.muli v3 c1_i32_100
  let v179 : BitVec 32 := Scalar.addi c0_i32_101 v178
  v179.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v6 : BitVec 1 := Scalar.cmpi .eq v2 c7_i32
  let true_31 : BitVec 1 := 1#1
  let v67 : BitVec 1 := Scalar.xori v6 true_31
  let v68 : BitVec 32 := Scalar.extui v67
  let c0_i32_32 : BitVec 32 := 0#32
  let v69 : BitVec 1 := Scalar.cmpi .ne v68 c0_i32_32
  v69

def k0_dev2 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.addi v2 c1_i32_1
  let c1_i32_101 : BitVec 32 := 1#32
  let v178 : BitVec 32 := Scalar.muli v4 c1_i32_101
  let v179 : BitVec 32 := Scalar.addi c0_i32_102 v178
  v179.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S4x512x256_S4x3x256_0_509_0 : ∀ a, (![0, 509, 0] : Fin 3 → Nat) a + S4x3x256.size a ≤ S4x512x256.size a
  h_S4x3x256 : 0 < S4x3x256.numel
  inb_S4x3x256_S4x3x256_0_0_0 : ∀ a, (![0, 0, 0] : Fin 3 → Nat) a + S4x3x256.size a ≤ S4x3x256.size a
  shapeCasts_S4x3x256_S4x3x256 : S4x3x256.ShapeCasts S4x3x256
  inb_S4x256_S4x256_0_0 : ∀ a, (![0, 0] : Fin 2 → Nat) a + S4x256.size a ≤ S4x256.size a
  h_S4x256 : 0 < S4x256.numel
  inb_S4x512x256_S4x256x256_0_0_0 : ∀ a, (![0, 0, 0] : Fin 3 → Nat) a + S4x256x256.size a ≤ S4x512x256.size a
  h_S4x256x256 : 0 < S4x256x256.numel
  slices_S4x256_o3_0_S1x256 : S4x256.Slices ![3, 0] S1x256
  shapeCasts_S1x256_S256 : S1x256.ShapeCasts S256
  shapeCasts_S256_S1x1x256 : S256.ShapeCasts S1x1x256
  broadcasts_S1x1x256_S4x256x256 : S1x1x256.Broadcasts S4x256x256
  rotates_S4x256x256_d1 : S4x256x256.Rotates 1 none
  slices_S4x256_o2_0_S1x256 : S4x256.Slices ![2, 0] S1x256
  slices_S4x256_o1_0_S1x256 : S4x256.Slices ![1, 0] S1x256
  slices_S4x256_o0_0_S1x256 : S4x256.Slices ![0, 0] S1x256
  bitsLt_bf16_f32 : FTy.bits .bf16 < FTy.bits .f32
  shapeCasts_S4x256x256_S4x256x256 : S4x256x256.ShapeCasts S4x256x256
  packedbf16_S4x512x256_S4x256x256_0_0_0 : (Rect.unit (s := S4x512x256) ![0, 0, 0] S4x256x256.size inb_S4x512x256_S4x256x256_0_0_0).PackedRows (EltTy.packing .bf16)
  inb_S3_S1_0 : ∀ a, (![0] : Fin 1 → Nat) a + S1.size a ≤ S3.size a
  inb_S4x512x256_S4x248x256_0_8_0 : ∀ a, (![0, 8, 0] : Fin 3 → Nat) a + S4x248x256.size a ≤ S4x512x256.size a
  wordsbf16_S4x512x256_S4x248x256_0_8_0 : (Rect.unit (s := S4x512x256) ![0, 8, 0] S4x248x256.size inb_S4x512x256_S4x248x256_0_8_0).WholeWords (EltTy.packing .bf16)
  inb_S4x512x256_S4x264x256_0_248_0 : ∀ a, (![0, 248, 0] : Fin 3 → Nat) a + S4x264x256.size a ≤ S4x512x256.size a
  h_S4x264x256 : 0 < S4x264x256.numel
  broadcasts_S1x1x256_S4x264x256 : S1x1x256.Broadcasts S4x264x256
  rotates_S4x264x256_d1 : S4x264x256.Rotates 1 none
  slices_S4x264x256_o0_8_0_S4x256x256 : S4x264x256.Slices ![0, 8, 0] S4x256x256
  inb_S4x512x256_S4x256x256_0_256_0 : ∀ a, (![0, 256, 0] : Fin 3 → Nat) a + S4x256x256.size a ≤ S4x512x256.size a
  packedbf16_S4x512x256_S4x256x256_0_256_0 : (Rect.unit (s := S4x512x256) ![0, 256, 0] S4x256x256.size inb_S4x512x256_S4x256x256_0_256_0).PackedRows (EltTy.packing .bf16)
  inb_S3_S1_1 : ∀ a, (![1] : Fin 1 → Nat) a + S1.size a ≤ S3.size a
  wordsbf16_S4x512x256_S4x256x256_0_256_0 : (Rect.unit (s := S4x512x256) ![0, 256, 0] S4x256x256.size inb_S4x512x256_S4x256x256_0_256_0).WholeWords (EltTy.packing .bf16)
  inb_S4x512x256_S4x3x256_0_0_0 : ∀ a, (![0, 0, 0] : Fin 3 → Nat) a + S4x3x256.size a ≤ S4x512x256.size a
  concatenates_S4x3x256_S4x3x256_S4x6x256_d1 : Shape.Concatenates [S4x3x256, S4x3x256] S4x6x256 1
  inb_S4x256_S1x256_0_0 : ∀ a, (![0, 0] : Fin 2 → Nat) a + S1x256.size a ≤ S4x256.size a
  h_S1x256 : 0 < S1x256.numel
  shapeCasts_S1x256_S1x1x256 : S1x256.ShapeCasts S1x1x256
  slices_S4x6x256_o0_0_0_S4x3x256 : S4x6x256.Slices ![0, 0, 0] S4x3x256
  broadcasts_S1x1x256_S4x3x256 : S1x1x256.Broadcasts S4x3x256
  inb_S4x256_S1x256_1_0 : ∀ a, (![1, 0] : Fin 2 → Nat) a + S1x256.size a ≤ S4x256.size a
  slices_S4x6x256_o0_1_0_S4x3x256 : S4x6x256.Slices ![0, 1, 0] S4x3x256
  inb_S4x256_S1x256_2_0 : ∀ a, (![2, 0] : Fin 2 → Nat) a + S1x256.size a ≤ S4x256.size a
  slices_S4x6x256_o0_2_0_S4x3x256 : S4x6x256.Slices ![0, 2, 0] S4x3x256
  inb_S4x256_S1x256_3_0 : ∀ a, (![3, 0] : Fin 2 → Nat) a + S1x256.size a ≤ S4x256.size a
  slices_S4x6x256_o0_3_0_S4x3x256 : S4x6x256.Slices ![0, 3, 0] S4x3x256
  inb_S4x512x256_S4x4x256_0_0_0 : ∀ a, (![0, 0, 0] : Fin 3 → Nat) a + S4x4x256.size a ≤ S4x512x256.size a
  h_S4x4x256 : 0 < S4x4x256.numel
  slices_S4x4x256_S4x3x256_0_0_0 : S4x4x256.Slices ![0, 0, 0] S4x3x256
  packedbf16_S4x512x256_S4x4x256_0_0_0 : (Rect.unit (s := S4x512x256) ![0, 0, 0] S4x4x256.size inb_S4x512x256_S4x4x256_0_0_0).PackedRows (EltTy.packing .bf16)
  inb_S3_S1_2 : ∀ a, (![2] : Fin 1 → Nat) a + S1.size a ≤ S3.size a
  inb_S4x512x256_S4x8x256_0_0_0 : ∀ a, (![0, 0, 0] : Fin 3 → Nat) a + S4x8x256.size a ≤ S4x512x256.size a
  wordsbf16_S4x512x256_S4x8x256_0_0_0 : (Rect.unit (s := S4x512x256) ![0, 0, 0] S4x8x256.size inb_S4x512x256_S4x8x256_0_0_0).WholeWords (EltTy.packing .bf16)
  hcc0_scratch5 : 0 + S2.numel ≤ 7
  hcc0_scratch6 : 2 + S3.numel ≤ 7
  hcc0_scratch7 : 5 + S_.numel ≤ 7
  hcc0_scratch8 : 6 + S_.numel ≤ 7
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD

variable [Facts₀]

abbrev cc0_scratch5 : DmaSems sig S2 := SemArray.consecutive 0 S2 hcc0_scratch5
abbrev cc0_scratch6 : DmaSems sig S3 := SemArray.consecutive 2 S3 hcc0_scratch6
abbrev cc0_scratch7 : DmaSems sig S_ := SemArray.consecutive 5 S_ hcc0_scratch7
abbrev cc0_scratch8 : DmaSems sig S_ := SemArray.consecutive 6 S_ hcc0_scratch8

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4x4096x256 : Shape := ⟨3, ![4, 4096, 256]⟩
abbrev S4x256 : Shape := ⟨2, ![4, 256]⟩
abbrev S_ : Shape := ⟨0, ![]⟩
abbrev S4x3x256 : Shape := ⟨3, ![4, 3, 256]⟩
abbrev S4x4099x256 : Shape := ⟨3, ![4, 4099, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x256, .f32⟩
  | .hbm, ⟨2, _⟩ => ⟨S_, .f32⟩
  | .hbm, ⟨3, _⟩ => ⟨S4x3x256, .f32⟩
  | .hbm, ⟨4, _⟩ => ⟨S4x4099x256, .f32⟩
  | .hbm, ⟨5, _⟩ => ⟨S_, .f32⟩
  | .hbm, ⟨6, _⟩ => ⟨S4x4096x256, .f32⟩
  | .hbm, ⟨7, _⟩ => ⟨S4x4096x256, .f32⟩
  | .hbm, ⟨8, _⟩ => ⟨S1x256, .f32⟩
  | .hbm, ⟨9, _⟩ => ⟨S256, .f32⟩
  | .hbm, ⟨10, _⟩ => ⟨S1x1x256, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S4x4096x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S4x4096x256, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x4096x256, .f32⟩
  | .hbm, ⟨33, _⟩ => ⟨S4x4096x256, .f32⟩
  | .hbm, ⟨34, _⟩ => ⟨S4x4096x256, .f32⟩
  | .hbm, ⟨35, _⟩ => ⟨S4x4096x256, .f32⟩
  | .hbm, ⟨36, _⟩ => ⟨S4x4096x256, .f32⟩
  | .hbm, ⟨37, _⟩ => ⟨S_, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S4x4096x256, .bf16⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]

class Facts₀ : Prop where
  bcast_S_S4x3x256 : S_.BroadcastsInDim S4x3x256 (![] : Fin 0 → Fin S4x3x256.rank)
  concatenates_S4x3x256_S4x4096x256_S4x4099x256_d1 : Shape.Concatenates [S4x3x256, S4x4096x256] S4x4099x256 1
  bcast_S_S4x4096x256 : S_.BroadcastsInDim S4x4096x256 (![] : Fin 0 → Fin S4x4096x256.rank)
  slices_S4x4099x256_S4x4096x256_0_0_0 : S4x4099x256.Slices ![0, 0, 0] S4x4096x256
  slices_S4x256_S1x256_0_0 : S4x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  slices_S4x4099x256_S4x4096x256_0_1_0 : S4x4099x256.Slices ![0, 1, 0] S4x4096x256
  slices_S4x256_S1x256_1_0 : S4x256.Slices ![1, 0] S1x256
  slices_S4x4099x256_S4x4096x256_0_2_0 : S4x4099x256.Slices ![0, 2, 0] S4x4096x256
  slices_S4x256_S1x256_2_0 : S4x256.Slices ![2, 0] S1x256
  slices_S4x4099x256_S4x4096x256_0_3_0 : S4x4099x256.Slices ![0, 3, 0] S4x4096x256
  slices_S4x256_S1x256_3_0 : S4x256.Slices ![3, 0] S1x256
  bitsLt_bf16_f32 : FTy.bits .bf16 < FTy.bits .f32

variable [Facts₀]

class Facts : Prop extends Facts₀ where

variable [Facts]
-- ==== Proof.OutSpec.lean ====
/-
  What one device leaves in its block of the result, as one function of what it read: its own block of x (512 rows),
  the filter k (4 taps) and the three rows that precede its block (the halo).

  Row r of the block is computed three ways, by where it lies:
    * r < 3: from the six rows halo ++ x[0:3], tap j on row r + j (the edge sum);
    * 3 ≤ r < 256: from x[0:256] rotated down by 0 … 3 rows, tap 3 - s on the rotation by s (rows below 3 of this sum
      wrap around and are not used);
    * 256 ≤ r: from x[248:512] the same way, the first 8 rows of that sum dropped.
  The halo is zero on the first device and the last three rows of the block to the left elsewhere.
-/
import proofs.«900435_g7700000000000436_dist_gconv1d_seqshard_i_b4_s512_c256_v7x_i8_bf16_1_alg».proof.Proof.Gen.KernelIdeal.Skeleton
import Idealize.ShloMosaic.Lib.ValueIdx

noncomputable section

namespace Cert.KernelIdeal.Out

open Cert.KernelIdeal Cert.KernelIdeal.Gen
open Idealize.ShloMosaic Idealize.ShloMosaic.ValueIdx

variable {F : FTy → Type} [FloatOps F]

/-- Rows [o, o + n) of a block of 512 rows. -/
def rowsOf (n o : ℕ) (h : o + n ≤ 512) (x : Vec F S4x512x256 .f32) : Vec F (⟨3, ![4, n, 256]⟩ : Shape) .f32 :=
  fun j => x (ix3 (j 0) ⟨o + (j 1).val, by have h1 : (j 1).val < n := (j 1).isLt; omega⟩ (j 2))

/-- Tap t of the filter, as a row. -/
def tap (t : Fin 4) (k : Vec F S4x256 .f32) : Vec F S1x256 .f32 := fun i => k (ix2 t (i 1))

/-- The device to the left on the line of eight (cyclically; the first device has none and does not use it). -/
def left (c : Fin 8) : Fin 8 := ⟨(c.val + 7) % 8, Nat.mod_lt _ (by decide)⟩

/-- The three rows before a block: zero for the first block, the last three rows of the block to the left otherwise. -/
def haloOf (xl : Option (Vec F S4x512x256 .f32)) : Vec F S4x3x256 .f32 :=
  match xl with
  | none => k0_pay5
  | some x => k0_pay1 (rowsOf 3 509 (by decide) x)

/-- The block of the result a device computes from its block `x` of the input, the filter `k` and the halo `h`. -/
def outSpec (x : Vec F S4x512x256 .f32) (k : Vec F S4x256 .f32) (h : Vec F S4x3x256 .f32) : Vec F S4x512x256 .bf16 :=
  fun i =>
    if h3 : (i 1).val < 3 then
      k0_pay7 (k0_pay6 h (rowsOf 3 0 (by decide) x) (tap 0 k) (tap 1 k) (tap 2 k) (tap 3 k)) (Scalar.ofBits .f32 0x3F000000#32)
        (ix3 (i 0) ⟨(i 1).val, h3⟩ (i 2))
    else if h256 : (i 1).val < 256 then
      k0_pay3 k (rowsOf 256 0 (by decide) x) (k0_pay2 k (rowsOf 256 0 (by decide) x)) (ix3 (i 0) ⟨(i 1).val, h256⟩ (i 2))
    else
      k0_pay4 k (rowsOf 264 248 (by decide) x) (ix3 (i 0) ⟨(i 1).val - 256, by have h1 : (i 1).val < 512 := (i 1).isLt; omega⟩ (i 2))

end Cert.KernelIdeal.Out

end
-- ==== Proof.Proto.lean ====
/-
  One device's part of a causal depthwise convolution along the sequence axis, cut into eight blocks of rows over a
  line of eight devices, and the protocol by which a block's first three rows get the three rows before them.

  Device c holds rows [512c, 512c + 512) of x. Each output row r needs rows r - 3 … r of x, so the first three rows of
  a block need the last three rows of the block before it (zeros for the first block). Device c copies those last
  three rows of its own block into a send buffer and, when it has a right neighbour, transfers them into the
  neighbour's halo buffer. The transfer may only start once the neighbour is inside the kernel (its halo buffer is
  allocated at entry): every device with a left neighbour signals that neighbour's barrier semaphore on entry, and a
  device with a right neighbour waits for that one unit before it sends.

  Cells of device c, one round each, one duty each:
    * its barrier cell — paid one unit by device c + 1 (if there is one); the unit hands over c + 1's halo buffer at
      any contents and the fact that c + 1's receive cell has reached round 0;
    * its send cell — paid by its own transfer's departure; the units hand back the send buffer at its contents;
    * its receive cell — paid by device c - 1's transfer (if there is one); the units hand over the halo buffer
      holding the last three rows of block c - 1.
  Levels: the five local copy semaphores and the send cell 0, the barrier 1, the receive cell 2. A device waits on its
  local copies and its barrier while it still owes its right neighbour's receive cell, which sits above both.
-/
import proofs.«900435_g7700000000000436_dist_gconv1d_seqshard_i_b4_s512_c256_v7x_i8_bf16_1_alg».proof.Proof.Gen.KernelIdeal
import proofs.«900435_g7700000000000436_dist_gconv1d_seqshard_i_b4_s512_c256_v7x_i8_bf16_1_alg».proof.Proof.Gen.KernelIdeal.Skeleton
import proofs.«900435_g7700000000000436_dist_gconv1d_seqshard_i_b4_s512_c256_v7x_i8_bf16_1_alg».proof.Proof.Gen.KernelIdeal.Launch
import proofs.«900435_g7700000000000436_dist_gconv1d_seqshard_i_b4_s512_c256_v7x_i8_bf16_1_alg».proof.Proof.Gen.KernelIdeal.Points
import proofs.«900435_g7700000000000436_dist_gconv1d_seqshard_i_b4_s512_c256_v7x_i8_bf16_1_alg».proof.Proof.OutSpec
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's copy, the local copies' counters -/

abbrev UX : Type := URounds (GSem nD τ sig) Unit
abbrev UU : Type := UR sig nD τ × (UX × Counters)

local notation "𝕄" => MT nD τ sig Unit (Elt F) ℕ UU ℕ

abbrev EP : Emb (UR sig nD τ) (MT nD τ sig Unit (Elt F) ℕ UU ℕ) := embL
/-- The protocol's rounds: the left half of the right factor. -/
def ER : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance ER_landsIn : (ER : Emb UX (MT nD τ sig Unit (Elt F) ℕ UU ℕ)).LandsIn (upEmb : UEmb _ (MT nD τ sig Unit (Elt F) ℕ UU ℕ)) := by
  unfold ER; infer_instance

variable (m : (ℓ : Loc nD τ sig) → Buf (Elt F) ℓ) (ρ : Dev nD → PrngReg)

/-! ## The line of devices -/

def nxt (c : Dev nD) : Dev nD := ⟨(c.val + 1) % 8, Nat.mod_lt _ (by decide)⟩
def prv (c : Dev nD) : Dev nD := Out.left c
/-- There is a device to the left / to the right. -/
abbrev hasL (c : Dev nD) : Prop := c.val ≠ 0
abbrev hasR (c : Dev nD) : Prop := c.val ≠ 7

theorem prv_nxt (c : Dev nD) : prv (nxt c) = c := by revert c; decide
theorem nxt_prv (c : Dev nD) : nxt (prv c) = c := by revert c; decide
theorem hasL_nxt (c : Dev nD) (h : hasR c) : hasL (nxt c) := by revert c; decide
theorem hasR_prv (c : Dev nD) (h : hasL c) : hasR (prv c) := by revert c; decide

def line : Dev nD ≃ Dev nD := ⟨nxt, prv, prv_nxt, nxt_prv⟩

/-- The printed conditions and device chains, in closed form over the mesh. -/
theorem cond1_iff (c : Dev nD) : k0_cond1 c = 1#1 ↔ hasL c := by revert c; decide
theorem cond2_iff (c : Dev nD) : k0_cond2 c = 1#1 ↔ hasR c := by revert c; decide
theorem dev1_eq (c : Dev nD) (h : k0_cond1 c = 1#1) : (⟨k0_dev1 c, k0_dev1_lt c h⟩ : Dev nD) = prv c := by
  revert c; decide
theorem dev2_eq (c : Dev nD) (h : k0_cond2 c = 1#1) : (⟨k0_dev2 c, k0_dev2_lt c h⟩ : Dev nD) = nxt c := by
  revert c; decide

/-! ## The memrefs and cells -/

abbrev aM : Memref sig .tc .hbm S4x512x256 .f32 := Memref.whole main_arg0
abbrev bM : Memref sig .tc .hbm S4x256 .f32 := Memref.whole main_arg1
abbrev rM : Memref sig .tc .hbm S4x512x256 .bf16 := Memref.whole main_v1
abbrev xM : Memref sig .tc .vmem S4x512x256 .f32 := Memref.whole cc0_scratch0
abbrev kM : Memref sig .tc .vmem S4x256 .f32 := Memref.whole cc0_scratch1
abbrev oM : Memref sig .tc .vmem S4x512x256 .bf16 := Memref.whole cc0_scratch2
abbrev hM : Memref sig .tc .vmem S4x3x256 .f32 := Memref.whole cc0_scratch3
abbrev sM : Memref sig .tc .vmem S4x3x256 .f32 := Memref.whole cc0_scratch4

abbrev barS : Sem sig := (SemArray.scalar (sig.barrier 0 rfl) : Sems sig S_).sem
abbrev sendS : DmaSems sig S_ := cc0_scratch7
abbrev recvS : DmaSems sig S_ := cc0_scratch8

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: the two load cells, the three store cells, send, receive. -/
abbrev osem : Fin 7 → SemLoc sig := fun k => .dma ⟨k.val, k.isLt⟩
/-- The protocol's three cells: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (hM : Memref sig .tc .vmem S4x3x256 .f32).view.dmaCredit
theorem N_pos : 0 < N := View.dmaCredit_pos _ (by decide)

/-! ## Contents -/

/-- Device `c`'s block of x and its copy of the filter, as launched. -/
def xblk (c : Dev nD) : Vec F S4x512x256 .f32 := m ((c : Thread nD τ).loc main_arg0)
def kblk (c : Dev nD) : Vec F S4x256 .f32 := m ((c : Thread nD τ).loc main_arg1)
/-- The last three rows of device `c`'s block: what its send buffer holds. -/
def sent (c : Dev nD) : Vec F S4x3x256 .f32 := k0_pay1 (Out.rowsOf 3 509 (by decide) (xblk m c))
/-- What device `c`'s halo buffer holds when it is read: zero on the first device, `prv c`'s last three rows elsewhere. -/
def halo (c : Dev nD) : Vec F S4x3x256 .f32 := Out.haloOf (if c.val = 0 then none else some (xblk m (prv c)))
/-- What device `c` leaves in its block of the result. -/
def outC (c : Dev nD) : Vec F S4x512x256 .bf16 := Out.outSpec (xblk m c) (kblk m c) (halo m c)

theorem halo_of_hasL (c : Dev nD) (h : hasL c) : halo m c = sent m (prv c) := by
  unfold halo sent Out.haloOf; rw [if_neg h]
theorem halo_first (c : Dev nD) (h : ¬ hasL c) : halo m c = (k0_pay5 : Vec F S4x3x256 .f32) := by
  unfold halo Out.haloOf; rw [if_pos (not_not.mp h)]

/-! ## The schedule -/

abbrev IsBar (g : GSem nD τ sig) : Prop := g.1.2 = .tc ∧ g.2 = .reg barS ∧ hasR g.1.1
abbrev IsSend (g : GSem nD τ sig) : Prop := g.1.2 = .tc ∧ g.2 = .dma sendS.sem ∧ hasR g.1.1
abbrev IsRecv (g : GSem nD τ sig) : Prop := g.1.2 = .tc ∧ g.2 = .dma recvS.sem ∧ hasL g.1.1

/-- One round, round 0, one duty a cell: a barrier cell with a device to its right the unit that device signals, a
    send cell with a device to its right the transfer's departure, a receive cell with a device to its left the
    transfer's arrival. -/
def lineRd : Rounds.Schedule (GSem nD τ sig) Unit 𝕄 where
  duties g r := if r = 0 ∧ (IsBar g ∨ IsSend g ∨ IsRecv g) then {()} else ∅
  unitless _ := False
  amount g _ _ := if g.2 = .reg barS then 1 else N
  payload g _ _ :=
    if g.2 = .reg barS then
      iprop((∃ f, (Memref.whole cc0_scratch3 : Memref sig .tc .vmem S4x3x256 .f32).view.loc ((nxt g.1.1 : Dev nD) : Thread nD τ) ↦{fullShare} f)
        ∗ reached ER (recvCell (nxt g.1.1)) 0)
    else if g.2 = .dma recvS.sem then
      ((Memref.whole cc0_scratch3 : Memref sig .tc .vmem S4x3x256 .f32).view.loc ((g.1.1 : Dev nD) : Thread nD τ) ↦{fullShare} sent m (prv g.1.1))
    else if g.2 = .dma sendS.sem then
      ((Memref.whole cc0_scratch4 : Memref sig .tc .vmem S4x3x256 .f32).view.loc ((g.1.1 : Dev nD) : Thread nD τ) ↦{fullShare} sent m g.1.1)
    else iprop(emp)
  amount_pos g _ _ _ := by
    by_cases h : g.2 = .reg barS
    · rw [if_pos h]; exact Nat.one_pos
    · rw [if_neg h]; exact N_pos

instance lineRd_payload_storable (g : GSem nD τ sig) (r : ℕ) (d : Unit) :
    BI.Storable (upEmb : UEmb _ 𝕄) ((lineRd (F := F) m).payload g r d) := by
  dsimp only [lineRd]
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar (h : c.val ≠ 7) : (lineRd (F := F) m).duties (barCell c) 0 = {()} := by
  dsimp only [lineRd]; exact if_pos ⟨rfl, .inl ⟨rfl, rfl, h⟩⟩
omit [FloatOps F] in
theorem duties_send (h : c.val ≠ 7) : (lineRd (F := F) m).duties (sendCell c) 0 = {()} := by
  dsimp only [lineRd]; exact if_pos ⟨rfl, .inr (.inl ⟨rfl, rfl, h⟩)⟩
omit [FloatOps F] in
theorem duties_recv (h : c.val ≠ 0) : (lineRd (F := F) m).duties (recvCell c) 0 = {()} := by
  dsimp only [lineRd]; exact if_pos ⟨rfl, .inr (.inr ⟨rfl, rfl, h⟩)⟩
omit [FloatOps F] in
theorem duties_later (g : GSem nD τ sig) : ∀ r, 1 ≤ r → (lineRd (F := F) m).duties g r = ∅ :=
  fun r hr => by dsimp only [lineRd]; rw [if_neg fun h => by omega]
omit [FloatOps F] in
/-- The last device's send cell and the first device's receive cell have no duty at all. -/
theorem duties_send_none (h : c.val = 7) : ∀ r, 0 ≤ r → (lineRd (F := F) m).duties (sendCell c) r = ∅ :=
  fun r _ => by
    dsimp only [lineRd]
    exact if_neg fun hh => hh.2.elim (fun hb => send_ne_bar hb.2.1) (fun h' => h'.elim (fun hs => hs.2.2 h) (fun hr => send_ne_recv hr.2.1))
omit [FloatOps F] in
theorem duties_recv_none (h : c.val = 0) : ∀ r, 0 ≤ r → (lineRd (F := F) m).duties (recvCell c) r = ∅ :=
  fun r _ => by
    dsimp only [lineRd]
    exact if_neg fun hh => hh.2.elim (fun hb => recv_ne_bar hb.2.1) (fun h' => h'.elim (fun hs => recv_ne_send hs.2.1) (fun hr => hr.2.2 h))

omit [FloatOps F] in
theorem amount_bar (d : Unit) : (lineRd (F := F) m).amount (barCell c) 0 d = 1 := by dsimp only [lineRd]; exact if_pos rfl
omit [FloatOps F] in
theorem amount_send (d : Unit) : (lineRd (F := F) m).amount (sendCell c) 0 d = N := by dsimp only [lineRd]; exact if_neg send_ne_bar
omit [FloatOps F] in
theorem amount_recv (d : Unit) : (lineRd (F := F) m).amount (recvCell c) 0 d = N := by dsimp only [lineRd]; exact if_neg recv_ne_bar

omit [FloatOps F] in
theorem expect_bar (h : c.val ≠ 7) : (lineRd (F := F) m).expect (barCell c) 0 = 1 := by
  unfold Schedule.expect Schedule.amountOf; rw [duties_bar m c h, Finset.sum_singleton, amount_bar]
omit [FloatOps F] in
theorem expect_send (h : c.val ≠ 7) : (lineRd (F := F) m).expect (sendCell c) 0 = N := by
  unfold Schedule.expect Schedule.amountOf; rw [duties_send m c h, Finset.sum_singleton, amount_send]
omit [FloatOps F] in
theorem expect_recv (h : c.val ≠ 0) : (lineRd (F := F) m).expect (recvCell c) 0 = N := by
  unfold Schedule.expect Schedule.amountOf; rw [duties_recv m c h, Finset.sum_singleton, amount_recv]

theorem payload_bar (d : Unit) : (lineRd (F := F) m).payload (barCell c) 0 d
    = iprop((∃ f, (Memref.whole cc0_scratch3 : Memref sig .tc .vmem S4x3x256 .f32).view.loc ((nxt c : Dev nD) : Thread nD τ) ↦{fullShare} f)
        ∗ reached ER (recvCell (nxt c)) 0) := by dsimp only [lineRd]; rw [if_pos rfl]
theorem payload_send (d : Unit) : (lineRd (F := F) m).payload (sendCell c) 0 d
    = ((Memref.whole cc0_scratch4 : Memref sig .tc .vmem S4x3x256 .f32).view.loc ((c : Dev nD) : Thread nD τ) ↦{fullShare} sent m c) := by
  dsimp only [lineRd]; rw [if_neg send_ne_bar, if_neg send_ne_recv, if_pos rfl]
theorem payload_recv (d : Unit) : (lineRd (F := F) m).payload (recvCell c) 0 d
    = ((Memref.whole cc0_scratch3 : Memref sig .tc .vmem S4x3x256 .f32).view.loc ((c : Dev nD) : Thread nD τ) ↦{fullShare} sent m (prv c)) := by
  dsimp only [lineRd]; rw [if_neg recv_ne_bar, if_pos rfl]

end Sched

/-! ## What each device owes at launch; the levels -/

/-- A device with a right neighbour owes that neighbour's receive cell the halo's credit; one with a left neighbour
    owes that neighbour's barrier cell one unit (the first thing it pays: the last summand). -/
def O₀ (c : Dev nD) : CellTallies nD τ sig Unit :=
  (if c.val ≠ 7 then tallyAt (recvCell (nxt c)) () N else 0) + (if c.val ≠ 0 then tallyAt (barCell (prv c)) () 1 else 0)

def L (g : GSem nD τ sig) : Finset Unit := if g.1.2 = .tc then {()} else ∅
/-- barrier cells at 1, receive cells at 2, everything else (local copies, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait on a cell below the receive cells' level while owing one receive cell its credit. -/
theorem mayWait_low (c d : Dev nD) (sm : SemLoc sig) (hsm : sm ≠ .dma recvS.sem) :
    (levAts L lv : sProp 𝕄) ⊢ MayWait (c : Thread nD τ) sm () (tallyAt (recvCell d) () N) :=
  MayOwe.of_cut (L := L) (lev := lv) (if sm = .reg barS then 1 else 0)
    (fun p hp => by rw [Finset.mem_singleton.mp hp, L_tc]; exact Finset.mem_singleton_self _)
    (fun g u hg => by
      rw [tallyAt_apply] at hg
      by_cases h : g = recvCell d ∧ u = ()
      · rw [h.1, L_tc]; exact Finset.mem_singleton_self _
      · rw [if_neg h] at hg; exact absurd hg (Nat.lt_irrefl 0))
    (fun p hp => by
      rw [Finset.mem_singleton.mp hp]; dsimp only [lv]
      by_cases hb : sm = .reg barS
      · rw [if_pos hb, if_pos hb]
      · rw [if_neg hb, if_neg hb, if_neg hsm])
    (fun g u hg => by
      rw [tallyAt_apply] at hg
      by_cases h : g = recvCell d ∧ u = ()
      · rw [h.1]; dsimp only [lv]; rw [if_neg recv_ne_bar, if_pos rfl]; split <;> decide
      · rw [if_neg h] at hg; exact absurd hg (Nat.lt_irrefl 0))

/-! ## What a device's body starts from and ends with -/

abbrev 𝒱₀ : Variants := Variants.none

/-- Buffer `M` on device `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The five local copy semaphores at zero. -/
abbrev lsems0 (c : Dev nD) : sProp 𝕄 :=
  iprop(semVal ((c : Thread nD τ), osem 0) 0 ∗ semVal ((c : Thread nD τ), osem 1) 0 ∗ semVal ((c : Thread nD τ), osem 2) 0
    ∗ semVal ((c : Thread nD τ), osem 3) 0 ∗ semVal ((c : Thread nD τ), osem 4) 0)

/-- The cells' invariants device `c`'s body opens, at the names the launch allocated them under: its own three, its
    right neighbour's receive cell (its transfer), its left neighbour's barrier cell (its signal). -/
def invs (K : Dev nD × Fin 3 → ℕ) (c : Dev nD) : sProp 𝕄 :=
  iprop(cellInv ER (lineRd m) (K (c, 0)) (barCell c) ∗ cellInv ER (lineRd m) (K (c, 1)) (sendCell c) ∗ cellInv ER (lineRd m) (K (c, 2)) (recvCell c)
    ∗ cellInv ER (lineRd m) (K (nxt c, 2)) (recvCell (nxt c)) ∗ cellInv ER (lineRd m) (K (prv c, 0)) (barCell (prv c)))

instance invs_persistent (K : Dev nD × Fin 3 → ℕ) (c : Dev nD) : BI.Persistent (invs m K c) := by unfold invs; infer_instance

/-- The protocol's ghost state device `c` starts from: the invariants; its positions at round 0 of its three cells; round 0
    reached of the cells it pays and of its own send and receive cells; the three tokens it pays with. (On the first and
    last device some of these go unused.) -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 () ∗ dutyTok ER (recvCell (nxt c)) 0 () ∗ dutyTok ER (sendCell c) 0 ())

/-- The credit the launch deals device `c`: its barrier's unit if it has a right neighbour, its receive cell's credit if it
    has a left one. -/
def creds (c : Dev nD) : sProp 𝕄 :=
  iprop(cred (if c.val ≠ 7 then tallyAt (barCell c) () 1 else 0) ∗ cred (if c.val ≠ 0 then tallyAt (recvCell c) () N else 0))

def start (c : Dev nD) : sProp 𝕄 :=
  iprop((∃ K, ghost m K c) ∗ creds c ∗ levAts L lv ∗ lsems0 c
    ∗ pt c aM (m ((c : Thread nD τ).loc main_arg0)) ∗ pt c bM (m ((c : Thread nD τ).loc main_arg1)) ∗ pt c rM (m ((c : Thread nD τ).loc main_v1)))

/-- The five scratch buffers at some contents. -/
def scratch (c : Dev nD) : sProp 𝕄 :=
  iprop((∃ f, pt c xM f) ∗ (∃ f, pt c kM f) ∗ (∃ f, pt c oM f) ∗ (∃ f, pt c hM f) ∗ (∃ f, pt c sM f))

def Φ₀ (c : Dev nD) : sProp 𝕄 := iprop(start m c ∗ scratch c)
/-- After the body: the result block computed, the arguments as they were, the scratch at some contents, the kernel's seven
    own semaphores at zero. -/
def Φ₁ (c : Dev nD) : sProp 𝕄 :=
  iprop((pt c aM (m ((c : Thread nD τ).loc main_arg0)) ∗ pt c bM (m ((c : Thread nD τ).loc main_arg1)) ∗ pt c rM (outC m c))
    ∗ scratch c ∗ lsems0 c ∗ semVal (sendCell c) 0 ∗ semVal (recvCell c) 0)

/-! ## The pipeline's proof data: no window, one point -/

/-- The one grid point's proof data on device `c`: before it the launch's holdings, after it the result computed; the
    device owes its neighbours' cells before, nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdealProof

end
-- ==== Proof.Final.lean ====
import proofs.«900435_g7700000000000436_dist_gconv1d_seqshard_i_b4_s512_c256_v7x_i8_bf16_1_alg».proof.Proof.OutSpec
import proofs.«900435_g7700000000000436_dist_gconv1d_seqshard_i_b4_s512_c256_v7x_i8_bf16_1_alg».proof.Proof.Gen.KernelIdeal.Launch
import Idealize.ShloMosaic.Lib.Pipeline.Value
import Idealize.ShloMosaic.Lib.Writes

noncomputable section
namespace Cert.KernelIdeal.Final
open Cert.KernelIdeal Cert.KernelIdeal.Gen
open Idealize.ShloMosaic Idealize.ShloMosaic.TcCoe

variable {F : FTy → Type} [FloatOps F]

abbrev xM : Memref sig .tc .vmem S4x512x256 .f32 := Memref.whole cc0_scratch0
abbrev kM : Memref sig .tc .vmem S4x256 .f32 := Memref.whole cc0_scratch1
abbrev oM : Memref sig .tc .vmem S4x512x256 .bf16 := Memref.whole cc0_scratch2
abbrev hM : Memref sig .tc .vmem S4x3x256 .f32 := Memref.whole cc0_scratch3
abbrev rM : Memref sig .tc .hbm S4x512x256 .bf16 := Memref.whole main_v1

/-- The filter as the body loads it whole, and tap by tap. -/
abbrev kAll (k : Vec F S4x256 .f32) : Vec F S4x256 .f32 :=
  View.readAt (Elt F) (kM).view (Rect.unit (s := S4x256) ![0, 0] S4x256.size inb_S4x256_S4x256_0_0).toLoadRect k
abbrev x256 (x : Vec F S4x512x256 .f32) : Vec F S4x256x256 .f32 :=
  View.readAt (Elt F) (xM).view (Rect.unit (s := S4x512x256) ![0, 0, 0] S4x256x256.size inb_S4x512x256_S4x256x256_0_0_0).toLoadRect x
abbrev x264 (x : Vec F S4x512x256 .f32) : Vec F S4x264x256 .f32 :=
  View.readAt (Elt F) (xM).view (Rect.unit (s := S4x512x256) ![0, 248, 0] S4x264x256.size inb_S4x512x256_S4x264x256_0_248_0).toLoadRect x

/-- The out buffer's stores, last first. -/
abbrev Ho1 (x : Vec F S4x512x256 .f32) (k : Vec F S4x256 .f32) : List (View.Piece (Elt F) S4x512x256 .bf16) :=
  [⟨Rect.unit (s := S4x512x256) ![0, 0, 0] S4x256x256.size inb_S4x512x256_S4x256x256_0_0_0,
    k0_pay3 (kAll k) (x256 x) (k0_pay2 (kAll k) (x256 x))⟩]
abbrev Ho2 (x : Vec F S4x512x256 .f32) (k : Vec F S4x256 .f32) : List (View.Piece (Elt F) S4x512x256 .bf16) :=
  ⟨Rect.unit (s := S4x512x256) ![0, 256, 0] S4x256x256.size inb_S4x512x256_S4x256x256_0_256_0, k0_pay4 (kAll k) (x264 x)⟩ :: Ho1 x k
abbrev edge (x : Vec F S4x512x256 .f32) (k : Vec F S4x256 .f32) (h : Vec F S4x3x256 .f32) : FVec F S4x3x256 .bf16 :=
  k0_pay7 (k0_pay6
      (View.readAt (Elt F) (hM).view (Rect.unit (s := S4x3x256) ![0, 0, 0] S4x3x256.size inb_S4x3x256_S4x3x256_0_0_0).toLoadRect h)
      (View.readAt (Elt F) (xM).view (Rect.unit (s := S4x512x256) ![0, 0, 0] S4x3x256.size inb_S4x512x256_S4x3x256_0_0_0).toLoadRect x)
      (View.readAt (Elt F) (kM).view (Rect.unit (s := S4x256) ![0, 0] S1x256.size inb_S4x256_S1x256_0_0).toLoadRect k)
      (View.readAt (Elt F) (kM).view (Rect.unit (s := S4x256) ![1, 0] S1x256.size inb_S4x256_S1x256_1_0).toLoadRect k)
      (View.readAt (Elt F) (kM).view (Rect.unit (s := S4x256) ![2, 0] S1x256.size inb_S4x256_S1x256_2_0).toLoadRect k)
      (View.readAt (Elt F) (kM).view (Rect.unit (s := S4x256) ![3, 0] S1x256.size inb_S4x256_S1x256_3_0).toLoadRect k))
    (FloatOps.ofBits FTy.f32 1056964608#32)
abbrev Ho3 (x : Vec F S4x512x256 .f32) (k : Vec F S4x256 .f32) (h : Vec F S4x3x256 .f32) : List (View.Piece (Elt F) S4x512x256 .bf16) :=
  ⟨Rect.unit (s := S4x512x256) ![0, 0, 0] S4x4x256.size inb_S4x512x256_S4x4x256_0_0_0,
    updateSlice ((oM).view.readCov (Ho2 x k) (Rect.unit (s := S4x512x256) ![0, 0, 0] S4x4x256.size inb_S4x512x256_S4x4x256_0_0_0).toLoadRect)
      (edge x k h) ![0, 0, 0] slices_S4x4x256_S4x3x256_0_0_0⟩ :: Ho2 x k

/-- The result array after the three copies out of the out buffer, over any prior contents `r0` of the array and `fo` of
    the out buffer. -/
abbrev final (x : Vec F S4x512x256 .f32) (k : Vec F S4x256 .f32) (h : Vec F S4x3x256 .f32)
    (fo r0 : Vec F S4x512x256 .bf16) : Vec F S4x512x256 .bf16 :=
  (rM).view.writes (Elt F) r0
    [⟨Rect.unit (s := S4x512x256) ![0, 0, 0] S4x8x256.size inb_S4x512x256_S4x8x256_0_0_0,
        ReadAs.same.apply (View.read (Elt F) ((oM).slice (Rect.unit (s := S4x512x256) ![0, 0, 0] S4x8x256.size inb_S4x512x256_S4x8x256_0_0_0) (fun _ => rfl)).view
          ((oM).view.writes (Elt F) fo (Ho3 x k h)))⟩,
      ⟨Rect.unit (s := S4x512x256) ![0, 256, 0] S4x256x256.size inb_S4x512x256_S4x256x256_0_256_0,
        ReadAs.same.apply (View.read (Elt F) ((oM).slice (Rect.unit (s := S4x512x256) ![0, 256, 0] S4x256x256.size inb_S4x512x256_S4x256x256_0_256_0) (fun _ => rfl)).view
          ((oM).view.writes (Elt F) fo (Ho2 x k)))⟩,
      ⟨Rect.unit (s := S4x512x256) ![0, 8, 0] S4x248x256.size inb_S4x512x256_S4x248x256_0_8_0,
        ReadAs.same.apply (View.read (Elt F) ((oM).slice (Rect.unit (s := S4x512x256) ![0, 8, 0] S4x248x256.size inb_S4x512x256_S4x248x256_0_8_0) (fun _ => rfl)).view
          ((oM).view.writes (Elt F) fo (Ho1 x k)))⟩]

/-! ## Rows of the 512-row block, as rectangles: where their elements lie, and reads and writes through them -/

section Rows
open Idealize.ShloMosaic.ValueIdx
variable {sig' : RefSig} {κ : Kind} {sp : Space} {e : EltTy} {Val : EltTy → Type}

/-- Index (b, q, ch) of rows [o, o + n) is the block's index (b, o + q, ch). -/
theorem emb_rows (o n : ℕ)
    (inb : ∀ a : Fin 3, (![0, o, 0] : Fin 3 → ℕ) a + (![4, n, 256] : Fin 3 → ℕ) a ≤ (![4, 512, 256] : Fin 3 → ℕ) a)
    (b : Fin 4) (q : Fin n) (ch : Fin 256) (r : Fin 512) (hr : o + q.val = r.val) :
    (Rect.unit (s := ⟨3, ![4, 512, 256]⟩) ![0, o, 0] (⟨3, ![4, n, 256]⟩ : Shape).size inb).emb (ix3 b q ch) = ix3 b r ch := by
  funext a
  apply Fin.ext
  match a with
  | ⟨0, _⟩ => show 0 + 1 * b.val = b.val; omega
  | ⟨1, _⟩ => show o + 1 * q.val = r.val; omega
  | ⟨2, _⟩ => show 0 + 1 * ch.val = ch.val; omega

/-- A row inside the newest piece's rows reads that piece's payload. -/
theorem read_cons_rows_hit (v : View sig' κ sp (⟨3, ![4, 512, 256]⟩ : Shape) e) (f : v.ty.Contents Val) (o n : ℕ)
    (inb : ∀ a : Fin 3, (![0, o, 0] : Fin 3 → ℕ) a + (![4, n, 256] : Fin 3 → ℕ) a ≤ (![4, 512, 256] : Fin 3 → ℕ) a)
    (w : (⟨3, ![4, n, 256]⟩ : Shape).Idx → Val e) (L : List (View.Piece Val (⟨3, ![4, 512, 256]⟩ : Shape) e))
    (b : Fin 4) (r : Fin 512) (q : Fin n) (ch : Fin 256) (hr : o + q.val = r.val) :
    v.read Val (v.writes Val f
        (⟨Rect.unit (s := ⟨3, ![4, 512, 256]⟩) ![0, o, 0] (⟨3, ![4, n, 256]⟩ : Shape).size inb, w⟩ :: L)) (ix3 b r ch)
      = w (ix3 b q ch) := by
  rw [← emb_rows o n inb b q ch r hr]
  exact View.read_writes_cons_emb v f (Rect.unit (s := ⟨3, ![4, 512, 256]⟩) ![0, o, 0] (⟨3, ![4, n, 256]⟩ : Shape).size inb) w L (ix3 b q ch)

/-- A row outside the newest piece's rows reads what the earlier pieces left. -/
theorem read_cons_rows_miss (v : View sig' κ sp (⟨3, ![4, 512, 256]⟩ : Shape) e) (f : v.ty.Contents Val) (o n : ℕ)
    (inb : ∀ a : Fin 3, (![0, o, 0] : Fin 3 → ℕ) a + (![4, n, 256] : Fin 3 → ℕ) a ≤ (![4, 512, 256] : Fin 3 → ℕ) a)
    (w : (⟨3, ![4, n, 256]⟩ : Shape).Idx → Val e) (L : List (View.Piece Val (⟨3, ![4, 512, 256]⟩ : Shape) e))
    (b : Fin 4) (r : Fin 512) (ch : Fin 256) (hr : r.val < o ∨ o + n ≤ r.val) :
    v.read Val (v.writes Val f
        (⟨Rect.unit (s := ⟨3, ![4, 512, 256]⟩) ![0, o, 0] (⟨3, ![4, n, 256]⟩ : Shape).size inb, w⟩ :: L)) (ix3 b r ch)
      = v.read Val (v.writes Val f L) (ix3 b r ch) := by
  rw [View.writes_cons]
  refine View.read_slice_write_of_not_mem (Rect.unit (s := ⟨3, ![4, 512, 256]⟩) ![0, o, 0] (⟨3, ![4, n, 256]⟩ : Shape).size inb) _ w _ ?_
  rw [Rect.map_emb_univ]
  intro hm
  have h1 : o ≤ r.val ∧ r.val < o + n := (Rect.mem_set_unit.mp hm) 1
  omega

/-- A read through rows [o, o + n) of a view, at (b, q, ch), is the view's read at (b, o + q, ch). -/
theorem read_slice_rows (v : View sig' κ sp (⟨3, ![4, 512, 256]⟩ : Shape) e) (g : v.ty.Contents Val) (o n : ℕ)
    (inb : ∀ a : Fin 3, (![0, o, 0] : Fin 3 → ℕ) a + (![4, n, 256] : Fin 3 → ℕ) a ≤ (![4, 512, 256] : Fin 3 → ℕ) a)
    (b : Fin 4) (q : Fin n) (ch : Fin 256) (r : Fin 512) (hr : o + q.val = r.val) :
    (v.slice (Rect.unit (s := ⟨3, ![4, 512, 256]⟩) ![0, o, 0] (⟨3, ![4, n, 256]⟩ : Shape).size inb)).read Val g (ix3 b q ch)
      = v.read Val g (ix3 b r ch) := by
  rw [← emb_rows o n inb b q ch r hr]
  rfl

end Rows

/-! ## The loads of the body, as rows of the block, taps of the filter, and the halo -/

section Loads
open Idealize.ShloMosaic.ValueIdx

omit [FloatOps F] in
/-- A load of rows [o, o + n) of the x buffer is those rows. -/
theorem readAt_x_rows (x : Vec F S4x512x256 .f32) (o n : ℕ) (ho : o + n ≤ 512)
    (inb : ∀ a : Fin 3, (![0, o, 0] : Fin 3 → ℕ) a + (![4, n, 256] : Fin 3 → ℕ) a ≤ (![4, 512, 256] : Fin 3 → ℕ) a) :
    View.readAt (Elt F) (xM).view
        (Rect.unit (s := S4x512x256) ![0, o, 0] (⟨3, ![4, n, 256]⟩ : Shape).size inb).toLoadRect x
      = Out.rowsOf n o ho x := by
  funext j
  show x _ = x _
  congr 1
  funext a
  apply Fin.ext
  match a with
  | ⟨0, _⟩ => show 0 + 1 * (j 0).val = (j 0).val; omega
  | ⟨1, _⟩ => show o + 1 * (j 1).val = o + (j 1).val; omega
  | ⟨2, _⟩ => show 0 + 1 * (j 2).val = (j 2).val; omega

omit [FloatOps F] in
/-- A load of row t of the filter buffer is tap t. -/
theorem readAt_k_tap (k : Vec F S4x256 .f32) (t : Fin 4) (off : Fin 2 → ℕ) (h0 : off 0 = t.val) (h1 : off 1 = 0)
    (inb : ∀ a : Fin 2, off a + (![1, 256] : Fin 2 → ℕ) a ≤ (![4, 256] : Fin 2 → ℕ) a) :
    View.readAt (Elt F) (kM).view (Rect.unit (s := S4x256) off S1x256.size inb).toLoadRect k = Out.tap t k := by
  funext j
  show k _ = k _
  congr 1
  funext a
  apply Fin.ext
  match a with
  | ⟨0, _⟩ =>
    have h0 : (j 0).val < 1 := (j 0).isLt
    show off 0 + 1 * (j 0).val = t.val
    omega
  | ⟨1, _⟩ => show off 1 + 1 * (j 1).val = (j 1).val; omega

omit [FloatOps F] in
/-- A load of the whole filter buffer is the filter. -/
theorem kAll_eq (k : Vec F S4x256 .f32) : kAll k = k := by
  funext j
  show k _ = k j
  congr 1
  funext a
  apply Fin.ext
  match a with
  | ⟨0, _⟩ => show 0 + 1 * (j 0).val = (j 0).val; omega
  | ⟨1, _⟩ => show 0 + 1 * (j 1).val = (j 1).val; omega

omit [FloatOps F] in
/-- A load of the whole halo buffer is the halo. -/
theorem readAt_h_whole (h : Vec F S4x3x256 .f32) :
    View.readAt (Elt F) (hM).view
        (Rect.unit (s := S4x3x256) ![0, 0, 0] S4x3x256.size inb_S4x3x256_S4x3x256_0_0_0).toLoadRect h = h := by
  funext j
  show h _ = h j
  congr 1
  funext a
  apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

omit [FloatOps F] in
theorem x256_eq (x : Vec F S4x512x256 .f32) : x256 x = Out.rowsOf 256 0 (by decide) x :=
  readAt_x_rows x 0 256 (by decide) _
omit [FloatOps F] in
theorem x264_eq (x : Vec F S4x512x256 .f32) : x264 x = Out.rowsOf 264 248 (by decide) x :=
  readAt_x_rows x 248 264 (by decide) _

/-- The edge payload is the specification's first branch. -/
theorem edge_eq (x : Vec F S4x512x256 .f32) (k : Vec F S4x256 .f32) (h : Vec F S4x3x256 .f32) :
    edge x k h
      = k0_pay7 (k0_pay6 h (Out.rowsOf 3 0 (by decide) x) (Out.tap 0 k) (Out.tap 1 k) (Out.tap 2 k) (Out.tap 3 k))
          (Scalar.ofBits .f32 0x3F000000#32) := by
  show k0_pay7 (k0_pay6 _ _ _ _ _ _) _ = _
  rw [readAt_h_whole, readAt_x_rows x 0 3 (by decide) inb_S4x512x256_S4x3x256_0_0_0,
    readAt_k_tap k 0 ![0, 0] rfl rfl inb_S4x256_S1x256_0_0, readAt_k_tap k 1 ![1, 0] rfl rfl inb_S4x256_S1x256_1_0,
    readAt_k_tap k 2 ![2, 0] rfl rfl inb_S4x256_S1x256_2_0, readAt_k_tap k 3 ![3, 0] rfl rfl inb_S4x256_S1x256_3_0]

end Loads

/-! ## The specification's three ranges of rows, and a read-modify-write of four rows -/

section Spec
open Idealize.ShloMosaic.ValueIdx

theorem outSpec_edge (x : Vec F S4x512x256 .f32) (k : Vec F S4x256 .f32) (h : Vec F S4x3x256 .f32)
    (b : Fin 4) (r : Fin 512) (ch : Fin 256) (h3 : r.val < 3) :
    Out.outSpec x k h (ix3 b r ch)
      = k0_pay7 (k0_pay6 h (Out.rowsOf 3 0 (by decide) x) (Out.tap 0 k) (Out.tap 1 k) (Out.tap 2 k) (Out.tap 3 k))
          (Scalar.ofBits .f32 0x3F000000#32) (ix3 b (⟨r.val, h3⟩ : Fin 3) ch) := by
  unfold Out.outSpec
  exact dif_pos h3

theorem outSpec_lo (x : Vec F S4x512x256 .f32) (k : Vec F S4x256 .f32) (h : Vec F S4x3x256 .f32)
    (b : Fin 4) (r : Fin 512) (ch : Fin 256) (h3 : ¬ r.val < 3) (h256 : r.val < 256) :
    Out.outSpec x k h (ix3 b r ch)
      = k0_pay3 k (Out.rowsOf 256 0 (by decide) x) (k0_pay2 k (Out.rowsOf 256 0 (by decide) x))
          (ix3 b (⟨r.val, h256⟩ : Fin 256) ch) := by
  unfold Out.outSpec
  exact (dif_neg h3).trans (dif_pos h256)

theorem outSpec_hi (x : Vec F S4x512x256 .f32) (k : Vec F S4x256 .f32) (h : Vec F S4x3x256 .f32)
    (b : Fin 4) (r : Fin 512) (ch : Fin 256) (h256 : ¬ r.val < 256) :
    Out.outSpec x k h (ix3 b r ch)
      = k0_pay4 k (Out.rowsOf 264 248 (by decide) x)
          (ix3 b (⟨r.val - 256, by have := r.isLt; omega⟩ : Fin 256) ch) := by
  unfold Out.outSpec
  exact (dif_neg (show ¬ r.val < 3 by omega)).trans (dif_neg h256)

/-- Three rows put over the first three of four: rows 0 … 2 are the new rows, row 3 is kept. -/
theorem updateSlice_rows {α : Type} (old : S4x4x256.Idx → α) (upd : S4x3x256.Idx → α) (hs : S4x4x256.Slices ![0, 0, 0] S4x3x256)
    (b : Fin 4) (q : Fin 4) (ch : Fin 256) :
    updateSlice old upd ![0, 0, 0] hs (ix3 b q ch)
      = if hq : q.val < 3 then upd (ix3 b (⟨q.val, hq⟩ : Fin 3) ch) else old (ix3 b q ch) := by
  unfold updateSlice
  by_cases hq : q.val < 3
  · have hb : b.val < 4 := b.isLt
    have hch : ch.val < 256 := ch.isLt
    have hin : ∀ a : Fin S4x4x256.rank, (![0, 0, 0] : Fin 3 → ℕ) a ≤ (ix3 b q ch a).val
        ∧ (ix3 b q ch a).val < (![0, 0, 0] : Fin 3 → ℕ) a + S4x3x256.size (a.cast hs.1.symm) := by
      intro a
      match a with
      | ⟨0, _⟩ => show 0 ≤ b.val ∧ b.val < 0 + 4; omega
      | ⟨1, _⟩ => show 0 ≤ q.val ∧ q.val < 0 + 3; omega
      | ⟨2, _⟩ => show 0 ≤ ch.val ∧ ch.val < 0 + 256; omega
    rw [dif_pos hin, dif_pos hq]
    congr 1
    funext a
    apply Fin.ext
    match a with
    | ⟨0, _⟩ => show b.val - 0 = b.val; omega
    | ⟨1, _⟩ => show q.val - 0 = q.val; omega
    | ⟨2, _⟩ => show ch.val - 0 = ch.val; omega
  · rw [dif_neg hq, dif_neg]
    intro hin
    have h1 : 0 ≤ q.val ∧ q.val < 0 + 3 := hin (1 : Fin 3)
    omega

end Spec

/-! ## The out buffer after each of its stores, row by row -/

section OutBuffer
open Idealize.ShloMosaic.ValueIdx

/-- After the first store a row below 256 holds the first payload, whatever the buffer held before. -/
theorem o1_at (x : Vec F S4x512x256 .f32) (k : Vec F S4x256 .f32) (f : Vec F S4x512x256 .bf16)
    (b : Fin 4) (r : Fin 512) (ch : Fin 256) (h256 : r.val < 256) :
    (oM).view.read (Elt F) ((oM).view.writes (Elt F) f (Ho1 x k)) (ix3 b r ch)
      = k0_pay3 k (Out.rowsOf 256 0 (by decide) x) (k0_pay2 k (Out.rowsOf 256 0 (by decide) x))
          (ix3 b (⟨r.val, h256⟩ : Fin 256) ch) := by
  refine (read_cons_rows_hit (oM).view f 0 256 _ _ [] b r ⟨r.val, h256⟩ ch (by show 0 + r.val = r.val; omega)).trans ?_
  rw [kAll_eq, x256_eq]

/-- After the second store a row below 256 still holds the first payload … -/
theorem o2_at_lo (x : Vec F S4x512x256 .f32) (k : Vec F S4x256 .f32) (f : Vec F S4x512x256 .bf16)
    (b : Fin 4) (r : Fin 512) (ch : Fin 256) (h256 : r.val < 256) :
    (oM).view.read (Elt F) ((oM).view.writes (Elt F) f (Ho2 x k)) (ix3 b r ch)
      = k0_pay3 k (Out.rowsOf 256 0 (by decide) x) (k0_pay2 k (Out.rowsOf 256 0 (by decide) x))
          (ix3 b (⟨r.val, h256⟩ : Fin 256) ch) :=
  (read_cons_rows_miss (oM).view f 256 256 _ _ (Ho1 x k) b r ch (Or.inl h256)).trans (o1_at x k f b r ch h256)

/-- … and a row from 256 on holds the second payload. -/
theorem o2_at_hi (x : Vec F S4x512x256 .f32) (k : Vec F S4x256 .f32) (f : Vec F S4x512x256 .bf16)
    (b : Fin 4) (r : Fin 512) (ch : Fin 256) (h256 : ¬ r.val < 256) :
    (oM).view.read (Elt F) ((oM).view.writes (Elt F) f (Ho2 x k)) (ix3 b r ch)
      = k0_pay4 k (Out.rowsOf 264 248 (by decide) x)
          (ix3 b (⟨r.val - 256, by have := r.isLt; omega⟩ : Fin 256) ch) := by
  have hr : r.val < 512 := r.isLt
  refine (read_cons_rows_hit (oM).view f 256 256 _ _ (Ho1 x k) b r ⟨r.val - 256, by omega⟩ ch
    (by show 256 + (r.val - 256) = r.val; omega)).trans ?_
  rw [kAll_eq, x264_eq]

/-- After the read-modify-write of the first four rows, a row below 3 holds the edge payload; -/
theorem o3_at_edge (x : Vec F S4x512x256 .f32) (k : Vec F S4x256 .f32) (h : Vec F S4x3x256 .f32) (f : Vec F S4x512x256 .bf16)
    (b : Fin 4) (r : Fin 512) (ch : Fin 256) (h3 : r.val < 3) :
    (oM).view.read (Elt F) ((oM).view.writes (Elt F) f (Ho3 x k h)) (ix3 b r ch)
      = k0_pay7 (k0_pay6 h (Out.rowsOf 3 0 (by decide) x) (Out.tap 0 k) (Out.tap 1 k) (Out.tap 2 k) (Out.tap 3 k))
          (Scalar.ofBits .f32 0x3F000000#32) (ix3 b (⟨r.val, h3⟩ : Fin 3) ch) := by
  refine (read_cons_rows_hit (oM).view f 0 4 _ _ (Ho2 x k) b r ⟨r.val, by omega⟩ ch (by show 0 + r.val = r.val; omega)).trans ?_
  rw [updateSlice_rows, dif_pos (show r.val < 3 from h3), edge_eq]

/-- a row from 3 to 255 holds the first payload: row 3 because the read-modify-write keeps what it read there, the rows
    after it because it does not touch them. -/
theorem o3_at_lo (x : Vec F S4x512x256 .f32) (k : Vec F S4x256 .f32) (h : Vec F S4x3x256 .f32) (f : Vec F S4x512x256 .bf16)
    (b : Fin 4) (r : Fin 512) (ch : Fin 256) (h3 : ¬ r.val < 3) (h256 : r.val < 256) :
    (oM).view.read (Elt F) ((oM).view.writes (Elt F) f (Ho3 x k h)) (ix3 b r ch)
      = k0_pay3 k (Out.rowsOf 256 0 (by decide) x) (k0_pay2 k (Out.rowsOf 256 0 (by decide) x))
          (ix3 b (⟨r.val, h256⟩ : Fin 256) ch) := by
  by_cases h4 : r.val < 4
  · refine (read_cons_rows_hit (oM).view f 0 4 _ _ (Ho2 x k) b r ⟨r.val, h4⟩ ch (by show 0 + r.val = r.val; omega)).trans ?_
    rw [updateSlice_rows, dif_neg (show ¬ r.val < 3 from h3), View.readCov, View.readAt_rect]
    refine (read_slice_rows (Val := Elt F) (oM).view ((oM).view.writes (Elt F) (oM).view.junk (Ho2 x k)) 0 4
      inb_S4x512x256_S4x4x256_0_0_0 b ⟨r.val, h4⟩ ch r (by show 0 + r.val = r.val; omega)).trans ?_
    exact o2_at_lo x k _ b r ch h256
  · exact (read_cons_rows_miss (oM).view f 0 4 _ _ (Ho2 x k) b r ch (Or.inr (by omega))).trans (o2_at_lo x k f b r ch h256)

end OutBuffer

/-! ## The result array after the three copies, and a copy's payload, over any contents copied -/

section Result
open Idealize.ShloMosaic.ValueIdx

omit [FloatOps F] in
/-- What a copy of rows [o, o + n) out of the out buffer carries at (b, q, ch): the buffer's element at (b, o + q, ch). -/
theorem copy_at (G : Vec F S4x512x256 .bf16) (o n : ℕ)
    (inb : ∀ a : Fin 3, (![0, o, 0] : Fin 3 → ℕ) a + (![4, n, 256] : Fin 3 → ℕ) a ≤ (![4, 512, 256] : Fin 3 → ℕ) a)
    (hst : ∀ a, (Rect.unit (s := S4x512x256) ![0, o, 0] (⟨3, ![4, n, 256]⟩ : Shape).size inb).stride a = 1)
    (b : Fin 4) (q : Fin n) (ch : Fin 256) (r : Fin 512) (hr : o + q.val = r.val) :
    ReadAs.same.apply (View.read (Elt F)
        ((oM).slice (Rect.unit (s := S4x512x256) ![0, o, 0] (⟨3, ![4, n, 256]⟩ : Shape).size inb) hst).view G) (ix3 b q ch)
      = (oM).view.read (Elt F) G (ix3 b r ch) :=
  read_slice_rows (Val := Elt F) (oM).view G o n inb b q ch r hr

omit [FloatOps F] in
/-- The result array read whole is its contents. -/
theorem whole_read (g : Vec F S4x512x256 .bf16) (i : S4x512x256.Idx) : (rM).view.read (Elt F) g i = g i := rfl

omit [FloatOps F] in
/-- Rows 0 … 7 of the result array hold the last copy's payload; -/
theorem r_at_head (r0 : Vec F S4x512x256 .bf16) (w1 : Vec F S4x8x256 .bf16) (w2 : Vec F S4x256x256 .bf16) (w3 : Vec F S4x248x256 .bf16)
    (b : Fin 4) (r : Fin 512) (ch : Fin 256) (h8 : r.val < 8) :
    (rM).view.read (Elt F) ((rM).view.writes (Elt F) r0
        [⟨Rect.unit (s := S4x512x256) ![0, 0, 0] S4x8x256.size inb_S4x512x256_S4x8x256_0_0_0, w1⟩,
          ⟨Rect.unit (s := S4x512x256) ![0, 256, 0] S4x256x256.size inb_S4x512x256_S4x256x256_0_256_0, w2⟩,
          ⟨Rect.unit (s := S4x512x256) ![0, 8, 0] S4x248x256.size inb_S4x512x256_S4x248x256_0_8_0, w3⟩]) (ix3 b r ch)
      = w1 (ix3 b (⟨r.val, h8⟩ : Fin 8) ch) :=
  read_cons_rows_hit (Val := Elt F) (rM).view r0 0 8 inb_S4x512x256_S4x8x256_0_0_0 w1 _ b r ⟨r.val, h8⟩ ch
    (by show 0 + r.val = r.val; omega)

omit [FloatOps F] in
/-- rows 8 … 255 the first copy's; -/
theorem r_at_mid (r0 : Vec F S4x512x256 .bf16) (w1 : Vec F S4x8x256 .bf16) (w2 : Vec F S4x256x256 .bf16) (w3 : Vec F S4x248x256 .bf16)
    (b : Fin 4) (r : Fin 512) (ch : Fin 256) (h8 : ¬ r.val < 8) (h256 : r.val < 256) :
    (rM).view.read (Elt F) ((rM).view.writes (Elt F) r0
        [⟨Rect.unit (s := S4x512x256) ![0, 0, 0] S4x8x256.size inb_S4x512x256_S4x8x256_0_0_0, w1⟩,
          ⟨Rect.unit (s := S4x512x256) ![0, 256, 0] S4x256x256.size inb_S4x512x256_S4x256x256_0_256_0, w2⟩,
          ⟨Rect.unit (s := S4x512x256) ![0, 8, 0] S4x248x256.size inb_S4x512x256_S4x248x256_0_8_0, w3⟩]) (ix3 b r ch)
      = w3 (ix3 b (⟨r.val - 8, by omega⟩ : Fin 248) ch) :=
  (read_cons_rows_miss (Val := Elt F) (rM).view r0 0 8 inb_S4x512x256_S4x8x256_0_0_0 w1 _ b r ch (Or.inr (by omega))).trans
    ((read_cons_rows_miss (Val := Elt F) (rM).view r0 256 256 inb_S4x512x256_S4x256x256_0_256_0 w2 _ b r ch (Or.inl h256)).trans
      (read_cons_rows_hit (Val := Elt F) (rM).view r0 8 248 inb_S4x512x256_S4x248x256_0_8_0 w3 [] b r ⟨r.val - 8, by omega⟩ ch
        (by show 8 + (r.val - 8) = r.val; omega)))

omit [FloatOps F] in
/-- rows 256 … 511 the second copy's. -/
theorem r_at_hi (r0 : Vec F S4x512x256 .bf16) (w1 : Vec F S4x8x256 .bf16) (w2 : Vec F S4x256x256 .bf16) (w3 : Vec F S4x248x256 .bf16)
    (b : Fin 4) (r : Fin 512) (ch : Fin 256) (h256 : ¬ r.val < 256) :
    (rM).view.read (Elt F) ((rM).view.writes (Elt F) r0
        [⟨Rect.unit (s := S4x512x256) ![0, 0, 0] S4x8x256.size inb_S4x512x256_S4x8x256_0_0_0, w1⟩,
          ⟨Rect.unit (s := S4x512x256) ![0, 256, 0] S4x256x256.size inb_S4x512x256_S4x256x256_0_256_0, w2⟩,
          ⟨Rect.unit (s := S4x512x256) ![0, 8, 0] S4x248x256.size inb_S4x512x256_S4x248x256_0_8_0, w3⟩]) (ix3 b r ch)
      = w2 (ix3 b (⟨r.val - 256, by have := r.isLt; omega⟩ : Fin 256) ch) :=
  (read_cons_rows_miss (Val := Elt F) (rM).view r0 0 8 inb_S4x512x256_S4x8x256_0_0_0 w1 _ b r ch (Or.inr (by omega))).trans
    (read_cons_rows_hit (Val := Elt F) (rM).view r0 256 256 inb_S4x512x256_S4x256x256_0_256_0 w2 _ b r
      ⟨r.val - 256, by have := r.isLt; omega⟩ ch (by show 256 + (r.val - 256) = r.val; have := r.isLt; omega))

end Result

open Idealize.ShloMosaic.ValueIdx in
theorem final_eq (x : Vec F S4x512x256 .f32) (k : Vec F S4x256 .f32) (h : Vec F S4x3x256 .f32) (fo r0 : Vec F S4x512x256 .bf16) :
    final x k h fo r0 = Out.outSpec x k h := by
  funext i
  obtain ⟨b, r, ch, rfl⟩ : ∃ (b : Fin 4) (r : Fin 512) (ch : Fin 256), i = ix3 b r ch := ⟨i 0, i 1, i 2, eq_ix3 i⟩
  have hr : r.val < 512 := r.isLt
  rw [← whole_read (final x k h fo r0) (ix3 b r ch)]
  by_cases h8 : r.val < 8
  · -- rows 0 … 7: copied out after the read-modify-write
    refine (r_at_head r0 _ _ _ b r ch h8).trans ?_
    refine (copy_at _ 0 8 _ _ b ⟨r.val, h8⟩ ch r (by show 0 + r.val = r.val; omega)).trans ?_
    by_cases h3 : r.val < 3
    · exact (o3_at_edge x k h fo b r ch h3).trans (outSpec_edge x k h b r ch h3).symm
    · exact (o3_at_lo x k h fo b r ch h3 (by omega)).trans (outSpec_lo x k h b r ch h3 (by omega)).symm
  · by_cases h256 : r.val < 256
    · -- rows 8 … 255: copied out after the first store
      refine (r_at_mid r0 _ _ _ b r ch h8 h256).trans ?_
      refine (copy_at _ 8 248 _ _ b ⟨r.val - 8, by omega⟩ ch r (by show 8 + (r.val - 8) = r.val; omega)).trans ?_
      exact (o1_at x k fo b r ch h256).trans (outSpec_lo x k h b r ch (by omega) h256).symm
    · -- rows 256 … 511: copied out after the second store
      refine (r_at_hi r0 _ _ _ b r ch h256).trans ?_
      refine (copy_at _ 256 256 _ _ b ⟨r.val - 256, by omega⟩ ch r (by show 256 + (r.val - 256) = r.val; omega)).trans ?_
      exact (o2_at_hi x k fo b r ch h256).trans (outSpec_hi x k h b r ch h256).symm

end Cert.KernelIdeal.Final
end
-- ==== Proof.Body.lean ====
/-
  One device's body, stepped once at a symbolic device: the entry signal to the left, the two loads of x and k, the
  send buffer filled, the first half computed and on its way out, the wait for the right neighbour's signal and the
  transfer to it, the second half, the wait for the left neighbour's three rows, the edge rows, the three stores
  waited for, the transfer's departure waited for.
-/
import proofs.«900435_g7700000000000436_dist_gconv1d_seqshard_i_b4_s512_c256_v7x_i8_bf16_1_alg».proof.Proof.Proto
import proofs.«900435_g7700000000000436_dist_gconv1d_seqshard_i_b4_s512_c256_v7x_i8_bf16_1_alg».proof.Proof.Final
import Idealize.ShloMosaic.Lib.Tactic
import Idealize.ShloMosaic.Lib.Pipeline.Value

noncomputable section
namespace Cert.KernelIdealProof
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The schedule's tables at the neighbours' cells, the composed neighbour maps resolved -/

theorem prv_ne7 (c : Dev nD) (h : c.val ≠ 0) : (prv c).val ≠ 7 := by revert c; decide
theorem nxt_ne0 (c : Dev nD) (h : c.val ≠ 7) : (nxt c).val ≠ 0 := by revert c; decide
omit [FloatOps F] in
theorem duties_bar_prv (c : Dev nD) (h : c.val ≠ 0) : (lineRd (F := F) m).duties (barCell (prv c)) 0 = {()} := duties_bar m (prv c) (prv_ne7 c h)
omit [FloatOps F] in
theorem duties_recv_nxt (c : Dev nD) (h : c.val ≠ 7) : (lineRd (F := F) m).duties (recvCell (nxt c)) 0 = {()} := duties_recv m (nxt c) (nxt_ne0 c h)
theorem payload_bar_prv (c : Dev nD) (d : Unit) : (lineRd (F := F) m).payload (barCell (prv c)) 0 d
    = iprop((∃ f, (Memref.whole cc0_scratch3 : Memref sig .tc .vmem S4x3x256 .f32).view.loc ((c : Dev nD) : Thread nD τ) ↦{fullShare} f)
        ∗ reached ER (recvCell c) 0) := by rw [payload_bar, nxt_prv]
theorem payload_recv_nxt (c : Dev nD) (d : Unit) : (lineRd (F := F) m).payload (recvCell (nxt c)) 0 d
    = ((Memref.whole cc0_scratch3 : Memref sig .tc .vmem S4x3x256 .f32).view.loc ((nxt c : Dev nD) : Thread nD τ) ↦{fullShare} sent m c) := by
  rw [payload_recv, prv_nxt]

attribute [local sl_rounds high] duties_bar_prv duties_recv_nxt payload_bar_prv payload_recv_nxt
attribute [local sl_rounds] duties_bar duties_send duties_recv amount_bar amount_send amount_recv expect_bar expect_send expect_recv
  payload_bar payload_send payload_recv
attribute [local sl_canon] dev1_eq dev2_eq

/-! ## The printed conditions on the device's place, in closed form -/

theorem isFirst_iff (c : Dev nD) :
    Scalar.cmpi .ne (Scalar.extui (Scalar.cmpi .eq (Scalar.remsi (Scalar.divsi (Dev.word c) 1#32) 8#32) 0#32)) 0#32 = 1#1 ↔ c.val = 0 := by
  revert c; decide
theorem notFirst_iff (c : Dev nD) :
    Scalar.cmpi .ne (Scalar.extui (Scalar.xori (Scalar.cmpi .eq (Scalar.remsi (Scalar.divsi (Dev.word c) 1#32) 8#32) 0#32) 1#1)) 0#32 = 1#1 ↔ c.val ≠ 0 := by
  revert c; decide
theorem notLast_iff (c : Dev nD) :
    Scalar.cmpi .ne (Scalar.extui (Scalar.xori (Scalar.cmpi .eq (Scalar.remsi (Scalar.divsi (Dev.word c) 1#32) 8#32) 7#32) 1#1)) 0#32 = 1#1 ↔ c.val ≠ 7 := by
  revert c; decide

/-! ## What the buffers hold, restated -/

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

omit [FloatOps F] in
/-- A whole copy over any prior contents is what was copied. -/
theorem copied_x (c : Dev nD) (fx : Buf (Elt F) ((xM : Memref sig .tc .vmem S4x512x256 .f32).view.loc (c : Thread nD τ))) :
    View.write (Elt F) (Memref.whole cc0_scratch0 : Memref sig .tc .vmem S4x512x256 .f32).view fx
      (ReadAs.same.apply (View.read (Elt F) (Memref.whole main_arg0 : Memref sig .tc .hbm S4x512x256 .f32).view (m ((c : Thread nD τ).loc main_arg0)))) Finset.univ
      = xblk m c := by
  show (View.whole cc0_scratch0).write (Elt F) fx ((View.whole main_arg0).read (Elt F) _) Finset.univ = _
  rw [View.read_whole]
  exact View.write_whole_univ _ _ _

omit [FloatOps F] in
/-- The last three rows of a block, as a load through the x buffer reads them. -/
theorem rows509 (x : Vec F S4x512x256 .f32) :
    View.readAt (Elt F) (xM : Memref sig .tc .vmem S4x512x256 .f32).view
      (Rect.unit (s := S4x512x256) ![0, 509, 0] S4x3x256.size inb_S4x512x256_S4x3x256_0_509_0).toLoadRect x
      = Out.rowsOf 3 509 (by decide) x := by
  funext j
  show x _ = x _
  congr 1
  funext a
  apply Fin.ext
  fin_cases a
  · show 0 + 1 * (j 0).val = (j 0).val; omega
  · show 509 + 1 * (j 1).val = 509 + (j 1).val; omega
  · show 0 + 1 * (j 2).val = (j 2).val; omega

/-- What the send buffer holds once the last three rows are stored in it, whatever it and the x buffer held before. -/
theorem sent_eq (c : Dev nD) (fx : Buf (Elt F) ((xM : Memref sig .tc .vmem S4x512x256 .f32).view.loc (c : Thread nD τ)))
    (fs : Buf (Elt F) ((sM : Memref sig .tc .vmem S4x3x256 .f32).view.loc (c : Thread nD τ))) :
    (sM : Memref sig .tc .vmem S4x3x256 .f32).view.writes (Elt F) fs
      [⟨Rect.unit (s := S4x3x256) ![0, 0, 0] S4x3x256.size inb_S4x3x256_S4x3x256_0_0_0,
        k0_pay1 (View.readAt (Elt F) (xM : Memref sig .tc .vmem S4x512x256 .f32).view
          (Rect.unit (s := S4x512x256) ![0, 509, 0] S4x3x256.size inb_S4x512x256_S4x3x256_0_509_0).toLoadRect
          (View.write (Elt F) (Memref.whole cc0_scratch0 : Memref sig .tc .vmem S4x512x256 .f32).view fx
            (ReadAs.same.apply (View.read (Elt F) (Memref.whole main_arg0 : Memref sig .tc .hbm S4x512x256 .f32).view (m ((c : Thread nD τ).loc main_arg0)))) Finset.univ))⟩]
      = sent m c := by
  rw [View.writes_singleton, copied_x, rows509]
  exact Memref.write_access_unit_zero_univ (Elt F) cc0_scratch4 hz3 _ fs _

omit [FloatOps F] in
theorem s_set : (sM : Memref sig .tc .vmem S4x3x256 .f32).view.set = Finset.univ := View.set_whole _
omit [FloatOps F] in
theorem h_set : (hM : Memref sig .tc .vmem S4x3x256 .f32).view.set = Finset.univ := View.set_whole _

omit [FloatOps F] in
/-- The whole send buffer copied over the whole halo buffer leaves the send buffer's contents there. -/
theorem landed_eq (c' : Dev nD) (fd : Buf (Elt F) ((hM : Memref sig .tc .vmem S4x3x256 .f32).view.loc (c' : Thread nD τ))) (fs : Vec F S4x3x256 .f32) :
    (hM : Memref sig .tc .vmem S4x3x256 .f32).view.write (Elt F) fd ((sM : Memref sig .tc .vmem S4x3x256 .f32).view.read (Elt F) fs) Finset.univ = fs := by
  show (View.whole cc0_scratch3).write (Elt F) fd ((View.whole cc0_scratch4).read (Elt F) fs) Finset.univ = fs
  rw [View.read_whole]
  exact View.write_whole_univ _ _ _

/-- The send buffer's points-to as the run leaves it, restated at its contents over the buffer's own elements. -/
theorem sent_pts_eq (c : Dev nD) (fx : Buf (Elt F) ((xM : Memref sig .tc .vmem S4x512x256 .f32).view.loc (c : Thread nD τ)))
    (fs : Buf (Elt F) ((sM : Memref sig .tc .vmem S4x3x256 .f32).view.loc (c : Thread nD τ))) :
    ((sM : Memref sig .tc .vmem S4x3x256 .f32).view.loc (c : Thread nD τ) ↦{fullShare}
      (sM : Memref sig .tc .vmem S4x3x256 .f32).view.writes (Elt F) fs
        [⟨Rect.unit (s := S4x3x256) ![0, 0, 0] S4x3x256.size inb_S4x3x256_S4x3x256_0_0_0,
          k0_pay1 (View.readAt (Elt F) (xM : Memref sig .tc .vmem S4x512x256 .f32).view
            (Rect.unit (s := S4x512x256) ![0, 509, 0] S4x3x256.size inb_S4x512x256_S4x3x256_0_509_0).toLoadRect
            (View.write (Elt F) (Memref.whole cc0_scratch0 : Memref sig .tc .vmem S4x512x256 .f32).view fx
              (ReadAs.same.apply (View.read (Elt F) (Memref.whole main_arg0 : Memref sig .tc .hbm S4x512x256 .f32).view (m ((c : Thread nD τ).loc main_arg0)))) Finset.univ))⟩] : sProp 𝕄)
      = ((sM : Memref sig .tc .vmem S4x3x256 .f32).view.loc (c : Thread nD τ) ↦[(sM : Memref sig .tc .vmem S4x3x256 .f32).view.set]{fullShare} sent m c) := by
  rw [sent_eq, s_set]

omit [FloatOps F] in
theorem halo_pts_eq (c' : Dev nD) (f : Buf (Elt F) ((hM : Memref sig .tc .vmem S4x3x256 .f32).view.loc (c' : Thread nD τ))) :
    ((Memref.whole cc0_scratch3 : Memref sig .tc .vmem S4x3x256 .f32).view.loc (c' : Thread nD τ) ↦{fullShare} f : sProp 𝕄)
      = ((hM : Memref sig .tc .vmem S4x3x256 .f32).view.loc (c' : Thread nD τ) ↦[(hM : Memref sig .tc .vmem S4x3x256 .f32).view.set]{fullShare} f) := by
  rw [h_set]

omit [FloatOps F] in
theorem copied_k (c : Dev nD) (fk : Buf (Elt F) ((kM : Memref sig .tc .vmem S4x256 .f32).view.loc (c : Thread nD τ))) :
    View.write (Elt F) (Memref.whole cc0_scratch1 : Memref sig .tc .vmem S4x256 .f32).view fk
      (ReadAs.same.apply (View.read (Elt F) (Memref.whole main_arg1 : Memref sig .tc .hbm S4x256 .f32).view (m ((c : Thread nD τ).loc main_arg1)))) Finset.univ
      = kblk m c := by
  show (View.whole cc0_scratch1).write (Elt F) fk ((View.whole main_arg1).read (Elt F) _) Finset.univ = _
  rw [View.read_whole]
  exact View.write_whole_univ _ _ _

/-- What the result array holds after the body on a device with a left neighbour, whatever the scratch buffers and the
    array held before. -/
theorem final_hasL (c : Dev nD) (hL : c.val ≠ 0)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ))) :
    Final.final
      (View.write (Elt F) (Memref.whole cc0_scratch0 : Memref sig .tc .vmem S4x512x256 .f32).view fx
        (ReadAs.same.apply (View.read (Elt F) (Memref.whole main_arg0 : Memref sig .tc .hbm S4x512x256 .f32).view (m ((c : Thread nD τ).loc main_arg0)))) Finset.univ)
      (View.write (Elt F) (Memref.whole cc0_scratch1 : Memref sig .tc .vmem S4x256 .f32).view fk
        (ReadAs.same.apply (View.read (Elt F) (Memref.whole main_arg1 : Memref sig .tc .hbm S4x256 .f32).view (m ((c : Thread nD τ).loc main_arg1)))) Finset.univ)
      (sent m (prv c)) fo (m ((c : Thread nD τ).loc main_v1))
      = outC m c := by
  rw [copied_x, copied_k, Final.final_eq]
  unfold outC
  rw [halo_of_hasL m c hL]

/-- The halo buffer read back whole after the zero rows were stored whole in it: a read of the zero rows. -/
theorem halo_cov :
    (hM : Memref sig .tc .vmem S4x3x256 .f32).view.readCov
        [(⟨Rect.unit (s := S4x3x256) ![0, 0, 0] S4x3x256.size inb_S4x3x256_S4x3x256_0_0_0, (k0_pay5 : FVec F S4x3x256 .f32)⟩ : View.Piece (Elt F) S4x3x256 .f32)]
        (Rect.unit (s := S4x3x256) ![0, 0, 0] S4x3x256.size inb_S4x3x256_S4x3x256_0_0_0).toLoadRect
      = View.readAt (Elt F) (Memref.whole cc0_scratch3 : Memref sig .tc .vmem S4x3x256 .f32).view
          (Rect.unit (s := S4x3x256) ![0, 0, 0] S4x3x256.size inb_S4x3x256_S4x3x256_0_0_0).toLoadRect (k0_pay5 : FVec F S4x3x256 .f32) := by
  rw [View.readCov_unit_zero _ hz3]
  exact (Memref.readAt_unit_zero (Elt F) cc0_scratch3 hz3 _ _).symm

/-- What the result array holds after the body on the first device. -/
theorem final_first (c : Dev nD) (h0 : c.val = 0)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ))) :
    Final.final
      (View.write (Elt F) (Memref.whole cc0_scratch0 : Memref sig .tc .vmem S4x512x256 .f32).view fx
        (ReadAs.same.apply (View.read (Elt F) (Memref.whole main_arg0 : Memref sig .tc .hbm S4x512x256 .f32).view (m ((c : Thread nD τ).loc main_arg0)))) Finset.univ)
      (View.write (Elt F) (Memref.whole cc0_scratch1 : Memref sig .tc .vmem S4x256 .f32).view fk
        (ReadAs.same.apply (View.read (Elt F) (Memref.whole main_arg1 : Memref sig .tc .hbm S4x256 .f32).view (m ((c : Thread nD τ).loc main_arg1)))) Finset.univ)
      (k0_pay5 : FVec F S4x3x256 .f32)
      fo (m ((c : Thread nD τ).loc main_v1))
      = outC m c := by
  rw [copied_x, copied_k, Final.final_eq]
  unfold outC
  rw [halo_first m c (not_not.mpr h0)]

/-- What a device's body leaves: the result block computed, the arguments as they were, the scratch at some contents, the
    kernel's seven own semaphores at zero, nothing owed. -/
def post (c : Dev nD) : sProp 𝕄 :=
  iprop(Φ₁ m c ∗ ∃ W', owes (c : Thread nD τ) 0 W')

open Lean Elab Tactic Meta in
/-- Unfold, in the goal, every auxiliary definition the stepping of the body introduced (their names have the component `sl`). -/
elab "unfold_run_names" : tactic => do
  let g ← getMainGoal
  let ty ← instantiateMVars (← g.getType)
  let ty' ← Meta.transform ty (pre := fun e => do
    match e.getAppFn with
    | .const n _ =>
      if n.components.contains `sl then
        match ← unfoldDefinition? e with
        | some e' => return .visit e'.headBeta
        | none => return .continue
      else return .continue
    | _ => return .continue)
  let g' ← g.replaceTargetDefEq ty'
  replaceMainGoal [g']

section Body

variable (K : Dev nD × Fin 3 → ℕ)

/-- The transfer of the send buffer into the right neighbour's halo buffer, addressed to `n = nxt c`: it pays the
    departure duty of `c`'s send cell with the send buffer and the arrival duty of `nxt c`'s receive cell with the halo
    buffer rewritten, and takes the receive cell's credit off what `c` owes. -/
theorem wp_send_line (c n : Dev nD) (hn : n = nxt c) (hR : c.val ≠ 7)
    {hsc : (hM : Memref sig (Dev.tc n : Thread nD τ).2.kind .vmem S4x3x256 .f32).view.ref.isScScratch = false}
    {hsrc : (sM : Memref sig .tc .vmem S4x3x256 .f32).view.WordExact} {hdst : (hM : Memref sig .tc .vmem S4x3x256 .f32).view.WordExact}
    {hsem : DmaTarget.Typed .vmem (.dma recvS.sem) (.remote (Dev.tc n : Thread nD τ) (hM : Memref sig .tc .vmem S4x3x256 .f32) (.dma sendS.sem) hsc)}
    {α : Type} {Q : α → sProp 𝕄} {k : PUnit → Prog (TpuEff nD τ sig (Elt F) Λ₀ .tc) α}
    (fn : Buf (Elt F) ((hM : Memref sig .tc .vmem S4x3x256 .f32).view.loc (nxt c : Thread nD τ))) (W : Waits sig Unit) :
    iprop(cellInv ER (lineRd m) (K (c, 1)) (sendCell c) ∗ cellInv ER (lineRd m) (K (nxt c, 2)) (recvCell (nxt c))
        ∗ ((sM : Memref sig .tc .vmem S4x3x256 .f32).view.loc (c : Thread nD τ) ↦[(sM : Memref sig .tc .vmem S4x3x256 .f32).view.set]{fullShare} sent m c)
        ∗ ((hM : Memref sig .tc .vmem S4x3x256 .f32).view.loc (nxt c : Thread nD τ) ↦[(hM : Memref sig .tc .vmem S4x3x256 .f32).view.set]{fullShare} fn)
        ∗ owes (c : Thread nD τ) (tallyAt (recvCell (nxt c)) () N) W
        ∗ dutyTok ER (sendCell c) 0 () ∗ reached ER (sendCell c) 0
        ∗ dutyTok ER (recvCell (nxt c)) 0 () ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) hM (.dma sendS.sem) hsc) (.dma recvS.sem) hsrc hdst hsem) k) Q) := by
  subst hn
  exact Rounds.wp_send_pointsTo 𝒱₀ ER (lineRd m) (c : Thread nD τ) none (κ₁ := K (c, 1)) (κ₂ := K (nxt c, 2))
    (r₁ := 0) (r₂ := 0) (d₁ := ()) (d₂ := ()) (fd := fn)
    (by rw [duties_send m c hR]; exact Finset.mem_singleton_self _) (by rw [duties_recv_nxt m c hR]; exact Finset.mem_singleton_self _)
    () () N rfl (amount_send m c ()) (amount_recv m (nxt c) ()) 0 (by rw [zero_add]) (W := W)
    (by rw [payload_send, s_set])
    (by rw [payload_recv_nxt, landed_eq, h_set])

set_option maxHeartbeats 4000000 in
theorem sound_mid (c : Dev nD) (hL : c.val ≠ 0) (hR : c.val ≠ 7) (W : Waits sig Unit)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ)))
    (fh : Buf (Elt F) ((hM : Memref sig .tc .vmem S4x3x256 .f32).view.loc (c : Thread nD τ)))
    (fs : Buf (Elt F) ((sM : Memref sig .tc .vmem S4x3x256 .f32).view.loc (c : Thread nD τ)))
    (Kt : PUnit → sProp 𝕄) :
    iprop(ghost m K c ∗ cred (tallyAt (barCell c) () 1) ∗ cred (tallyAt (recvCell c) () N) ∗ levAts L lv ∗ lsems0 c
        ∗ pt c aM (m ((c : Thread nD τ).loc main_arg0)) ∗ pt c bM (m ((c : Thread nD τ).loc main_arg1)) ∗ pt c rM (m ((c : Thread nD τ).loc main_v1))
        ∗ pt c xM fx ∗ pt c kM fk ∗ pt c oM fo ∗ pt c hM fh ∗ pt c sM fs
        ∗ owes (c : Thread nD τ) (tallyAt (recvCell (nxt c)) () N + tallyAt (barCell (prv c)) () 1) W
        ∗ (post m c -∗ Kt ⟨⟩))
      ⊢ wp frame (wpE (defs₀ (F := F)) 𝒱₀ c none) Set.univ (bodyAt0 (F := F) t0_0) Kt := by
  have h1 : k0_cond1 c = 1#1 := (cond1_iff c).mpr hL
  have h2 : k0_cond2 c = 1#1 := (cond2_iff c).mpr hR
  have hmw1 := mayWait_low (F := F) c (nxt c) (.dma ⟨0, by decide⟩) (by decide)
  have hmw2 := mayWait_low (F := F) c (nxt c) (.dma ⟨1, by decide⟩) (by decide)
  have hmwb := mayWait_low (F := F) c (nxt c) (.reg barS) (fun h => by cases h)
  unfold ghost invs
  unfold pt
  iintro ⟨⟨⟨#HIbar, #HIsnd, #HIrcv, #HIrcvN, #HIbarP⟩, HatB, HatS, HatV, #HrBP, #HrVN, #HrS, #HrV, HtBP, HtVN, HtS⟩, HcB, HcV, #Hlev, ⟨Hd0, Hd1, Hd2, Hd3, Hd4⟩,
    Ha, Hb, Hr, Hx, Hk, Ho, Hh, Hs, HO, HK⟩
  unfold bodyAt0
  -- to the transfer: the signal to the left, the two loads, the send buffer, the first half and its store, the barrier wait
  set_option sl_exec.dmaWindow true in sl_exec
  -- the transfer, by its rule: the send buffer restated at its contents
  unfold_run_names
  ihave Hs' := (Entails.of_eq (sent_pts_eq m c fx fs)) $$ Hs
  ihave Hn' := (Entails.of_eq (halo_pts_eq (nxt c) HatB_pay1_v)) $$ HatB_pay1
  iapply (wp_send_line m K c _ (dev2_eq c h2) hR HatB_pay1_v _) $$ [Hs' Hn' HO HtS HtVN]
  · isplitr; · iexact HIsnd
    isplitr; · iexact HIrcvN
    isplitl [Hs']; · iexact Hs'
    isplitl [Hn']; · iexact Hn'
    isplitl [HO]; · iexact HO
    isplitl [HtS]; · iexact HtS
    isplitr; · iexact HrS
    isplitl [HtVN]; · iexact HtVN
    iexact HrVN
  iintro ⟨HcS, HO⟩
  have hF : ¬ (Scalar.cmpi .ne (Scalar.extui (Scalar.cmpi .eq (Scalar.remsi (Scalar.divsi (Dev.word c) 1#32) 8#32) 0#32)) 0#32 = 1#1) := (isFirst_iff c).not.mpr hL
  have hNF := (notFirst_iff c).mpr hL
  have hNL := (notLast_iff c).mpr hR
  set_option sl_exec.dmaWindow true in sl_exec (disch := first | sl_exact hF | sl_exact hNF | sl_exact hNL)
  -- the two own cells close: their counters at zero are the core's again
  imod (Rounds.cell_close ER (lineRd m) (Set.mem_univ (K (c, 1))) (fun h => h) (R := 0 + 1) (duties_later m (sendCell c))) $$ [HatS] with HzS
  · isplitr; · iexact HIsnd
    iexact HatS
  imod (Rounds.cell_close ER (lineRd m) (Set.mem_univ (K (c, 2))) (fun h => h) (R := 0 + 1) (duties_later m (recvCell c))) $$ [HatV] with HzV
  · isplitr; · iexact HIrcv
    iexact HatV
  unfold_run_names
  ihave Hr' := (Entails.of_eq (congrArg (fun f => ((rM : Memref sig .tc .hbm S4x512x256 .bf16).view.loc (c : Thread nD τ) ↦{fullShare} f : sProp 𝕄))
    (final_hasL m c hL fx fk fo))) $$ Hr
  rw [wp_ret]; imodintro
  iapply HK
  unfold post Φ₁ scratch pt
  isplitl [Ha Hb Hr' Hx Hk Ho HatV_pay1 HatS_pay1 Hd0 Hd1 Hd2 Hd3 Hd4 HzS HzV]
  · isplitl [Ha Hb Hr']
    · isplitl [Ha]; · iexact Ha
      isplitl [Hb]; · iexact Hb
      iexact Hr'
    isplitl [Hx Hk Ho HatV_pay1 HatS_pay1]
    · isplitl [Hx]; · iexists _; iexact Hx
      isplitl [Hk]; · iexists _; iexact Hk
      isplitl [Ho]; · iexists _; iexact Ho
      isplitl [HatV_pay1]; · iexists _; iexact HatV_pay1
      iexists _; iexact HatS_pay1
    isplitl [Hd0 Hd1 Hd2 Hd3 Hd4]
    · isplitl [Hd0]; · iexact Hd0
      isplitl [Hd1]; · iexact Hd1
      isplitl [Hd2]; · iexact Hd2
      isplitl [Hd3]; · iexact Hd3
      iexact Hd4
    isplitl [HzS]; · iexact HzS
    iexact HzV
  iexists _; iexact HO

set_option maxHeartbeats 4000000 in
theorem sound_first (c : Dev nD) (h0 : c.val = 0) (W : Waits sig Unit)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ)))
    (fh : Buf (Elt F) ((hM : Memref sig .tc .vmem S4x3x256 .f32).view.loc (c : Thread nD τ)))
    (fs : Buf (Elt F) ((sM : Memref sig .tc .vmem S4x3x256 .f32).view.loc (c : Thread nD τ)))
    (Kt : PUnit → sProp 𝕄) :
    iprop(ghost m K c ∗ cred (tallyAt (barCell c) () 1) ∗ levAts L lv ∗ lsems0 c
        ∗ pt c aM (m ((c : Thread nD τ).loc main_arg0)) ∗ pt c bM (m ((c : Thread nD τ).loc main_arg1)) ∗ pt c rM (m ((c : Thread nD τ).loc main_v1))
        ∗ pt c xM fx ∗ pt c kM fk ∗ pt c oM fo ∗ pt c hM fh ∗ pt c sM fs
        ∗ owes (c : Thread nD τ) (tallyAt (recvCell (nxt c)) () N) W
        ∗ (post m c -∗ Kt ⟨⟩))
      ⊢ wp frame (wpE (defs₀ (F := F)) 𝒱₀ c none) Set.univ (bodyAt0 (F := F) t0_0) Kt := by
  have hR : c.val ≠ 7 := by omega
  have h1 : ¬ k0_cond1 c = 1#1 := fun h => (cond1_iff c).mp h h0
  have h2 : k0_cond2 c = 1#1 := (cond2_iff c).mpr hR
  have hmw1 := mayWait_low (F := F) c (nxt c) (.dma ⟨0, by decide⟩) (by decide)
  have hmw2 := mayWait_low (F := F) c (nxt c) (.dma ⟨1, by decide⟩) (by decide)
  have hmwb := mayWait_low (F := F) c (nxt c) (.reg barS) (fun h => by cases h)
  unfold ghost invs
  unfold pt
  iintro ⟨⟨⟨#HIbar, #HIsnd, #HIrcv, #HIrcvN, #HIbarP⟩, HatB, HatS, HatV, #HrBP, #HrVN, #HrS, #HrV, HtBP, HtVN, HtS⟩, HcB, #Hlev, ⟨Hd0, Hd1, Hd2, Hd3, Hd4⟩,
    Ha, Hb, Hr, Hx, Hk, Ho, Hh, Hs, HO, HK⟩
  unfold bodyAt0
  -- to the transfer: the signal to the left, the two loads, the send buffer, the first half and its store, the barrier wait
  set_option sl_exec.dmaWindow true in sl_exec
  -- the transfer, by its rule: the send buffer restated at its contents
  unfold_run_names
  ihave Hs' := (Entails.of_eq (sent_pts_eq m c fx fs)) $$ Hs
  ihave Hn' := (Entails.of_eq (halo_pts_eq (nxt c) HatB_pay1_v)) $$ HatB_pay1
  iapply (wp_send_line m K c _ (dev2_eq c h2) hR HatB_pay1_v _) $$ [Hs' Hn' HO HtS HtVN]
  · isplitr; · iexact HIsnd
    isplitr; · iexact HIrcvN
    isplitl [Hs']; · iexact Hs'
    isplitl [Hn']; · iexact Hn'
    isplitl [HO]; · iexact HO
    isplitl [HtS]; · iexact HtS
    isplitr; · iexact HrS
    isplitl [HtVN]; · iexact HtVN
    iexact HrVN
  iintro ⟨HcS, HO⟩
  have hF := (isFirst_iff c).mpr h0
  have hNF : ¬ (Scalar.cmpi .ne (Scalar.extui (Scalar.xori (Scalar.cmpi .eq (Scalar.remsi (Scalar.divsi (Dev.word c) 1#32) 8#32) 0#32) 1#1)) 0#32 = 1#1) := (notFirst_iff c).not.mpr (not_not.mpr h0)
  have hNL := (notLast_iff c).mpr hR
  set_option sl_exec.dmaWindow true in sl_exec (disch := first | sl_exact hF | sl_exact hNF | sl_exact hNL)
  -- the two own cells close: their counters at zero are the core's again
  imod (Rounds.cell_close ER (lineRd m) (Set.mem_univ (K (c, 1))) (fun h => h) (R := 0 + 1) (duties_later m (sendCell c))) $$ [HatS] with HzS
  · isplitr; · iexact HIsnd
    iexact HatS
  imod (Rounds.cell_close ER (lineRd m) (Set.mem_univ (K (c, 2))) (fun h => h) (R := 0) (duties_recv_none m c h0)) $$ [HatV] with HzV
  · isplitr; · iexact HIrcv
    iexact HatV
  unfold_run_names
  rw [halo_cov (F := F)]
  ihave Hr' := (Entails.of_eq (congrArg (fun f => ((rM : Memref sig .tc .hbm S4x512x256 .bf16).view.loc (c : Thread nD τ) ↦{fullShare} f : sProp 𝕄))
    (final_first m c h0 fx fk fo))) $$ Hr
  rw [wp_ret]; imodintro
  iapply HK
  unfold post Φ₁ scratch pt
  isplitl [Ha Hb Hr' Hx Hk Ho Hh HatS_pay1 Hd0 Hd1 Hd2 Hd3 Hd4 HzS HzV]
  · isplitl [Ha Hb Hr']
    · isplitl [Ha]; · iexact Ha
      isplitl [Hb]; · iexact Hb
      iexact Hr'
    isplitl [Hx Hk Ho Hh HatS_pay1]
    · isplitl [Hx]; · iexists _; iexact Hx
      isplitl [Hk]; · iexists _; iexact Hk
      isplitl [Ho]; · iexists _; iexact Ho
      isplitl [Hh]; · iexists _; iexact Hh
      iexists _; iexact HatS_pay1
    isplitl [Hd0 Hd1 Hd2 Hd3 Hd4]
    · isplitl [Hd0]; · iexact Hd0
      isplitl [Hd1]; · iexact Hd1
      isplitl [Hd2]; · iexact Hd2
      isplitl [Hd3]; · iexact Hd3
      iexact Hd4
    isplitl [HzS]; · iexact HzS
    iexact HzV
  iexists _; iexact HO

set_option maxHeartbeats 4000000 in
theorem sound_last (c : Dev nD) (h7 : c.val = 7) (W : Waits sig Unit)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ)))
    (fh : Buf (Elt F) ((hM : Memref sig .tc .vmem S4x3x256 .f32).view.loc (c : Thread nD τ)))
    (fs : Buf (Elt F) ((sM : Memref sig .tc .vmem S4x3x256 .f32).view.loc (c : Thread nD τ)))
    (Kt : PUnit → sProp 𝕄) :
    iprop(ghost m K c ∗ cred (tallyAt (recvCell c) () N) ∗ levAts L lv ∗ lsems0 c
        ∗ pt c aM (m ((c : Thread nD τ).loc main_arg0)) ∗ pt c bM (m ((c : Thread nD τ).loc main_arg1)) ∗ pt c rM (m ((c : Thread nD τ).loc main_v1))
        ∗ pt c xM fx ∗ pt c kM fk ∗ pt c oM fo ∗ pt c hM fh ∗ pt c sM fs
        ∗ owes (c : Thread nD τ) (tallyAt (barCell (prv c)) () 1) W
        ∗ (post m c -∗ Kt ⟨⟩))
      ⊢ wp frame (wpE (defs₀ (F := F)) 𝒱₀ c none) Set.univ (bodyAt0 (F := F) t0_0) Kt := by
  have hL : c.val ≠ 0 := by omega
  have h1 : k0_cond1 c = 1#1 := (cond1_iff c).mpr hL
  have h2 : ¬ k0_cond2 c = 1#1 := fun h => (cond2_iff c).mp h h7
  have hmw1 := mayWait_low (F := F) c (nxt c) (.dma ⟨0, by decide⟩) (by decide)
  have hmw2 := mayWait_low (F := F) c (nxt c) (.dma ⟨1, by decide⟩) (by decide)
  have hmwb := mayWait_low (F := F) c (nxt c) (.reg barS) (fun h => by cases h)
  unfold ghost invs
  unfold pt
  iintro ⟨⟨⟨#HIbar, #HIsnd, #HIrcv, #HIrcvN, #HIbarP⟩, HatB, HatS, HatV, #HrBP, #HrVN, #HrS, #HrV, HtBP, HtVN, HtS⟩, HcV, #Hlev, ⟨Hd0, Hd1, Hd2, Hd3, Hd4⟩,
    Ha, Hb, Hr, Hx, Hk, Ho, Hh, Hs, HO, HK⟩
  unfold bodyAt0
  have hF : ¬ (Scalar.cmpi .ne (Scalar.extui (Scalar.cmpi .eq (Scalar.remsi (Scalar.divsi (Dev.word c) 1#32) 8#32) 0#32)) 0#32 = 1#1) := (isFirst_iff c).not.mpr hL
  have hNF := (notFirst_iff c).mpr hL
  have hNL : ¬ (Scalar.cmpi .ne (Scalar.extui (Scalar.xori (Scalar.cmpi .eq (Scalar.remsi (Scalar.divsi (Dev.word c) 1#32) 8#32) 7#32) 1#1)) 0#32 = 1#1) := (notLast_iff c).not.mpr (not_not.mpr h7)
  set_option sl_exec.dmaWindow true in sl_exec (disch := first | sl_exact hF | sl_exact hNF | sl_exact hNL)
  -- the two own cells close: their counters at zero are the core's again
  imod (Rounds.cell_close ER (lineRd m) (Set.mem_univ (K (c, 1))) (fun h => h) (R := 0) (duties_send_none m c h7)) $$ [HatS] with HzS
  · isplitr; · iexact HIsnd
    iexact HatS
  imod (Rounds.cell_close ER (lineRd m) (Set.mem_univ (K (c, 2))) (fun h => h) (R := 0 + 1) (duties_later m (recvCell c))) $$ [HatV] with HzV
  · isplitr; · iexact HIrcv
    iexact HatV
  unfold_run_names
  ihave Hr' := (Entails.of_eq (congrArg (fun f => ((rM : Memref sig .tc .hbm S4x512x256 .bf16).view.loc (c : Thread nD τ) ↦{fullShare} f : sProp 𝕄))
    (final_hasL m c hL fx fk fo))) $$ Hr
  rw [wp_ret]; imodintro
  iapply HK
  unfold post Φ₁ scratch pt
  isplitl [Ha Hb Hr' Hx Hk Ho HatV_pay1 Hs Hd0 Hd1 Hd2 Hd3 Hd4 HzS HzV]
  · isplitl [Ha Hb Hr']
    · isplitl [Ha]; · iexact Ha
      isplitl [Hb]; · iexact Hb
      iexact Hr'
    isplitl [Hx Hk Ho HatV_pay1 Hs]
    · isplitl [Hx]; · iexists _; iexact Hx
      isplitl [Hk]; · iexists _; iexact Hk
      isplitl [Ho]; · iexists _; iexact Ho
      isplitl [HatV_pay1]; · iexists _; iexact HatV_pay1
      iexists _; iexact Hs
    isplitl [Hd0 Hd1 Hd2 Hd3 Hd4]
    · isplitl [Hd0]; · iexact Hd0
      isplitl [Hd1]; · iexact Hd1
      isplitl [Hd2]; · iexact Hd2
      isplitl [Hd3]; · iexact Hd3
      iexact Hd4
    isplitl [HzS]; · iexact HzS
    iexact HzV
  iexists _; iexact HO

end Body

/-- The library's body obligation on device `c`: the launch's holdings sorted into the three places a device can have on
    the line, the body run, its post handed back. -/
theorem body_obligation (c : Dev nD) : BodyObligation (dats (F := F) m 0 c) (defs₀ (F := F)) 𝒱₀ () Set.univ := fun t => by
  rw [fin_N0 t]
  rw [show (dats (F := F) m 0 c).Φ t0_0.castSucc = Φ₀ m c from rfl, show (dats (F := F) m 0 c).Φ t0_0.succ = Φ₁ m c from rfl]
  unfold Dat.owesAt Pipeline.owesWithin
  rw [show (dats (F := F) m 0 c).owed t0_0.castSucc = O₀ c from rfl, show (dats (F := F) m 0 c).owed t0_0.succ = 0 from rfl]
  unfold Φ₀ start scratch creds O₀
  by_cases h0 : c.val = 0
  · have hR : c.val ≠ 7 := by omega
    rw [if_pos hR, if_pos hR, if_neg (not_not.mpr h0), if_neg (not_not.mpr h0), add_zero]
    iintro ⟨⟨⟨⟨%K, Hg⟩, ⟨HcB, -⟩, Hlev, Hls, Ha, Hb, Hr⟩, ⟨%fx, Hx⟩, ⟨%fk, Hk⟩, ⟨%fo, Ho⟩, ⟨%fh, Hh⟩, ⟨%fs, Hs⟩⟩, ⟨%W, %hW, HO⟩, -⟩
    iapply (sound_first m K c h0 W fx fk fo fh fs _)
    isplitl [Hg]; · iexact Hg
    isplitl [HcB]; · iexact HcB
    isplitl [Hlev]; · iexact Hlev
    isplitl [Hls]; · iexact Hls
    isplitl [Ha]; · iexact Ha
    isplitl [Hb]; · iexact Hb
    isplitl [Hr]; · iexact Hr
    isplitl [Hx]; · iexact Hx
    isplitl [Hk]; · iexact Hk
    isplitl [Ho]; · iexact Ho
    isplitl [Hh]; · iexact Hh
    isplitl [Hs]; · iexact Hs
    isplitl [HO]; · iexact HO
    iintro Hp
    unfold post
    icases Hp with ⟨HΦ1, ⟨%W', HO'⟩⟩
    isplitl [HΦ1]; · iexact HΦ1
    isplitl [HO']
    · iexists W'
      isplitr; · ipureintro; exact fun _ _ => Or.inl trivial
      iexact HO'
    rw [Finset.univ_eq_empty, BI.bigSep_empty]
    iempintro
  by_cases h7 : c.val = 7
  · rw [if_neg (not_not.mpr h7), if_neg (not_not.mpr h7), if_pos h0, if_pos h0, zero_add]
    iintro ⟨⟨⟨⟨%K, Hg⟩, ⟨-, HcV⟩, Hlev, Hls, Ha, Hb, Hr⟩, ⟨%fx, Hx⟩, ⟨%fk, Hk⟩, ⟨%fo, Ho⟩, ⟨%fh, Hh⟩, ⟨%fs, Hs⟩⟩, ⟨%W, %hW, HO⟩, -⟩
    iapply (sound_last m K c h7 W fx fk fo fh fs _)
    isplitl [Hg]; · iexact Hg
    isplitl [HcV]; · iexact HcV
    isplitl [Hlev]; · iexact Hlev
    isplitl [Hls]; · iexact Hls
    isplitl [Ha]; · iexact Ha
    isplitl [Hb]; · iexact Hb
    isplitl [Hr]; · iexact Hr
    isplitl [Hx]; · iexact Hx
    isplitl [Hk]; · iexact Hk
    isplitl [Ho]; · iexact Ho
    isplitl [Hh]; · iexact Hh
    isplitl [Hs]; · iexact Hs
    isplitl [HO]; · iexact HO
    iintro Hp
    unfold post
    icases Hp with ⟨HΦ1, ⟨%W', HO'⟩⟩
    isplitl [HΦ1]; · iexact HΦ1
    isplitl [HO']
    · iexists W'
      isplitr; · ipureintro; exact fun _ _ => Or.inl trivial
      iexact HO'
    rw [Finset.univ_eq_empty, BI.bigSep_empty]
    iempintro
  · rw [if_pos h7, if_pos h7, if_pos h0, if_pos h0]
    iintro ⟨⟨⟨⟨%K, Hg⟩, ⟨HcB, HcV⟩, Hlev, Hls, Ha, Hb, Hr⟩, ⟨%fx, Hx⟩, ⟨%fk, Hk⟩, ⟨%fo, Ho⟩, ⟨%fh, Hh⟩, ⟨%fs, Hs⟩⟩, ⟨%W, %hW, HO⟩, -⟩
    iapply (sound_mid m K c h0 h7 W fx fk fo fh fs _)
    isplitl [Hg]; · iexact Hg
    isplitl [HcB]; · iexact HcB
    isplitl [HcV]; · iexact HcV
    isplitl [Hlev]; · iexact Hlev
    isplitl [Hls]; · iexact Hls
    isplitl [Ha]; · iexact Ha
    isplitl [Hb]; · iexact Hb
    isplitl [Hr]; · iexact Hr
    isplitl [Hx]; · iexact Hx
    isplitl [Hk]; · iexact Hk
    isplitl [Ho]; · iexact Ho
    isplitl [Hh]; · iexact Hh
    isplitl [Hs]; · iexact Hs
    isplitl [HO]; · iexact HO
    iintro Hp
    unfold post
    icases Hp with ⟨HΦ1, ⟨%W', HO'⟩⟩
    isplitl [HΦ1]; · iexact HΦ1
    isplitl [HO']
    · iexists W'
      isplitr; · ipureintro; exact fun _ _ => Or.inl trivial
      iexact HO'
    rw [Finset.univ_eq_empty, BI.bigSep_empty]
    iempintro

/-- info: 'Cert.KernelIdealProof.body_obligation' depends on axioms: [propext, Classical.choice, Quot.sound] -/
#guard_msgs in #print axioms body_obligation

end Cert.KernelIdealProof
end
-- ==== Proof.LaunchK.lean ====
/-
  The launch of the eight devices' kernels: from a memory with every counter at zero to each device's body started from
  its share of the protocol's ghost state, and from each body's end to the final memory read off.

  The launch element is split between the pipeline library's copy of the rounds algebra and the protocol's. The
  protocol's half funds, per device, the round state of its three cells (barrier, send, receive), its positions, that
  round 0 is reached, and one token per cell. Every device's seven own semaphores and its barrier semaphore arrive at
  zero at once: the barrier, send and receive counters go into the three cells' invariants, the five local copy
  counters stay with the device. The tokens are then dealt along the line: a barrier cell's token to the device on its
  right (which signals it), a receive cell's token to the device on its left (whose transfer pays it), the send cell's
  token stays. The launch credit is what the neighbours owe: one unit on the barrier cell of a device with a right
  neighbour, the halo's credit on the receive cell of a device with a left neighbour.
-/
import proofs.«900435_g7700000000000436_dist_gconv1d_seqshard_i_b4_s512_c256_v7x_i8_bf16_1_alg».proof.Proof.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element and what it funds -/

theorem ownSemFacts : Pipeline.OwnSemFacts cfg0.spec osem := by decide

theorem share_eq (c : Dev nD) (w : Fin cfg0.W) : (dats m 0 c).share w = fullShare := w.elim0

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The protocol's cells: three a device. -/
def lineCells : Finset (GSem nD τ sig) := Finset.univ.map ⟨kcell, kcell_injective⟩

/-- One token a cell: round 0's one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def lineToks : Finset (GSem nD τ sig × ℕ × Unit) := Finset.univ.map ⟨tokOf, tokOf_injective⟩

def u₀ : UU :=
  (initOf (Pipeline.cells cfgs cellOf_inj) (Pipeline.launchToks cfgs cellOf_inj), (initOf lineCells lineToks, 1))

omit [FloatOps F] in
/-- The launch element, owned, is its two halves owned through their embeddings. -/
theorem ownU_split (a : UR sig nD τ) (b : UX) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`: its three cells' round states, its positions with round 0 reached, its
    cells' tokens. -/
def G (c : Dev nD) : sProp 𝕄 :=
  iprop((bigSep Finset.univ fun k : Fin 3 => roundState ER (lineRd m) (kcell (c, k)) 0)
    ∗ (bigSep Finset.univ fun k : Fin 3 => iprop(atPos ER (kcell (c, k)) 0 ∅ 0 ∗ reached ER (kcell (c, k)) 0)) ∗ toks c)

/-- What the global step makes of it: the protocol's ghost state as the body wants it, and the five local copy
    counters at zero. -/
def G' (c : Dev nD) : sProp 𝕄 := iprop((∃ K, ghost m K c) ∗ lsems0 c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_line : BI.own (ER (initOf lineCells lineToks)) ⊢ (|==> bigSep Finset.univ (G m) : sProp 𝕄) := by
  have hX (Φ : GSem nD τ sig → sProp 𝕄) : bigSep lineCells Φ = bigSep Finset.univ fun c : Dev nD => bigSep Finset.univ fun k : Fin 3 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin3]; rfl
  iintro HX
  imod (Rounds.fund ER (lineRd m) lineCells lineToks) $$ HX with ⟨Hst, Hr, Hat, Htok⟩
  imodintro
  ihave Hst' := (Entails.of_eq (hX fun g => roundState ER (lineRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the cells' invariants allocated, the tokens dealt along the line -/

omit [FloatOps F] in
/-- The kernel's own seven semaphores: the five local copy cells, the send cell, the receive cell; -/
theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0
        ∗ semVal ((c : Thread nD τ), osem 3) 0 ∗ semVal ((c : Thread nD τ), osem 4) 0 ∗ semVal (sendCell c) 0 ∗ semVal (recvCell c) 0) := by
  rw [Pipeline.ownSems0_eq_of_list c osem [0, 1, 2, 3, 4, 5, 6] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The five local copy counters of device `c` at zero (kept closed while the sums over devices are regrouped). -/
def locals0 (c : Dev nD) : sProp 𝕄 := lsems0 c

omit [FloatOps F] in
/-- The three protocol counters at zero, and the five local ones beside them. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 3 => semVal (kcell (c, k)) 0) ∗ locals0 c : sProp 𝕄) := by
  unfold locals0
  rw [ownSems0_eq, unscopedSems0_eq, bigSep_fin3]
  iintro ⟨⟨H0, H1, H2, H3, H4, HS, HV⟩, HB⟩
  isplitl [HB HS HV]
  · isplitl [HB]; · iexact HB
    isplitl [HS] <;> iassumption
  isplitl [H0]; · iexact H0
  isplitl [H1]; · iexact H1
  isplitl [H2]; · iexact H2
  isplitl [H3]; · iexact H3
  iexact H4

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (lineRd m) κ (kcell (c, k))))
          ∗ (bigSep Finset.univ fun k => iprop(atPos ER (kcell (c, k)) 0 ∅ 0 ∗ reached ER (kcell (c, k)) 0)) ∗ toks c ∗ locals0 c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : Fin 3 => semVal (kcell (c, k)) 0) ∗ bigSep Finset.univ fun k : Fin 3 => roundState ER (lineRd m) (kcell (c, k)) 0)
      ⊢ (|={Set.univ}=> bigSep Finset.univ fun k => iprop(∃ κ : ℕ, cellInv ER (lineRd m) κ (kcell (c, k))) : sProp 𝕄) from by
        rw [← bigSep_sep']
        exact (bigSep_mono fun k _ => (Rounds.body_intro ER (lineRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The persistent records every device reads from: every cell's invariant at its name, round 0 of every cell reached. -/
def records (K : Dev nD × Fin 3 → ℕ) : sProp 𝕄 :=
  iprop((bigSep Finset.univ fun ck : Dev nD × Fin 3 => cellInv ER (lineRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (lineRd m) (K ck) (kcell ck) : sProp 𝕄)) ⊢ cellInv ER (lineRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ iprop(∃ K, ghost m K c) := by
  unfold records linear payToks ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (nxt c, 2)); iexact HI
    iapply (inv_at m K (prv c, 0)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt along the line: a barrier cell's token one device up (to the device that signals it), a receive
    cell's token one device down (to the device whose transfer pays it); the send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv line.symm (fun c : Dev nD => (dutyTok ER (barCell c) 0 () : sProp 𝕄)),
    bigSep_univ_equiv line (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (lineRd m) κ (kcell (c, k))))
          ∗ (bigSep Finset.univ fun k => iprop(atPos ER (kcell (c, k)) 0 ∅ 0 ∗ reached ER (kcell (c, k)) 0)) ∗ toks c ∗ locals0 c) : sProp 𝕄)
      ⊢ bigSep Finset.univ (G' m) := by
  rw [bigSep_sep', bigSep_sep', bigSep_sep', ← bigSep_univ_prod (fun ck : Dev nD × Fin 3 => iprop(∃ κ : ℕ, cellInv ER (lineRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hl⟩
  ihave HK := (BI.bigSep_exists_pi Finset.univ (fun (ck : Dev nD × Fin 3) (κ : ℕ) => (cellInv ER (lineRd m) κ (kcell ck) : sProp 𝕄))) $$ HI
  icases HK with ⟨%K, #HI⟩
  ihave Htk := (toks_around (F := F)) $$ Htok
  iapply (bigSep_with_persistent (R := records m K) (Φ := fun c => iprop(linear c ∗ locals0 c)) fun c _ => by
    unfold G' locals0
    iintro ⟨#HR, Hlin, Hl⟩
    isplitl [Hlin]
    · iapply (ghost_intro m K c); isplitr; · iexact HR
      iexact Hlin
    · iexact Hl)
  isplitr
  · unfold records; isplitl; · iexact HI
    iexact HR
  · rw [bigSep_sep']
    isplitl [Hat Htk]
    · iapply ((Entails.of_eq (bigSep_sep' Finset.univ (fun c : Dev nD => bigSep Finset.univ fun k : Fin 3 => (atPos ER (kcell (c, k)) 0 ∅ 0 : sProp 𝕄)) payToks).symm).trans
        (bigSep_mono fun c _ => show _ ⊢ linear c from Entails.of_eq (by unfold linear; rw [bigSep_fin3])))
      isplitl [Hat]; · iexact Hat
      iexact Htk
    · iexact Hl

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
theorem nxt_val_ne_zero_iff (c : Dev nD) : (nxt c).val ≠ 0 ↔ c.val ≠ 7 := by revert c; decide
omit [FloatOps F] in
theorem prv_val_ne_seven_iff (c : Dev nD) : (prv c).val ≠ 7 ↔ c.val ≠ 0 := by revert c; decide

omit [FloatOps F] in
/-- What device `d` owes device `c`'s barrier cell: one unit if it is `c`'s right neighbour. -/
theorem owed_bar (d c : Dev nD) : O₀ d (barCell c) () = if d = nxt c then (if c.val ≠ 7 then 1 else 0) else 0 := by
  unfold O₀
  rw [Pi.add_apply, Finsupp.add_apply]
  have h1 : (if d.val ≠ 7 then tallyAt (recvCell (nxt d)) () N else (0 : CellTallies nD τ sig Unit)) (barCell c) () = 0 := by
    split
    · rw [tallyAt_ne_cell (fun h => recv_ne_bar (congrArg Prod.snd h).symm)]; rfl
    · rfl
  rw [h1, Nat.zero_add]
  by_cases h : d = nxt c
  · subst h; rw [if_pos rfl, prv_nxt]
    by_cases h7 : c.val ≠ 7
    · rw [if_pos ((nxt_val_ne_zero_iff c).mpr h7), if_pos h7, tallyAt_self]
    · rw [if_neg (fun h0 => h7 ((nxt_val_ne_zero_iff c).mp h0)), if_neg h7]; rfl
  · rw [if_neg h]
    split
    · rw [tallyAt_apply, if_neg (fun ⟨h1, _⟩ => h (by rw [← nxt_prv d]; exact congrArg nxt (bar_eq_iff.mp h1).symm))]
    · rfl

omit [FloatOps F] in
/-- What device `d` owes device `c`'s receive cell: the halo's credit if it is `c`'s left neighbour. -/
theorem owed_recv (d c : Dev nD) : O₀ d (recvCell c) () = if d = prv c then (if c.val ≠ 0 then N else 0) else 0 := by
  unfold O₀
  rw [Pi.add_apply, Finsupp.add_apply]
  have h2 : (if d.val ≠ 0 then tallyAt (barCell (prv d)) () 1 else (0 : CellTallies nD τ sig Unit)) (recvCell c) () = 0 := by
    split
    · rw [tallyAt_ne_cell (fun h => recv_ne_bar (congrArg Prod.snd h))]; rfl
    · rfl
  rw [h2, Nat.add_zero]
  by_cases h : d = prv c
  · subst h; rw [if_pos rfl, nxt_prv]
    by_cases h0 : c.val ≠ 0
    · rw [if_pos ((prv_val_ne_seven_iff c).mpr h0), if_pos h0, tallyAt_self]
    · rw [if_neg (fun h7 => h0 ((prv_val_ne_seven_iff c).mp h7)), if_neg h0]; rfl
  · rw [if_neg h]
    split
    · rw [tallyAt_apply, if_neg (fun ⟨h1, _⟩ => h (by rw [← prv_nxt d]; exact congrArg prv (recv_eq_iff.mp h1).symm))]
    · rfl

omit [FloatOps F] in
theorem launch_bar (c : Dev nD) :
    tallyOn (barCell c) (launchCredit (Pipeline.owing O₀) 0 (barCell c)) = (if c.val ≠ 7 then tallyAt (barCell c) () 1 else 0 : CellTallies nD τ sig Unit) := by
  have hs : launchCredit (Pipeline.owing O₀) 0 (barCell c) = Finsupp.single () (if c.val ≠ 7 then 1 else 0) := Finsupp.ext fun u => by
    cases u
    rw [Pipeline.launchCredit_owing, Finsupp.single_eq_same, Finset.sum_congr rfl fun d _ => owed_bar d c,
      Finset.sum_ite_eq' Finset.univ (nxt c), if_pos (Finset.mem_univ _)]
  rw [hs]
  split
  · rfl
  · rw [Finsupp.single_zero, tallyOn_zero]

omit [FloatOps F] in
theorem launch_recv (c : Dev nD) :
    tallyOn (recvCell c) (launchCredit (Pipeline.owing O₀) 0 (recvCell c)) = (if c.val ≠ 0 then tallyAt (recvCell c) () N else 0 : CellTallies nD τ sig Unit) := by
  have hs : launchCredit (Pipeline.owing O₀) 0 (recvCell c) = Finsupp.single () (if c.val ≠ 0 then N else 0) := Finsupp.ext fun u => by
    cases u
    rw [Pipeline.launchCredit_owing, Finsupp.single_eq_same, Finset.sum_congr rfl fun d _ => owed_recv d c,
      Finset.sum_ite_eq' Finset.univ (prv c), if_pos (Finset.mem_univ _)]
  rw [hs]
  split
  · rfl
  · rw [Finsupp.single_zero, tallyOn_zero]

omit [FloatOps F] in
/-- The launch credit of device `c` holds the two tokens its body waits with. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

/-- What a device holds of the arrays after its body: the arguments as launched, the result block computed. -/
def Y (c : Dev nD) : sProp 𝕄 :=
  iprop(pt c aM (m ((c : Thread nD τ).loc main_arg0)) ∗ pt c bM (m ((c : Thread nD τ).loc main_arg1)) ∗ pt c rM (outC m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨⟨Ha, Hb, Hr⟩, Hlev, Hcr, -, HG, Hl⟩
  ihave Hc := (creds_intro (F := F) c) $$ Hcr
  imodintro
  isplitl
  · isplitl [HG]; · iexact HG
    isplitl [Hc]; · iexact Hc
    isplitl [Hlev]; · iexact Hlev
    isplitl [Hl]; · iexact Hl
    isplitl [Ha]; · iexact Ha
    isplitl [Hb]; · iexact Hb
    iexact Hr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩, ⟨%f3, H3⟩, ⟨%f4, H4⟩⟩
  isplitl [Hs]; · iexact Hs
  isplitl [H0]; · iexists f0; iexact H0
  isplitl [H1]; · iexists f1; iexact H1
  isplitl [H2]; · iexists f2; iexact H2
  isplitl [H3]; · iexists f3; iexact H3
  iexists f4; iexact H4

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y scratch
  iintro ⟨HY, ⟨⟨%f0, H0⟩, ⟨%f1, H1⟩, ⟨%f2, H2⟩, ⟨%f3, H3⟩, ⟨%f4, H4⟩⟩, ⟨L0, L1, L2, L3, L4⟩, HS, HV⟩
  isplitl [HY]; · iexact HY
  isplitl [L0 L1 L2 L3 L4 HS HV]
  · isplitl [L0]; · iexact L0
    isplitl [L1]; · iexact L1
    isplitl [L2]; · iexact L2
    isplitl [L3]; · iexact L3
    isplitl [L4]; · iexact L4
    isplitl [HS] <;> iassumption
  isplitl [H0]; · iexists f0; iexact H0
  isplitl [H1]; · iexists f1; iexact H1
  isplitl [H2]; · iexists f2; iexact H2
  isplitl [H3]; · iexists f3; iexact H3
  iexists f4; iexact H4

/-- No window is staged: the pipeline itself waits on nothing. -/
theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 8000 in
/-- At the compiled line of eight devices, for any float values, from any memory with zero counters: every weakly fair
    execution of @main — the eight kernels handshaking on the barrier semaphore, then each transferring its last three
    rows to its right neighbour — terminates, and every final state has each device's result block at the computed
    contents and its two arguments unchanged. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_line m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c.tc : Thread nD τ).loc main_v1) = outC m c
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold Y
      iintro ⟨⟨Ha, Hb, Hr⟩, -, HSI⟩
      icombine HSI Ha gives %ha
      icombine HSI Hb gives %hb
      icombine HSI Hr gives %hr
      imodintro
      isplitr
      · ipureintro; exact ⟨Buf.eq_of_forall_mem_univ hr, Buf.eq_of_forall_mem_univ ha, Buf.eq_of_forall_mem_univ hb⟩
      iexact HSI)
    (hQ := fun _ h c => (h c).2.2)

/-- info: 'Cert.KernelIdealProof.run_main' depends on axioms: [propext, Classical.choice, Quot.sound] -/
#guard_msgs in #print axioms run_main

end Cert.KernelIdealProof

end
-- ==== Proof.Bits.OutSpec.lean ====
/-
  What one device leaves in its block of the result, as one function of what it read: its own block of x (512 rows),
  the filter k (4 taps) and the three rows that precede its block (the halo).

  Row r of the block is computed three ways, by where it lies:
    * r < 3: from the six rows halo ++ x[0:3], tap j on row r + j (the edge sum);
    * 3 ≤ r < 256: from x[0:256] rotated down by 0 … 3 rows, tap 3 - s on the rotation by s (rows below 3 of this sum
      wrap around and are not used);
    * 256 ≤ r: from x[248:512] the same way, the first 8 rows of that sum dropped.
  The halo is zero on the first device and the last three rows of the block to the left elsewhere.
-/
import proofs.«900435_g7700000000000436_dist_gconv1d_seqshard_i_b4_s512_c256_v7x_i8_bf16_1_alg».proof.Proof.Gen.Kernel.Skeleton
import Idealize.ShloMosaic.Lib.ValueIdx

noncomputable section

namespace Cert.Kernel.Out

open Cert.Kernel Cert.Kernel.Gen
open Idealize.ShloMosaic Idealize.ShloMosaic.ValueIdx

variable {F : FTy → Type} [FloatOps F]

/-- Rows [o, o + n) of a block of 512 rows. -/
def rowsOf (n o : ℕ) (h : o + n ≤ 512) (x : Vec F S4x512x256 .f32) : Vec F (⟨3, ![4, n, 256]⟩ : Shape) .f32 :=
  fun j => x (ix3 (j 0) ⟨o + (j 1).val, by have h1 : (j 1).val < n := (j 1).isLt; omega⟩ (j 2))

/-- Tap t of the filter, as a row. -/
def tap (t : Fin 4) (k : Vec F S4x256 .f32) : Vec F S1x256 .f32 := fun i => k (ix2 t (i 1))

/-- The device to the left on the line of eight (cyclically; the first device has none and does not use it). -/
def left (c : Fin 8) : Fin 8 := ⟨(c.val + 7) % 8, Nat.mod_lt _ (by decide)⟩

/-- The three rows before a block: zero for the first block, the last three rows of the block to the left otherwise. -/
def haloOf (xl : Option (Vec F S4x512x256 .f32)) : Vec F S4x3x256 .f32 :=
  match xl with
  | none => k0_pay5
  | some x => k0_pay1 (rowsOf 3 509 (by decide) x)

/-- The block of the result a device computes from its block `x` of the input, the filter `k` and the halo `h`. -/
def outSpec (x : Vec F S4x512x256 .f32) (k : Vec F S4x256 .f32) (h : Vec F S4x3x256 .f32) : Vec F S4x512x256 .bf16 :=
  fun i =>
    if h3 : (i 1).val < 3 then
      k0_pay7 (k0_pay6 h (rowsOf 3 0 (by decide) x) (tap 0 k) (tap 1 k) (tap 2 k) (tap 3 k)) (Scalar.ofBits .f32 0x3F000000#32)
        (ix3 (i 0) ⟨(i 1).val, h3⟩ (i 2))
    else if h256 : (i 1).val < 256 then
      k0_pay3 k (rowsOf 256 0 (by decide) x) (k0_pay2 k (rowsOf 256 0 (by decide) x)) (ix3 (i 0) ⟨(i 1).val, h256⟩ (i 2))
    else
      k0_pay4 k (rowsOf 264 248 (by decide) x) (ix3 (i 0) ⟨(i 1).val - 256, by have h1 : (i 1).val < 512 := (i 1).isLt; omega⟩ (i 2))

end Cert.Kernel.Out

end
-- ==== Proof.Bits.Proto.lean ====
/-
  One device's part of a causal depthwise convolution along the sequence axis, cut into eight blocks of rows over a
  line of eight devices, and the protocol by which a block's first three rows get the three rows before them.

  Device c holds rows [512c, 512c + 512) of x. Each output row r needs rows r - 3 … r of x, so the first three rows of
  a block need the last three rows of the block before it (zeros for the first block). Device c copies those last
  three rows of its own block into a send buffer and, when it has a right neighbour, transfers them into the
  neighbour's halo buffer. The transfer may only start once the neighbour is inside the kernel (its halo buffer is
  allocated at entry): every device with a left neighbour signals that neighbour's barrier semaphore on entry, and a
  device with a right neighbour waits for that one unit before it sends.

  Cells of device c, one round each, one duty each:
    * its barrier cell — paid one unit by device c + 1 (if there is one); the unit hands over c + 1's halo buffer at
      any contents and the fact that c + 1's receive cell has reached round 0;
    * its send cell — paid by its own transfer's departure; the units hand back the send buffer at its contents;
    * its receive cell — paid by device c - 1's transfer (if there is one); the units hand over the halo buffer
      holding the last three rows of block c - 1.
  Levels: the five local copy semaphores and the send cell 0, the barrier 1, the receive cell 2. A device waits on its
  local copies and its barrier while it still owes its right neighbour's receive cell, which sits above both.
-/
import proofs.«900435_g7700000000000436_dist_gconv1d_seqshard_i_b4_s512_c256_v7x_i8_bf16_1_alg».proof.Proof.Gen.Kernel
import proofs.«900435_g7700000000000436_dist_gconv1d_seqshard_i_b4_s512_c256_v7x_i8_bf16_1_alg».proof.Proof.Gen.Kernel.Skeleton
import proofs.«900435_g7700000000000436_dist_gconv1d_seqshard_i_b4_s512_c256_v7x_i8_bf16_1_alg».proof.Proof.Gen.Kernel.Launch
import proofs.«900435_g7700000000000436_dist_gconv1d_seqshard_i_b4_s512_c256_v7x_i8_bf16_1_alg».proof.Proof.Gen.Kernel.Points
import proofs.«900435_g7700000000000436_dist_gconv1d_seqshard_i_b4_s512_c256_v7x_i8_bf16_1_alg».proof.Proof.Bits.OutSpec
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's copy, the local copies' counters -/

abbrev UX : Type := URounds (GSem nD τ sig) Unit
abbrev UU : Type := UR sig nD τ × (UX × Counters)

local notation "𝕄" => MT nD τ sig Unit (Elt F) ℕ UU ℕ

abbrev EP : Emb (UR sig nD τ) (MT nD τ sig Unit (Elt F) ℕ UU ℕ) := embL
/-- The protocol's rounds: the left half of the right factor. -/
def ER : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance ER_landsIn : (ER : Emb UX (MT nD τ sig Unit (Elt F) ℕ UU ℕ)).LandsIn (upEmb : UEmb _ (MT nD τ sig Unit (Elt F) ℕ UU ℕ)) := by
  unfold ER; infer_instance

variable (m : (ℓ : Loc nD τ sig) → Buf (Elt F) ℓ) (ρ : Dev nD → PrngReg)

/-! ## The line of devices -/

def nxt (c : Dev nD) : Dev nD := ⟨(c.val + 1) % 8, Nat.mod_lt _ (by decide)⟩
def prv (c : Dev nD) : Dev nD := Out.left c
/-- There is a device to the left / to the right. -/
abbrev hasL (c : Dev nD) : Prop := c.val ≠ 0
abbrev hasR (c : Dev nD) : Prop := c.val ≠ 7

theorem prv_nxt (c : Dev nD) : prv (nxt c) = c := by revert c; decide
theorem nxt_prv (c : Dev nD) : nxt (prv c) = c := by revert c; decide
theorem hasL_nxt (c : Dev nD) (h : hasR c) : hasL (nxt c) := by revert c; decide
theorem hasR_prv (c : Dev nD) (h : hasL c) : hasR (prv c) := by revert c; decide

def line : Dev nD ≃ Dev nD := ⟨nxt, prv, prv_nxt, nxt_prv⟩

/-- The printed conditions and device chains, in closed form over the mesh. -/
theorem cond1_iff (c : Dev nD) : k0_cond1 c = 1#1 ↔ hasL c := by revert c; decide
theorem cond2_iff (c : Dev nD) : k0_cond2 c = 1#1 ↔ hasR c := by revert c; decide
theorem dev1_eq (c : Dev nD) (h : k0_cond1 c = 1#1) : (⟨k0_dev1 c, k0_dev1_lt c h⟩ : Dev nD) = prv c := by
  revert c; decide
theorem dev2_eq (c : Dev nD) (h : k0_cond2 c = 1#1) : (⟨k0_dev2 c, k0_dev2_lt c h⟩ : Dev nD) = nxt c := by
  revert c; decide

/-! ## The memrefs and cells -/

abbrev aM : Memref sig .tc .hbm S4x512x256 .f32 := Memref.whole main_arg0
abbrev bM : Memref sig .tc .hbm S4x256 .f32 := Memref.whole main_arg1
abbrev rM : Memref sig .tc .hbm S4x512x256 .bf16 := Memref.whole main_v1
abbrev xM : Memref sig .tc .vmem S4x512x256 .f32 := Memref.whole cc0_scratch0
abbrev kM : Memref sig .tc .vmem S4x256 .f32 := Memref.whole cc0_scratch1
abbrev oM : Memref sig .tc .vmem S4x512x256 .bf16 := Memref.whole cc0_scratch2
abbrev hM : Memref sig .tc .vmem S4x3x256 .f32 := Memref.whole cc0_scratch3
abbrev sM : Memref sig .tc .vmem S4x3x256 .f32 := Memref.whole cc0_scratch4

abbrev barS : Sem sig := (SemArray.scalar (sig.barrier 0 rfl) : Sems sig S_).sem
abbrev sendS : DmaSems sig S_ := cc0_scratch7
abbrev recvS : DmaSems sig S_ := cc0_scratch8

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: the two load cells, the three store cells, send, receive. -/
abbrev osem : Fin 7 → SemLoc sig := fun k => .dma ⟨k.val, k.isLt⟩
/-- The protocol's three cells: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (hM : Memref sig .tc .vmem S4x3x256 .f32).view.dmaCredit
theorem N_pos : 0 < N := View.dmaCredit_pos _ (by decide)

/-! ## Contents -/

/-- Device `c`'s block of x and its copy of the filter, as launched. -/
def xblk (c : Dev nD) : Vec F S4x512x256 .f32 := m ((c : Thread nD τ).loc main_arg0)
def kblk (c : Dev nD) : Vec F S4x256 .f32 := m ((c : Thread nD τ).loc main_arg1)
/-- The last three rows of device `c`'s block: what its send buffer holds. -/
def sent (c : Dev nD) : Vec F S4x3x256 .f32 := k0_pay1 (Out.rowsOf 3 509 (by decide) (xblk m c))
/-- What device `c`'s halo buffer holds when it is read: zero on the first device, `prv c`'s last three rows elsewhere. -/
def halo (c : Dev nD) : Vec F S4x3x256 .f32 := Out.haloOf (if c.val = 0 then none else some (xblk m (prv c)))
/-- What device `c` leaves in its block of the result. -/
def outC (c : Dev nD) : Vec F S4x512x256 .bf16 := Out.outSpec (xblk m c) (kblk m c) (halo m c)

theorem halo_of_hasL (c : Dev nD) (h : hasL c) : halo m c = sent m (prv c) := by
  unfold halo sent Out.haloOf; rw [if_neg h]
theorem halo_first (c : Dev nD) (h : ¬ hasL c) : halo m c = (k0_pay5 : Vec F S4x3x256 .f32) := by
  unfold halo Out.haloOf; rw [if_pos (not_not.mp h)]

/-! ## The schedule -/

abbrev IsBar (g : GSem nD τ sig) : Prop := g.1.2 = .tc ∧ g.2 = .reg barS ∧ hasR g.1.1
abbrev IsSend (g : GSem nD τ sig) : Prop := g.1.2 = .tc ∧ g.2 = .dma sendS.sem ∧ hasR g.1.1
abbrev IsRecv (g : GSem nD τ sig) : Prop := g.1.2 = .tc ∧ g.2 = .dma recvS.sem ∧ hasL g.1.1

/-- One round, round 0, one duty a cell: a barrier cell with a device to its right the unit that device signals, a
    send cell with a device to its right the transfer's departure, a receive cell with a device to its left the
    transfer's arrival. -/
def lineRd : Rounds.Schedule (GSem nD τ sig) Unit 𝕄 where
  duties g r := if r = 0 ∧ (IsBar g ∨ IsSend g ∨ IsRecv g) then {()} else ∅
  unitless _ := False
  amount g _ _ := if g.2 = .reg barS then 1 else N
  payload g _ _ :=
    if g.2 = .reg barS then
      iprop((∃ f, (Memref.whole cc0_scratch3 : Memref sig .tc .vmem S4x3x256 .f32).view.loc ((nxt g.1.1 : Dev nD) : Thread nD τ) ↦{fullShare} f)
        ∗ reached ER (recvCell (nxt g.1.1)) 0)
    else if g.2 = .dma recvS.sem then
      ((Memref.whole cc0_scratch3 : Memref sig .tc .vmem S4x3x256 .f32).view.loc ((g.1.1 : Dev nD) : Thread nD τ) ↦{fullShare} sent m (prv g.1.1))
    else if g.2 = .dma sendS.sem then
      ((Memref.whole cc0_scratch4 : Memref sig .tc .vmem S4x3x256 .f32).view.loc ((g.1.1 : Dev nD) : Thread nD τ) ↦{fullShare} sent m g.1.1)
    else iprop(emp)
  amount_pos g _ _ _ := by
    by_cases h : g.2 = .reg barS
    · rw [if_pos h]; exact Nat.one_pos
    · rw [if_neg h]; exact N_pos

instance lineRd_payload_storable (g : GSem nD τ sig) (r : ℕ) (d : Unit) :
    BI.Storable (upEmb : UEmb _ 𝕄) ((lineRd (F := F) m).payload g r d) := by
  dsimp only [lineRd]
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar (h : c.val ≠ 7) : (lineRd (F := F) m).duties (barCell c) 0 = {()} := by
  dsimp only [lineRd]; exact if_pos ⟨rfl, .inl ⟨rfl, rfl, h⟩⟩
omit [FloatOps F] in
theorem duties_send (h : c.val ≠ 7) : (lineRd (F := F) m).duties (sendCell c) 0 = {()} := by
  dsimp only [lineRd]; exact if_pos ⟨rfl, .inr (.inl ⟨rfl, rfl, h⟩)⟩
omit [FloatOps F] in
theorem duties_recv (h : c.val ≠ 0) : (lineRd (F := F) m).duties (recvCell c) 0 = {()} := by
  dsimp only [lineRd]; exact if_pos ⟨rfl, .inr (.inr ⟨rfl, rfl, h⟩)⟩
omit [FloatOps F] in
theorem duties_later (g : GSem nD τ sig) : ∀ r, 1 ≤ r → (lineRd (F := F) m).duties g r = ∅ :=
  fun r hr => by dsimp only [lineRd]; rw [if_neg fun h => by omega]
omit [FloatOps F] in
/-- The last device's send cell and the first device's receive cell have no duty at all. -/
theorem duties_send_none (h : c.val = 7) : ∀ r, 0 ≤ r → (lineRd (F := F) m).duties (sendCell c) r = ∅ :=
  fun r _ => by
    dsimp only [lineRd]
    exact if_neg fun hh => hh.2.elim (fun hb => send_ne_bar hb.2.1) (fun h' => h'.elim (fun hs => hs.2.2 h) (fun hr => send_ne_recv hr.2.1))
omit [FloatOps F] in
theorem duties_recv_none (h : c.val = 0) : ∀ r, 0 ≤ r → (lineRd (F := F) m).duties (recvCell c) r = ∅ :=
  fun r _ => by
    dsimp only [lineRd]
    exact if_neg fun hh => hh.2.elim (fun hb => recv_ne_bar hb.2.1) (fun h' => h'.elim (fun hs => recv_ne_send hs.2.1) (fun hr => hr.2.2 h))

omit [FloatOps F] in
theorem amount_bar (d : Unit) : (lineRd (F := F) m).amount (barCell c) 0 d = 1 := by dsimp only [lineRd]; exact if_pos rfl
omit [FloatOps F] in
theorem amount_send (d : Unit) : (lineRd (F := F) m).amount (sendCell c) 0 d = N := by dsimp only [lineRd]; exact if_neg send_ne_bar
omit [FloatOps F] in
theorem amount_recv (d : Unit) : (lineRd (F := F) m).amount (recvCell c) 0 d = N := by dsimp only [lineRd]; exact if_neg recv_ne_bar

omit [FloatOps F] in
theorem expect_bar (h : c.val ≠ 7) : (lineRd (F := F) m).expect (barCell c) 0 = 1 := by
  unfold Schedule.expect Schedule.amountOf; rw [duties_bar m c h, Finset.sum_singleton, amount_bar]
omit [FloatOps F] in
theorem expect_send (h : c.val ≠ 7) : (lineRd (F := F) m).expect (sendCell c) 0 = N := by
  unfold Schedule.expect Schedule.amountOf; rw [duties_send m c h, Finset.sum_singleton, amount_send]
omit [FloatOps F] in
theorem expect_recv (h : c.val ≠ 0) : (lineRd (F := F) m).expect (recvCell c) 0 = N := by
  unfold Schedule.expect Schedule.amountOf; rw [duties_recv m c h, Finset.sum_singleton, amount_recv]

theorem payload_bar (d : Unit) : (lineRd (F := F) m).payload (barCell c) 0 d
    = iprop((∃ f, (Memref.whole cc0_scratch3 : Memref sig .tc .vmem S4x3x256 .f32).view.loc ((nxt c : Dev nD) : Thread nD τ) ↦{fullShare} f)
        ∗ reached ER (recvCell (nxt c)) 0) := by dsimp only [lineRd]; rw [if_pos rfl]
theorem payload_send (d : Unit) : (lineRd (F := F) m).payload (sendCell c) 0 d
    = ((Memref.whole cc0_scratch4 : Memref sig .tc .vmem S4x3x256 .f32).view.loc ((c : Dev nD) : Thread nD τ) ↦{fullShare} sent m c) := by
  dsimp only [lineRd]; rw [if_neg send_ne_bar, if_neg send_ne_recv, if_pos rfl]
theorem payload_recv (d : Unit) : (lineRd (F := F) m).payload (recvCell c) 0 d
    = ((Memref.whole cc0_scratch3 : Memref sig .tc .vmem S4x3x256 .f32).view.loc ((c : Dev nD) : Thread nD τ) ↦{fullShare} sent m (prv c)) := by
  dsimp only [lineRd]; rw [if_neg recv_ne_bar, if_pos rfl]

end Sched

/-! ## What each device owes at launch; the levels -/

/-- A device with a right neighbour owes that neighbour's receive cell the halo's credit; one with a left neighbour
    owes that neighbour's barrier cell one unit (the first thing it pays: the last summand). -/
def O₀ (c : Dev nD) : CellTallies nD τ sig Unit :=
  (if c.val ≠ 7 then tallyAt (recvCell (nxt c)) () N else 0) + (if c.val ≠ 0 then tallyAt (barCell (prv c)) () 1 else 0)

def L (g : GSem nD τ sig) : Finset Unit := if g.1.2 = .tc then {()} else ∅
/-- barrier cells at 1, receive cells at 2, everything else (local copies, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait on a cell below the receive cells' level while owing one receive cell its credit. -/
theorem mayWait_low (c d : Dev nD) (sm : SemLoc sig) (hsm : sm ≠ .dma recvS.sem) :
    (levAts L lv : sProp 𝕄) ⊢ MayWait (c : Thread nD τ) sm () (tallyAt (recvCell d) () N) :=
  MayOwe.of_cut (L := L) (lev := lv) (if sm = .reg barS then 1 else 0)
    (fun p hp => by rw [Finset.mem_singleton.mp hp, L_tc]; exact Finset.mem_singleton_self _)
    (fun g u hg => by
      rw [tallyAt_apply] at hg
      by_cases h : g = recvCell d ∧ u = ()
      · rw [h.1, L_tc]; exact Finset.mem_singleton_self _
      · rw [if_neg h] at hg; exact absurd hg (Nat.lt_irrefl 0))
    (fun p hp => by
      rw [Finset.mem_singleton.mp hp]; dsimp only [lv]
      by_cases hb : sm = .reg barS
      · rw [if_pos hb, if_pos hb]
      · rw [if_neg hb, if_neg hb, if_neg hsm])
    (fun g u hg => by
      rw [tallyAt_apply] at hg
      by_cases h : g = recvCell d ∧ u = ()
      · rw [h.1]; dsimp only [lv]; rw [if_neg recv_ne_bar, if_pos rfl]; split <;> decide
      · rw [if_neg h] at hg; exact absurd hg (Nat.lt_irrefl 0))

/-! ## What a device's body starts from and ends with -/

abbrev 𝒱₀ : Variants := Variants.none

/-- Buffer `M` on device `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The five local copy semaphores at zero. -/
abbrev lsems0 (c : Dev nD) : sProp 𝕄 :=
  iprop(semVal ((c : Thread nD τ), osem 0) 0 ∗ semVal ((c : Thread nD τ), osem 1) 0 ∗ semVal ((c : Thread nD τ), osem 2) 0
    ∗ semVal ((c : Thread nD τ), osem 3) 0 ∗ semVal ((c : Thread nD τ), osem 4) 0)

/-- The cells' invariants device `c`'s body opens, at the names the launch allocated them under: its own three, its
    right neighbour's receive cell (its transfer), its left neighbour's barrier cell (its signal). -/
def invs (K : Dev nD × Fin 3 → ℕ) (c : Dev nD) : sProp 𝕄 :=
  iprop(cellInv ER (lineRd m) (K (c, 0)) (barCell c) ∗ cellInv ER (lineRd m) (K (c, 1)) (sendCell c) ∗ cellInv ER (lineRd m) (K (c, 2)) (recvCell c)
    ∗ cellInv ER (lineRd m) (K (nxt c, 2)) (recvCell (nxt c)) ∗ cellInv ER (lineRd m) (K (prv c, 0)) (barCell (prv c)))

instance invs_persistent (K : Dev nD × Fin 3 → ℕ) (c : Dev nD) : BI.Persistent (invs m K c) := by unfold invs; infer_instance

/-- The protocol's ghost state device `c` starts from: the invariants; its positions at round 0 of its three cells; round 0
    reached of the cells it pays and of its own send and receive cells; the three tokens it pays with. (On the first and
    last device some of these go unused.) -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 () ∗ dutyTok ER (recvCell (nxt c)) 0 () ∗ dutyTok ER (sendCell c) 0 ())

/-- The credit the launch deals device `c`: its barrier's unit if it has a right neighbour, its receive cell's credit if it
    has a left one. -/
def creds (c : Dev nD) : sProp 𝕄 :=
  iprop(cred (if c.val ≠ 7 then tallyAt (barCell c) () 1 else 0) ∗ cred (if c.val ≠ 0 then tallyAt (recvCell c) () N else 0))

def start (c : Dev nD) : sProp 𝕄 :=
  iprop((∃ K, ghost m K c) ∗ creds c ∗ levAts L lv ∗ lsems0 c
    ∗ pt c aM (m ((c : Thread nD τ).loc main_arg0)) ∗ pt c bM (m ((c : Thread nD τ).loc main_arg1)) ∗ pt c rM (m ((c : Thread nD τ).loc main_v1)))

/-- The five scratch buffers at some contents. -/
def scratch (c : Dev nD) : sProp 𝕄 :=
  iprop((∃ f, pt c xM f) ∗ (∃ f, pt c kM f) ∗ (∃ f, pt c oM f) ∗ (∃ f, pt c hM f) ∗ (∃ f, pt c sM f))

def Φ₀ (c : Dev nD) : sProp 𝕄 := iprop(start m c ∗ scratch c)
/-- After the body: the result block computed, the arguments as they were, the scratch at some contents, the kernel's seven
    own semaphores at zero. -/
def Φ₁ (c : Dev nD) : sProp 𝕄 :=
  iprop((pt c aM (m ((c : Thread nD τ).loc main_arg0)) ∗ pt c bM (m ((c : Thread nD τ).loc main_arg1)) ∗ pt c rM (outC m c))
    ∗ scratch c ∗ lsems0 c ∗ semVal (sendCell c) 0 ∗ semVal (recvCell c) 0)

/-! ## The pipeline's proof data: no window, one point -/

/-- The one grid point's proof data on device `c`: before it the launch's holdings, after it the result computed; the
    device owes its neighbours' cells before, nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelProof

end
-- ==== Proof.Bits.Final.lean ====
import proofs.«900435_g7700000000000436_dist_gconv1d_seqshard_i_b4_s512_c256_v7x_i8_bf16_1_alg».proof.Proof.Bits.OutSpec
import proofs.«900435_g7700000000000436_dist_gconv1d_seqshard_i_b4_s512_c256_v7x_i8_bf16_1_alg».proof.Proof.Gen.Kernel.Launch
import Idealize.ShloMosaic.Lib.Pipeline.Value
import Idealize.ShloMosaic.Lib.Writes

noncomputable section
namespace Cert.Kernel.Final
open Cert.Kernel Cert.Kernel.Gen
open Idealize.ShloMosaic Idealize.ShloMosaic.TcCoe

variable {F : FTy → Type} [FloatOps F]

abbrev xM : Memref sig .tc .vmem S4x512x256 .f32 := Memref.whole cc0_scratch0
abbrev kM : Memref sig .tc .vmem S4x256 .f32 := Memref.whole cc0_scratch1
abbrev oM : Memref sig .tc .vmem S4x512x256 .bf16 := Memref.whole cc0_scratch2
abbrev hM : Memref sig .tc .vmem S4x3x256 .f32 := Memref.whole cc0_scratch3
abbrev rM : Memref sig .tc .hbm S4x512x256 .bf16 := Memref.whole main_v1

/-- The filter as the body loads it whole, and tap by tap. -/
abbrev kAll (k : Vec F S4x256 .f32) : Vec F S4x256 .f32 :=
  View.readAt (Elt F) (kM).view (Rect.unit (s := S4x256) ![0, 0] S4x256.size inb_S4x256_S4x256_0_0).toLoadRect k
abbrev x256 (x : Vec F S4x512x256 .f32) : Vec F S4x256x256 .f32 :=
  View.readAt (Elt F) (xM).view (Rect.unit (s := S4x512x256) ![0, 0, 0] S4x256x256.size inb_S4x512x256_S4x256x256_0_0_0).toLoadRect x
abbrev x264 (x : Vec F S4x512x256 .f32) : Vec F S4x264x256 .f32 :=
  View.readAt (Elt F) (xM).view (Rect.unit (s := S4x512x256) ![0, 248, 0] S4x264x256.size inb_S4x512x256_S4x264x256_0_248_0).toLoadRect x

/-- The out buffer's stores, last first. -/
abbrev Ho1 (x : Vec F S4x512x256 .f32) (k : Vec F S4x256 .f32) : List (View.Piece (Elt F) S4x512x256 .bf16) :=
  [⟨Rect.unit (s := S4x512x256) ![0, 0, 0] S4x256x256.size inb_S4x512x256_S4x256x256_0_0_0,
    k0_pay3 (kAll k) (x256 x) (k0_pay2 (kAll k) (x256 x))⟩]
abbrev Ho2 (x : Vec F S4x512x256 .f32) (k : Vec F S4x256 .f32) : List (View.Piece (Elt F) S4x512x256 .bf16) :=
  ⟨Rect.unit (s := S4x512x256) ![0, 256, 0] S4x256x256.size inb_S4x512x256_S4x256x256_0_256_0, k0_pay4 (kAll k) (x264 x)⟩ :: Ho1 x k
abbrev edge (x : Vec F S4x512x256 .f32) (k : Vec F S4x256 .f32) (h : Vec F S4x3x256 .f32) : FVec F S4x3x256 .bf16 :=
  k0_pay7 (k0_pay6
      (View.readAt (Elt F) (hM).view (Rect.unit (s := S4x3x256) ![0, 0, 0] S4x3x256.size inb_S4x3x256_S4x3x256_0_0_0).toLoadRect h)
      (View.readAt (Elt F) (xM).view (Rect.unit (s := S4x512x256) ![0, 0, 0] S4x3x256.size inb_S4x512x256_S4x3x256_0_0_0).toLoadRect x)
      (View.readAt (Elt F) (kM).view (Rect.unit (s := S4x256) ![0, 0] S1x256.size inb_S4x256_S1x256_0_0).toLoadRect k)
      (View.readAt (Elt F) (kM).view (Rect.unit (s := S4x256) ![1, 0] S1x256.size inb_S4x256_S1x256_1_0).toLoadRect k)
      (View.readAt (Elt F) (kM).view (Rect.unit (s := S4x256) ![2, 0] S1x256.size inb_S4x256_S1x256_2_0).toLoadRect k)
      (View.readAt (Elt F) (kM).view (Rect.unit (s := S4x256) ![3, 0] S1x256.size inb_S4x256_S1x256_3_0).toLoadRect k))
    (FloatOps.ofBits FTy.f32 1056964608#32)
abbrev Ho3 (x : Vec F S4x512x256 .f32) (k : Vec F S4x256 .f32) (h : Vec F S4x3x256 .f32) : List (View.Piece (Elt F) S4x512x256 .bf16) :=
  ⟨Rect.unit (s := S4x512x256) ![0, 0, 0] S4x4x256.size inb_S4x512x256_S4x4x256_0_0_0,
    updateSlice ((oM).view.readCov (Ho2 x k) (Rect.unit (s := S4x512x256) ![0, 0, 0] S4x4x256.size inb_S4x512x256_S4x4x256_0_0_0).toLoadRect)
      (edge x k h) ![0, 0, 0] slices_S4x4x256_S4x3x256_0_0_0⟩ :: Ho2 x k

/-- The result array after the three copies out of the out buffer, over any prior contents `r0` of the array and `fo` of
    the out buffer. -/
abbrev final (x : Vec F S4x512x256 .f32) (k : Vec F S4x256 .f32) (h : Vec F S4x3x256 .f32)
    (fo r0 : Vec F S4x512x256 .bf16) : Vec F S4x512x256 .bf16 :=
  (rM).view.writes (Elt F) r0
    [⟨Rect.unit (s := S4x512x256) ![0, 0, 0] S4x8x256.size inb_S4x512x256_S4x8x256_0_0_0,
        ReadAs.same.apply (View.read (Elt F) ((oM).slice (Rect.unit (s := S4x512x256) ![0, 0, 0] S4x8x256.size inb_S4x512x256_S4x8x256_0_0_0) (fun _ => rfl)).view
          ((oM).view.writes (Elt F) fo (Ho3 x k h)))⟩,
      ⟨Rect.unit (s := S4x512x256) ![0, 256, 0] S4x256x256.size inb_S4x512x256_S4x256x256_0_256_0,
        ReadAs.same.apply (View.read (Elt F) ((oM).slice (Rect.unit (s := S4x512x256) ![0, 256, 0] S4x256x256.size inb_S4x512x256_S4x256x256_0_256_0) (fun _ => rfl)).view
          ((oM).view.writes (Elt F) fo (Ho2 x k)))⟩,
      ⟨Rect.unit (s := S4x512x256) ![0, 8, 0] S4x248x256.size inb_S4x512x256_S4x248x256_0_8_0,
        ReadAs.same.apply (View.read (Elt F) ((oM).slice (Rect.unit (s := S4x512x256) ![0, 8, 0] S4x248x256.size inb_S4x512x256_S4x248x256_0_8_0) (fun _ => rfl)).view
          ((oM).view.writes (Elt F) fo (Ho1 x k)))⟩]

/-! ## Rows of the 512-row block, as rectangles: where their elements lie, and reads and writes through them -/

section Rows
open Idealize.ShloMosaic.ValueIdx
variable {sig' : RefSig} {κ : Kind} {sp : Space} {e : EltTy} {Val : EltTy → Type}

/-- Index (b, q, ch) of rows [o, o + n) is the block's index (b, o + q, ch). -/
theorem emb_rows (o n : ℕ)
    (inb : ∀ a : Fin 3, (![0, o, 0] : Fin 3 → ℕ) a + (![4, n, 256] : Fin 3 → ℕ) a ≤ (![4, 512, 256] : Fin 3 → ℕ) a)
    (b : Fin 4) (q : Fin n) (ch : Fin 256) (r : Fin 512) (hr : o + q.val = r.val) :
    (Rect.unit (s := ⟨3, ![4, 512, 256]⟩) ![0, o, 0] (⟨3, ![4, n, 256]⟩ : Shape).size inb).emb (ix3 b q ch) = ix3 b r ch := by
  funext a
  apply Fin.ext
  match a with
  | ⟨0, _⟩ => show 0 + 1 * b.val = b.val; omega
  | ⟨1, _⟩ => show o + 1 * q.val = r.val; omega
  | ⟨2, _⟩ => show 0 + 1 * ch.val = ch.val; omega

/-- A row inside the newest piece's rows reads that piece's payload. -/
theorem read_cons_rows_hit (v : View sig' κ sp (⟨3, ![4, 512, 256]⟩ : Shape) e) (f : v.ty.Contents Val) (o n : ℕ)
    (inb : ∀ a : Fin 3, (![0, o, 0] : Fin 3 → ℕ) a + (![4, n, 256] : Fin 3 → ℕ) a ≤ (![4, 512, 256] : Fin 3 → ℕ) a)
    (w : (⟨3, ![4, n, 256]⟩ : Shape).Idx → Val e) (L : List (View.Piece Val (⟨3, ![4, 512, 256]⟩ : Shape) e))
    (b : Fin 4) (r : Fin 512) (q : Fin n) (ch : Fin 256) (hr : o + q.val = r.val) :
    v.read Val (v.writes Val f
        (⟨Rect.unit (s := ⟨3, ![4, 512, 256]⟩) ![0, o, 0] (⟨3, ![4, n, 256]⟩ : Shape).size inb, w⟩ :: L)) (ix3 b r ch)
      = w (ix3 b q ch) := by
  rw [← emb_rows o n inb b q ch r hr]
  exact View.read_writes_cons_emb v f (Rect.unit (s := ⟨3, ![4, 512, 256]⟩) ![0, o, 0] (⟨3, ![4, n, 256]⟩ : Shape).size inb) w L (ix3 b q ch)

/-- A row outside the newest piece's rows reads what the earlier pieces left. -/
theorem read_cons_rows_miss (v : View sig' κ sp (⟨3, ![4, 512, 256]⟩ : Shape) e) (f : v.ty.Contents Val) (o n : ℕ)
    (inb : ∀ a : Fin 3, (![0, o, 0] : Fin 3 → ℕ) a + (![4, n, 256] : Fin 3 → ℕ) a ≤ (![4, 512, 256] : Fin 3 → ℕ) a)
    (w : (⟨3, ![4, n, 256]⟩ : Shape).Idx → Val e) (L : List (View.Piece Val (⟨3, ![4, 512, 256]⟩ : Shape) e))
    (b : Fin 4) (r : Fin 512) (ch : Fin 256) (hr : r.val < o ∨ o + n ≤ r.val) :
    v.read Val (v.writes Val f
        (⟨Rect.unit (s := ⟨3, ![4, 512, 256]⟩) ![0, o, 0] (⟨3, ![4, n, 256]⟩ : Shape).size inb, w⟩ :: L)) (ix3 b r ch)
      = v.read Val (v.writes Val f L) (ix3 b r ch) := by
  rw [View.writes_cons]
  refine View.read_slice_write_of_not_mem (Rect.unit (s := ⟨3, ![4, 512, 256]⟩) ![0, o, 0] (⟨3, ![4, n, 256]⟩ : Shape).size inb) _ w _ ?_
  rw [Rect.map_emb_univ]
  intro hm
  have h1 : o ≤ r.val ∧ r.val < o + n := (Rect.mem_set_unit.mp hm) 1
  omega

/-- A read through rows [o, o + n) of a view, at (b, q, ch), is the view's read at (b, o + q, ch). -/
theorem read_slice_rows (v : View sig' κ sp (⟨3, ![4, 512, 256]⟩ : Shape) e) (g : v.ty.Contents Val) (o n : ℕ)
    (inb : ∀ a : Fin 3, (![0, o, 0] : Fin 3 → ℕ) a + (![4, n, 256] : Fin 3 → ℕ) a ≤ (![4, 512, 256] : Fin 3 → ℕ) a)
    (b : Fin 4) (q : Fin n) (ch : Fin 256) (r : Fin 512) (hr : o + q.val = r.val) :
    (v.slice (Rect.unit (s := ⟨3, ![4, 512, 256]⟩) ![0, o, 0] (⟨3, ![4, n, 256]⟩ : Shape).size inb)).read Val g (ix3 b q ch)
      = v.read Val g (ix3 b r ch) := by
  rw [← emb_rows o n inb b q ch r hr]
  rfl

end Rows

/-! ## The loads of the body, as rows of the block, taps of the filter, and the halo -/

section Loads
open Idealize.ShloMosaic.ValueIdx

omit [FloatOps F] in
/-- A load of rows [o, o + n) of the x buffer is those rows. -/
theorem readAt_x_rows (x : Vec F S4x512x256 .f32) (o n : ℕ) (ho : o + n ≤ 512)
    (inb : ∀ a : Fin 3, (![0, o, 0] : Fin 3 → ℕ) a + (![4, n, 256] : Fin 3 → ℕ) a ≤ (![4, 512, 256] : Fin 3 → ℕ) a) :
    View.readAt (Elt F) (xM).view
        (Rect.unit (s := S4x512x256) ![0, o, 0] (⟨3, ![4, n, 256]⟩ : Shape).size inb).toLoadRect x
      = Out.rowsOf n o ho x := by
  funext j
  show x _ = x _
  congr 1
  funext a
  apply Fin.ext
  match a with
  | ⟨0, _⟩ => show 0 + 1 * (j 0).val = (j 0).val; omega
  | ⟨1, _⟩ => show o + 1 * (j 1).val = o + (j 1).val; omega
  | ⟨2, _⟩ => show 0 + 1 * (j 2).val = (j 2).val; omega

omit [FloatOps F] in
/-- A load of row t of the filter buffer is tap t. -/
theorem readAt_k_tap (k : Vec F S4x256 .f32) (t : Fin 4) (off : Fin 2 → ℕ) (h0 : off 0 = t.val) (h1 : off 1 = 0)
    (inb : ∀ a : Fin 2, off a + (![1, 256] : Fin 2 → ℕ) a ≤ (![4, 256] : Fin 2 → ℕ) a) :
    View.readAt (Elt F) (kM).view (Rect.unit (s := S4x256) off S1x256.size inb).toLoadRect k = Out.tap t k := by
  funext j
  show k _ = k _
  congr 1
  funext a
  apply Fin.ext
  match a with
  | ⟨0, _⟩ =>
    have h0 : (j 0).val < 1 := (j 0).isLt
    show off 0 + 1 * (j 0).val = t.val
    omega
  | ⟨1, _⟩ => show off 1 + 1 * (j 1).val = (j 1).val; omega

omit [FloatOps F] in
/-- A load of the whole filter buffer is the filter. -/
theorem kAll_eq (k : Vec F S4x256 .f32) : kAll k = k := by
  funext j
  show k _ = k j
  congr 1
  funext a
  apply Fin.ext
  match a with
  | ⟨0, _⟩ => show 0 + 1 * (j 0).val = (j 0).val; omega
  | ⟨1, _⟩ => show 0 + 1 * (j 1).val = (j 1).val; omega

omit [FloatOps F] in
/-- A load of the whole halo buffer is the halo. -/
theorem readAt_h_whole (h : Vec F S4x3x256 .f32) :
    View.readAt (Elt F) (hM).view
        (Rect.unit (s := S4x3x256) ![0, 0, 0] S4x3x256.size inb_S4x3x256_S4x3x256_0_0_0).toLoadRect h = h := by
  funext j
  show h _ = h j
  congr 1
  funext a
  apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

omit [FloatOps F] in
theorem x256_eq (x : Vec F S4x512x256 .f32) : x256 x = Out.rowsOf 256 0 (by decide) x :=
  readAt_x_rows x 0 256 (by decide) _
omit [FloatOps F] in
theorem x264_eq (x : Vec F S4x512x256 .f32) : x264 x = Out.rowsOf 264 248 (by decide) x :=
  readAt_x_rows x 248 264 (by decide) _

/-- The edge payload is the specification's first branch. -/
theorem edge_eq (x : Vec F S4x512x256 .f32) (k : Vec F S4x256 .f32) (h : Vec F S4x3x256 .f32) :
    edge x k h
      = k0_pay7 (k0_pay6 h (Out.rowsOf 3 0 (by decide) x) (Out.tap 0 k) (Out.tap 1 k) (Out.tap 2 k) (Out.tap 3 k))
          (Scalar.ofBits .f32 0x3F000000#32) := by
  show k0_pay7 (k0_pay6 _ _ _ _ _ _) _ = _
  rw [readAt_h_whole, readAt_x_rows x 0 3 (by decide) inb_S4x512x256_S4x3x256_0_0_0,
    readAt_k_tap k 0 ![0, 0] rfl rfl inb_S4x256_S1x256_0_0, readAt_k_tap k 1 ![1, 0] rfl rfl inb_S4x256_S1x256_1_0,
    readAt_k_tap k 2 ![2, 0] rfl rfl inb_S4x256_S1x256_2_0, readAt_k_tap k 3 ![3, 0] rfl rfl inb_S4x256_S1x256_3_0]

end Loads

/-! ## The specification's three ranges of rows, and a read-modify-write of four rows -/

section Spec
open Idealize.ShloMosaic.ValueIdx

theorem outSpec_edge (x : Vec F S4x512x256 .f32) (k : Vec F S4x256 .f32) (h : Vec F S4x3x256 .f32)
    (b : Fin 4) (r : Fin 512) (ch : Fin 256) (h3 : r.val < 3) :
    Out.outSpec x k h (ix3 b r ch)
      = k0_pay7 (k0_pay6 h (Out.rowsOf 3 0 (by decide) x) (Out.tap 0 k) (Out.tap 1 k) (Out.tap 2 k) (Out.tap 3 k))
          (Scalar.ofBits .f32 0x3F000000#32) (ix3 b (⟨r.val, h3⟩ : Fin 3) ch) := by
  unfold Out.outSpec
  exact dif_pos h3

theorem outSpec_lo (x : Vec F S4x512x256 .f32) (k : Vec F S4x256 .f32) (h : Vec F S4x3x256 .f32)
    (b : Fin 4) (r : Fin 512) (ch : Fin 256) (h3 : ¬ r.val < 3) (h256 : r.val < 256) :
    Out.outSpec x k h (ix3 b r ch)
      = k0_pay3 k (Out.rowsOf 256 0 (by decide) x) (k0_pay2 k (Out.rowsOf 256 0 (by decide) x))
          (ix3 b (⟨r.val, h256⟩ : Fin 256) ch) := by
  unfold Out.outSpec
  exact (dif_neg h3).trans (dif_pos h256)

theorem outSpec_hi (x : Vec F S4x512x256 .f32) (k : Vec F S4x256 .f32) (h : Vec F S4x3x256 .f32)
    (b : Fin 4) (r : Fin 512) (ch : Fin 256) (h256 : ¬ r.val < 256) :
    Out.outSpec x k h (ix3 b r ch)
      = k0_pay4 k (Out.rowsOf 264 248 (by decide) x)
          (ix3 b (⟨r.val - 256, by have := r.isLt; omega⟩ : Fin 256) ch) := by
  unfold Out.outSpec
  exact (dif_neg (show ¬ r.val < 3 by omega)).trans (dif_neg h256)

/-- Three rows put over the first three of four: rows 0 … 2 are the new rows, row 3 is kept. -/
theorem updateSlice_rows {α : Type} (old : S4x4x256.Idx → α) (upd : S4x3x256.Idx → α) (hs : S4x4x256.Slices ![0, 0, 0] S4x3x256)
    (b : Fin 4) (q : Fin 4) (ch : Fin 256) :
    updateSlice old upd ![0, 0, 0] hs (ix3 b q ch)
      = if hq : q.val < 3 then upd (ix3 b (⟨q.val, hq⟩ : Fin 3) ch) else old (ix3 b q ch) := by
  unfold updateSlice
  by_cases hq : q.val < 3
  · have hb : b.val < 4 := b.isLt
    have hch : ch.val < 256 := ch.isLt
    have hin : ∀ a : Fin S4x4x256.rank, (![0, 0, 0] : Fin 3 → ℕ) a ≤ (ix3 b q ch a).val
        ∧ (ix3 b q ch a).val < (![0, 0, 0] : Fin 3 → ℕ) a + S4x3x256.size (a.cast hs.1.symm) := by
      intro a
      match a with
      | ⟨0, _⟩ => show 0 ≤ b.val ∧ b.val < 0 + 4; omega
      | ⟨1, _⟩ => show 0 ≤ q.val ∧ q.val < 0 + 3; omega
      | ⟨2, _⟩ => show 0 ≤ ch.val ∧ ch.val < 0 + 256; omega
    rw [dif_pos hin, dif_pos hq]
    congr 1
    funext a
    apply Fin.ext
    match a with
    | ⟨0, _⟩ => show b.val - 0 = b.val; omega
    | ⟨1, _⟩ => show q.val - 0 = q.val; omega
    | ⟨2, _⟩ => show ch.val - 0 = ch.val; omega
  · rw [dif_neg hq, dif_neg]
    intro hin
    have h1 : 0 ≤ q.val ∧ q.val < 0 + 3 := hin (1 : Fin 3)
    omega

end Spec

/-! ## The out buffer after each of its stores, row by row -/

section OutBuffer
open Idealize.ShloMosaic.ValueIdx

/-- After the first store a row below 256 holds the first payload, whatever the buffer held before. -/
theorem o1_at (x : Vec F S4x512x256 .f32) (k : Vec F S4x256 .f32) (f : Vec F S4x512x256 .bf16)
    (b : Fin 4) (r : Fin 512) (ch : Fin 256) (h256 : r.val < 256) :
    (oM).view.read (Elt F) ((oM).view.writes (Elt F) f (Ho1 x k)) (ix3 b r ch)
      = k0_pay3 k (Out.rowsOf 256 0 (by decide) x) (k0_pay2 k (Out.rowsOf 256 0 (by decide) x))
          (ix3 b (⟨r.val, h256⟩ : Fin 256) ch) := by
  refine (read_cons_rows_hit (oM).view f 0 256 _ _ [] b r ⟨r.val, h256⟩ ch (by show 0 + r.val = r.val; omega)).trans ?_
  rw [kAll_eq, x256_eq]

/-- After the second store a row below 256 still holds the first payload … -/
theorem o2_at_lo (x : Vec F S4x512x256 .f32) (k : Vec F S4x256 .f32) (f : Vec F S4x512x256 .bf16)
    (b : Fin 4) (r : Fin 512) (ch : Fin 256) (h256 : r.val < 256) :
    (oM).view.read (Elt F) ((oM).view.writes (Elt F) f (Ho2 x k)) (ix3 b r ch)
      = k0_pay3 k (Out.rowsOf 256 0 (by decide) x) (k0_pay2 k (Out.rowsOf 256 0 (by decide) x))
          (ix3 b (⟨r.val, h256⟩ : Fin 256) ch) :=
  (read_cons_rows_miss (oM).view f 256 256 _ _ (Ho1 x k) b r ch (Or.inl h256)).trans (o1_at x k f b r ch h256)

/-- … and a row from 256 on holds the second payload. -/
theorem o2_at_hi (x : Vec F S4x512x256 .f32) (k : Vec F S4x256 .f32) (f : Vec F S4x512x256 .bf16)
    (b : Fin 4) (r : Fin 512) (ch : Fin 256) (h256 : ¬ r.val < 256) :
    (oM).view.read (Elt F) ((oM).view.writes (Elt F) f (Ho2 x k)) (ix3 b r ch)
      = k0_pay4 k (Out.rowsOf 264 248 (by decide) x)
          (ix3 b (⟨r.val - 256, by have := r.isLt; omega⟩ : Fin 256) ch) := by
  have hr : r.val < 512 := r.isLt
  refine (read_cons_rows_hit (oM).view f 256 256 _ _ (Ho1 x k) b r ⟨r.val - 256, by omega⟩ ch
    (by show 256 + (r.val - 256) = r.val; omega)).trans ?_
  rw [kAll_eq, x264_eq]

/-- After the read-modify-write of the first four rows, a row below 3 holds the edge payload; -/
theorem o3_at_edge (x : Vec F S4x512x256 .f32) (k : Vec F S4x256 .f32) (h : Vec F S4x3x256 .f32) (f : Vec F S4x512x256 .bf16)
    (b : Fin 4) (r : Fin 512) (ch : Fin 256) (h3 : r.val < 3) :
    (oM).view.read (Elt F) ((oM).view.writes (Elt F) f (Ho3 x k h)) (ix3 b r ch)
      = k0_pay7 (k0_pay6 h (Out.rowsOf 3 0 (by decide) x) (Out.tap 0 k) (Out.tap 1 k) (Out.tap 2 k) (Out.tap 3 k))
          (Scalar.ofBits .f32 0x3F000000#32) (ix3 b (⟨r.val, h3⟩ : Fin 3) ch) := by
  refine (read_cons_rows_hit (oM).view f 0 4 _ _ (Ho2 x k) b r ⟨r.val, by omega⟩ ch (by show 0 + r.val = r.val; omega)).trans ?_
  rw [updateSlice_rows, dif_pos (show r.val < 3 from h3), edge_eq]

/-- a row from 3 to 255 holds the first payload: row 3 because the read-modify-write keeps what it read there, the rows
    after it because it does not touch them. -/
theorem o3_at_lo (x : Vec F S4x512x256 .f32) (k : Vec F S4x256 .f32) (h : Vec F S4x3x256 .f32) (f : Vec F S4x512x256 .bf16)
    (b : Fin 4) (r : Fin 512) (ch : Fin 256) (h3 : ¬ r.val < 3) (h256 : r.val < 256) :
    (oM).view.read (Elt F) ((oM).view.writes (Elt F) f (Ho3 x k h)) (ix3 b r ch)
      = k0_pay3 k (Out.rowsOf 256 0 (by decide) x) (k0_pay2 k (Out.rowsOf 256 0 (by decide) x))
          (ix3 b (⟨r.val, h256⟩ : Fin 256) ch) := by
  by_cases h4 : r.val < 4
  · refine (read_cons_rows_hit (oM).view f 0 4 _ _ (Ho2 x k) b r ⟨r.val, h4⟩ ch (by show 0 + r.val = r.val; omega)).trans ?_
    rw [updateSlice_rows, dif_neg (show ¬ r.val < 3 from h3), View.readCov, View.readAt_rect]
    refine (read_slice_rows (Val := Elt F) (oM).view ((oM).view.writes (Elt F) (oM).view.junk (Ho2 x k)) 0 4
      inb_S4x512x256_S4x4x256_0_0_0 b ⟨r.val, h4⟩ ch r (by show 0 + r.val = r.val; omega)).trans ?_
    exact o2_at_lo x k _ b r ch h256
  · exact (read_cons_rows_miss (oM).view f 0 4 _ _ (Ho2 x k) b r ch (Or.inr (by omega))).trans (o2_at_lo x k f b r ch h256)

end OutBuffer

/-! ## The result array after the three copies, and a copy's payload, over any contents copied -/

section Result
open Idealize.ShloMosaic.ValueIdx

omit [FloatOps F] in
/-- What a copy of rows [o, o + n) out of the out buffer carries at (b, q, ch): the buffer's element at (b, o + q, ch). -/
theorem copy_at (G : Vec F S4x512x256 .bf16) (o n : ℕ)
    (inb : ∀ a : Fin 3, (![0, o, 0] : Fin 3 → ℕ) a + (![4, n, 256] : Fin 3 → ℕ) a ≤ (![4, 512, 256] : Fin 3 → ℕ) a)
    (hst : ∀ a, (Rect.unit (s := S4x512x256) ![0, o, 0] (⟨3, ![4, n, 256]⟩ : Shape).size inb).stride a = 1)
    (b : Fin 4) (q : Fin n) (ch : Fin 256) (r : Fin 512) (hr : o + q.val = r.val) :
    ReadAs.same.apply (View.read (Elt F)
        ((oM).slice (Rect.unit (s := S4x512x256) ![0, o, 0] (⟨3, ![4, n, 256]⟩ : Shape).size inb) hst).view G) (ix3 b q ch)
      = (oM).view.read (Elt F) G (ix3 b r ch) :=
  read_slice_rows (Val := Elt F) (oM).view G o n inb b q ch r hr

omit [FloatOps F] in
/-- The result array read whole is its contents. -/
theorem whole_read (g : Vec F S4x512x256 .bf16) (i : S4x512x256.Idx) : (rM).view.read (Elt F) g i = g i := rfl

omit [FloatOps F] in
/-- Rows 0 … 7 of the result array hold the last copy's payload; -/
theorem r_at_head (r0 : Vec F S4x512x256 .bf16) (w1 : Vec F S4x8x256 .bf16) (w2 : Vec F S4x256x256 .bf16) (w3 : Vec F S4x248x256 .bf16)
    (b : Fin 4) (r : Fin 512) (ch : Fin 256) (h8 : r.val < 8) :
    (rM).view.read (Elt F) ((rM).view.writes (Elt F) r0
        [⟨Rect.unit (s := S4x512x256) ![0, 0, 0] S4x8x256.size inb_S4x512x256_S4x8x256_0_0_0, w1⟩,
          ⟨Rect.unit (s := S4x512x256) ![0, 256, 0] S4x256x256.size inb_S4x512x256_S4x256x256_0_256_0, w2⟩,
          ⟨Rect.unit (s := S4x512x256) ![0, 8, 0] S4x248x256.size inb_S4x512x256_S4x248x256_0_8_0, w3⟩]) (ix3 b r ch)
      = w1 (ix3 b (⟨r.val, h8⟩ : Fin 8) ch) :=
  read_cons_rows_hit (Val := Elt F) (rM).view r0 0 8 inb_S4x512x256_S4x8x256_0_0_0 w1 _ b r ⟨r.val, h8⟩ ch
    (by show 0 + r.val = r.val; omega)

omit [FloatOps F] in
/-- rows 8 … 255 the first copy's; -/
theorem r_at_mid (r0 : Vec F S4x512x256 .bf16) (w1 : Vec F S4x8x256 .bf16) (w2 : Vec F S4x256x256 .bf16) (w3 : Vec F S4x248x256 .bf16)
    (b : Fin 4) (r : Fin 512) (ch : Fin 256) (h8 : ¬ r.val < 8) (h256 : r.val < 256) :
    (rM).view.read (Elt F) ((rM).view.writes (Elt F) r0
        [⟨Rect.unit (s := S4x512x256) ![0, 0, 0] S4x8x256.size inb_S4x512x256_S4x8x256_0_0_0, w1⟩,
          ⟨Rect.unit (s := S4x512x256) ![0, 256, 0] S4x256x256.size inb_S4x512x256_S4x256x256_0_256_0, w2⟩,
          ⟨Rect.unit (s := S4x512x256) ![0, 8, 0] S4x248x256.size inb_S4x512x256_S4x248x256_0_8_0, w3⟩]) (ix3 b r ch)
      = w3 (ix3 b (⟨r.val - 8, by omega⟩ : Fin 248) ch) :=
  (read_cons_rows_miss (Val := Elt F) (rM).view r0 0 8 inb_S4x512x256_S4x8x256_0_0_0 w1 _ b r ch (Or.inr (by omega))).trans
    ((read_cons_rows_miss (Val := Elt F) (rM).view r0 256 256 inb_S4x512x256_S4x256x256_0_256_0 w2 _ b r ch (Or.inl h256)).trans
      (read_cons_rows_hit (Val := Elt F) (rM).view r0 8 248 inb_S4x512x256_S4x248x256_0_8_0 w3 [] b r ⟨r.val - 8, by omega⟩ ch
        (by show 8 + (r.val - 8) = r.val; omega)))

omit [FloatOps F] in
/-- rows 256 … 511 the second copy's. -/
theorem r_at_hi (r0 : Vec F S4x512x256 .bf16) (w1 : Vec F S4x8x256 .bf16) (w2 : Vec F S4x256x256 .bf16) (w3 : Vec F S4x248x256 .bf16)
    (b : Fin 4) (r : Fin 512) (ch : Fin 256) (h256 : ¬ r.val < 256) :
    (rM).view.read (Elt F) ((rM).view.writes (Elt F) r0
        [⟨Rect.unit (s := S4x512x256) ![0, 0, 0] S4x8x256.size inb_S4x512x256_S4x8x256_0_0_0, w1⟩,
          ⟨Rect.unit (s := S4x512x256) ![0, 256, 0] S4x256x256.size inb_S4x512x256_S4x256x256_0_256_0, w2⟩,
          ⟨Rect.unit (s := S4x512x256) ![0, 8, 0] S4x248x256.size inb_S4x512x256_S4x248x256_0_8_0, w3⟩]) (ix3 b r ch)
      = w2 (ix3 b (⟨r.val - 256, by have := r.isLt; omega⟩ : Fin 256) ch) :=
  (read_cons_rows_miss (Val := Elt F) (rM).view r0 0 8 inb_S4x512x256_S4x8x256_0_0_0 w1 _ b r ch (Or.inr (by omega))).trans
    (read_cons_rows_hit (Val := Elt F) (rM).view r0 256 256 inb_S4x512x256_S4x256x256_0_256_0 w2 _ b r
      ⟨r.val - 256, by have := r.isLt; omega⟩ ch (by show 256 + (r.val - 256) = r.val; have := r.isLt; omega))

end Result

open Idealize.ShloMosaic.ValueIdx in
theorem final_eq (x : Vec F S4x512x256 .f32) (k : Vec F S4x256 .f32) (h : Vec F S4x3x256 .f32) (fo r0 : Vec F S4x512x256 .bf16) :
    final x k h fo r0 = Out.outSpec x k h := by
  funext i
  obtain ⟨b, r, ch, rfl⟩ : ∃ (b : Fin 4) (r : Fin 512) (ch : Fin 256), i = ix3 b r ch := ⟨i 0, i 1, i 2, eq_ix3 i⟩
  have hr : r.val < 512 := r.isLt
  rw [← whole_read (final x k h fo r0) (ix3 b r ch)]
  by_cases h8 : r.val < 8
  · -- rows 0 … 7: copied out after the read-modify-write
    refine (r_at_head r0 _ _ _ b r ch h8).trans ?_
    refine (copy_at _ 0 8 _ _ b ⟨r.val, h8⟩ ch r (by show 0 + r.val = r.val; omega)).trans ?_
    by_cases h3 : r.val < 3
    · exact (o3_at_edge x k h fo b r ch h3).trans (outSpec_edge x k h b r ch h3).symm
    · exact (o3_at_lo x k h fo b r ch h3 (by omega)).trans (outSpec_lo x k h b r ch h3 (by omega)).symm
  · by_cases h256 : r.val < 256
    · -- rows 8 … 255: copied out after the first store
      refine (r_at_mid r0 _ _ _ b r ch h8 h256).trans ?_
      refine (copy_at _ 8 248 _ _ b ⟨r.val - 8, by omega⟩ ch r (by show 8 + (r.val - 8) = r.val; omega)).trans ?_
      exact (o1_at x k fo b r ch h256).trans (outSpec_lo x k h b r ch (by omega) h256).symm
    · -- rows 256 … 511: copied out after the second store
      refine (r_at_hi r0 _ _ _ b r ch h256).trans ?_
      refine (copy_at _ 256 256 _ _ b ⟨r.val - 256, by omega⟩ ch r (by show 256 + (r.val - 256) = r.val; omega)).trans ?_
      exact (o2_at_hi x k fo b r ch h256).trans (outSpec_hi x k h b r ch h256).symm

end Cert.Kernel.Final
end
-- ==== Proof.Bits.Body.lean ====
/-
  One device's body, stepped once at a symbolic device: the entry signal to the left, the two loads of x and k, the
  send buffer filled, the first half computed and on its way out, the wait for the right neighbour's signal and the
  transfer to it, the second half, the wait for the left neighbour's three rows, the edge rows, the three stores
  waited for, the transfer's departure waited for.
-/
import proofs.«900435_g7700000000000436_dist_gconv1d_seqshard_i_b4_s512_c256_v7x_i8_bf16_1_alg».proof.Proof.Bits.Proto
import proofs.«900435_g7700000000000436_dist_gconv1d_seqshard_i_b4_s512_c256_v7x_i8_bf16_1_alg».proof.Proof.Bits.Final
import Idealize.ShloMosaic.Lib.Tactic
import Idealize.ShloMosaic.Lib.Pipeline.Value

noncomputable section
namespace Cert.KernelProof
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The schedule's tables at the neighbours' cells, the composed neighbour maps resolved -/

theorem prv_ne7 (c : Dev nD) (h : c.val ≠ 0) : (prv c).val ≠ 7 := by revert c; decide
theorem nxt_ne0 (c : Dev nD) (h : c.val ≠ 7) : (nxt c).val ≠ 0 := by revert c; decide
omit [FloatOps F] in
theorem duties_bar_prv (c : Dev nD) (h : c.val ≠ 0) : (lineRd (F := F) m).duties (barCell (prv c)) 0 = {()} := duties_bar m (prv c) (prv_ne7 c h)
omit [FloatOps F] in
theorem duties_recv_nxt (c : Dev nD) (h : c.val ≠ 7) : (lineRd (F := F) m).duties (recvCell (nxt c)) 0 = {()} := duties_recv m (nxt c) (nxt_ne0 c h)
theorem payload_bar_prv (c : Dev nD) (d : Unit) : (lineRd (F := F) m).payload (barCell (prv c)) 0 d
    = iprop((∃ f, (Memref.whole cc0_scratch3 : Memref sig .tc .vmem S4x3x256 .f32).view.loc ((c : Dev nD) : Thread nD τ) ↦{fullShare} f)
        ∗ reached ER (recvCell c) 0) := by rw [payload_bar, nxt_prv]
theorem payload_recv_nxt (c : Dev nD) (d : Unit) : (lineRd (F := F) m).payload (recvCell (nxt c)) 0 d
    = ((Memref.whole cc0_scratch3 : Memref sig .tc .vmem S4x3x256 .f32).view.loc ((nxt c : Dev nD) : Thread nD τ) ↦{fullShare} sent m c) := by
  rw [payload_recv, prv_nxt]

attribute [local sl_rounds high] duties_bar_prv duties_recv_nxt payload_bar_prv payload_recv_nxt
attribute [local sl_rounds] duties_bar duties_send duties_recv amount_bar amount_send amount_recv expect_bar expect_send expect_recv
  payload_bar payload_send payload_recv
attribute [local sl_canon] dev1_eq dev2_eq

/-! ## The printed conditions on the device's place, in closed form -/

theorem isFirst_iff (c : Dev nD) :
    Scalar.cmpi .ne (Scalar.extui (Scalar.cmpi .eq (Scalar.remsi (Scalar.divsi (Dev.word c) 1#32) 8#32) 0#32)) 0#32 = 1#1 ↔ c.val = 0 := by
  revert c; decide
theorem notFirst_iff (c : Dev nD) :
    Scalar.cmpi .ne (Scalar.extui (Scalar.xori (Scalar.cmpi .eq (Scalar.remsi (Scalar.divsi (Dev.word c) 1#32) 8#32) 0#32) 1#1)) 0#32 = 1#1 ↔ c.val ≠ 0 := by
  revert c; decide
theorem notLast_iff (c : Dev nD) :
    Scalar.cmpi .ne (Scalar.extui (Scalar.xori (Scalar.cmpi .eq (Scalar.remsi (Scalar.divsi (Dev.word c) 1#32) 8#32) 7#32) 1#1)) 0#32 = 1#1 ↔ c.val ≠ 7 := by
  revert c; decide

/-! ## What the buffers hold, restated -/

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

omit [FloatOps F] in
/-- A whole copy over any prior contents is what was copied. -/
theorem copied_x (c : Dev nD) (fx : Buf (Elt F) ((xM : Memref sig .tc .vmem S4x512x256 .f32).view.loc (c : Thread nD τ))) :
    View.write (Elt F) (Memref.whole cc0_scratch0 : Memref sig .tc .vmem S4x512x256 .f32).view fx
      (ReadAs.same.apply (View.read (Elt F) (Memref.whole main_arg0 : Memref sig .tc .hbm S4x512x256 .f32).view (m ((c : Thread nD τ).loc main_arg0)))) Finset.univ
      = xblk m c := by
  show (View.whole cc0_scratch0).write (Elt F) fx ((View.whole main_arg0).read (Elt F) _) Finset.univ = _
  rw [View.read_whole]
  exact View.write_whole_univ _ _ _

omit [FloatOps F] in
/-- The last three rows of a block, as a load through the x buffer reads them. -/
theorem rows509 (x : Vec F S4x512x256 .f32) :
    View.readAt (Elt F) (xM : Memref sig .tc .vmem S4x512x256 .f32).view
      (Rect.unit (s := S4x512x256) ![0, 509, 0] S4x3x256.size inb_S4x512x256_S4x3x256_0_509_0).toLoadRect x
      = Out.rowsOf 3 509 (by decide) x := by
  funext j
  show x _ = x _
  congr 1
  funext a
  apply Fin.ext
  fin_cases a
  · show 0 + 1 * (j 0).val = (j 0).val; omega
  · show 509 + 1 * (j 1).val = 509 + (j 1).val; omega
  · show 0 + 1 * (j 2).val = (j 2).val; omega

/-- What the send buffer holds once the last three rows are stored in it, whatever it and the x buffer held before. -/
theorem sent_eq (c : Dev nD) (fx : Buf (Elt F) ((xM : Memref sig .tc .vmem S4x512x256 .f32).view.loc (c : Thread nD τ)))
    (fs : Buf (Elt F) ((sM : Memref sig .tc .vmem S4x3x256 .f32).view.loc (c : Thread nD τ))) :
    (sM : Memref sig .tc .vmem S4x3x256 .f32).view.writes (Elt F) fs
      [⟨Rect.unit (s := S4x3x256) ![0, 0, 0] S4x3x256.size inb_S4x3x256_S4x3x256_0_0_0,
        k0_pay1 (View.readAt (Elt F) (xM : Memref sig .tc .vmem S4x512x256 .f32).view
          (Rect.unit (s := S4x512x256) ![0, 509, 0] S4x3x256.size inb_S4x512x256_S4x3x256_0_509_0).toLoadRect
          (View.write (Elt F) (Memref.whole cc0_scratch0 : Memref sig .tc .vmem S4x512x256 .f32).view fx
            (ReadAs.same.apply (View.read (Elt F) (Memref.whole main_arg0 : Memref sig .tc .hbm S4x512x256 .f32).view (m ((c : Thread nD τ).loc main_arg0)))) Finset.univ))⟩]
      = sent m c := by
  rw [View.writes_singleton, copied_x, rows509]
  exact Memref.write_access_unit_zero_univ (Elt F) cc0_scratch4 hz3 _ fs _

omit [FloatOps F] in
theorem s_set : (sM : Memref sig .tc .vmem S4x3x256 .f32).view.set = Finset.univ := View.set_whole _
omit [FloatOps F] in
theorem h_set : (hM : Memref sig .tc .vmem S4x3x256 .f32).view.set = Finset.univ := View.set_whole _

omit [FloatOps F] in
/-- The whole send buffer copied over the whole halo buffer leaves the send buffer's contents there. -/
theorem landed_eq (c' : Dev nD) (fd : Buf (Elt F) ((hM : Memref sig .tc .vmem S4x3x256 .f32).view.loc (c' : Thread nD τ))) (fs : Vec F S4x3x256 .f32) :
    (hM : Memref sig .tc .vmem S4x3x256 .f32).view.write (Elt F) fd ((sM : Memref sig .tc .vmem S4x3x256 .f32).view.read (Elt F) fs) Finset.univ = fs := by
  show (View.whole cc0_scratch3).write (Elt F) fd ((View.whole cc0_scratch4).read (Elt F) fs) Finset.univ = fs
  rw [View.read_whole]
  exact View.write_whole_univ _ _ _

/-- The send buffer's points-to as the run leaves it, restated at its contents over the buffer's own elements. -/
theorem sent_pts_eq (c : Dev nD) (fx : Buf (Elt F) ((xM : Memref sig .tc .vmem S4x512x256 .f32).view.loc (c : Thread nD τ)))
    (fs : Buf (Elt F) ((sM : Memref sig .tc .vmem S4x3x256 .f32).view.loc (c : Thread nD τ))) :
    ((sM : Memref sig .tc .vmem S4x3x256 .f32).view.loc (c : Thread nD τ) ↦{fullShare}
      (sM : Memref sig .tc .vmem S4x3x256 .f32).view.writes (Elt F) fs
        [⟨Rect.unit (s := S4x3x256) ![0, 0, 0] S4x3x256.size inb_S4x3x256_S4x3x256_0_0_0,
          k0_pay1 (View.readAt (Elt F) (xM : Memref sig .tc .vmem S4x512x256 .f32).view
            (Rect.unit (s := S4x512x256) ![0, 509, 0] S4x3x256.size inb_S4x512x256_S4x3x256_0_509_0).toLoadRect
            (View.write (Elt F) (Memref.whole cc0_scratch0 : Memref sig .tc .vmem S4x512x256 .f32).view fx
              (ReadAs.same.apply (View.read (Elt F) (Memref.whole main_arg0 : Memref sig .tc .hbm S4x512x256 .f32).view (m ((c : Thread nD τ).loc main_arg0)))) Finset.univ))⟩] : sProp 𝕄)
      = ((sM : Memref sig .tc .vmem S4x3x256 .f32).view.loc (c : Thread nD τ) ↦[(sM : Memref sig .tc .vmem S4x3x256 .f32).view.set]{fullShare} sent m c) := by
  rw [sent_eq, s_set]

omit [FloatOps F] in
theorem halo_pts_eq (c' : Dev nD) (f : Buf (Elt F) ((hM : Memref sig .tc .vmem S4x3x256 .f32).view.loc (c' : Thread nD τ))) :
    ((Memref.whole cc0_scratch3 : Memref sig .tc .vmem S4x3x256 .f32).view.loc (c' : Thread nD τ) ↦{fullShare} f : sProp 𝕄)
      = ((hM : Memref sig .tc .vmem S4x3x256 .f32).view.loc (c' : Thread nD τ) ↦[(hM : Memref sig .tc .vmem S4x3x256 .f32).view.set]{fullShare} f) := by
  rw [h_set]

omit [FloatOps F] in
theorem copied_k (c : Dev nD) (fk : Buf (Elt F) ((kM : Memref sig .tc .vmem S4x256 .f32).view.loc (c : Thread nD τ))) :
    View.write (Elt F) (Memref.whole cc0_scratch1 : Memref sig .tc .vmem S4x256 .f32).view fk
      (ReadAs.same.apply (View.read (Elt F) (Memref.whole main_arg1 : Memref sig .tc .hbm S4x256 .f32).view (m ((c : Thread nD τ).loc main_arg1)))) Finset.univ
      = kblk m c := by
  show (View.whole cc0_scratch1).write (Elt F) fk ((View.whole main_arg1).read (Elt F) _) Finset.univ = _
  rw [View.read_whole]
  exact View.write_whole_univ _ _ _

/-- What the result array holds after the body on a device with a left neighbour, whatever the scratch buffers and the
    array held before. -/
theorem final_hasL (c : Dev nD) (hL : c.val ≠ 0)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ))) :
    Final.final
      (View.write (Elt F) (Memref.whole cc0_scratch0 : Memref sig .tc .vmem S4x512x256 .f32).view fx
        (ReadAs.same.apply (View.read (Elt F) (Memref.whole main_arg0 : Memref sig .tc .hbm S4x512x256 .f32).view (m ((c : Thread nD τ).loc main_arg0)))) Finset.univ)
      (View.write (Elt F) (Memref.whole cc0_scratch1 : Memref sig .tc .vmem S4x256 .f32).view fk
        (ReadAs.same.apply (View.read (Elt F) (Memref.whole main_arg1 : Memref sig .tc .hbm S4x256 .f32).view (m ((c : Thread nD τ).loc main_arg1)))) Finset.univ)
      (sent m (prv c)) fo (m ((c : Thread nD τ).loc main_v1))
      = outC m c := by
  rw [copied_x, copied_k, Final.final_eq]
  unfold outC
  rw [halo_of_hasL m c hL]

/-- The halo buffer read back whole after the zero rows were stored whole in it: a read of the zero rows. -/
theorem halo_cov :
    (hM : Memref sig .tc .vmem S4x3x256 .f32).view.readCov
        [(⟨Rect.unit (s := S4x3x256) ![0, 0, 0] S4x3x256.size inb_S4x3x256_S4x3x256_0_0_0, (k0_pay5 : FVec F S4x3x256 .f32)⟩ : View.Piece (Elt F) S4x3x256 .f32)]
        (Rect.unit (s := S4x3x256) ![0, 0, 0] S4x3x256.size inb_S4x3x256_S4x3x256_0_0_0).toLoadRect
      = View.readAt (Elt F) (Memref.whole cc0_scratch3 : Memref sig .tc .vmem S4x3x256 .f32).view
          (Rect.unit (s := S4x3x256) ![0, 0, 0] S4x3x256.size inb_S4x3x256_S4x3x256_0_0_0).toLoadRect (k0_pay5 : FVec F S4x3x256 .f32) := by
  rw [View.readCov_unit_zero _ hz3]
  exact (Memref.readAt_unit_zero (Elt F) cc0_scratch3 hz3 _ _).symm

/-- What the result array holds after the body on the first device. -/
theorem final_first (c : Dev nD) (h0 : c.val = 0)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ))) :
    Final.final
      (View.write (Elt F) (Memref.whole cc0_scratch0 : Memref sig .tc .vmem S4x512x256 .f32).view fx
        (ReadAs.same.apply (View.read (Elt F) (Memref.whole main_arg0 : Memref sig .tc .hbm S4x512x256 .f32).view (m ((c : Thread nD τ).loc main_arg0)))) Finset.univ)
      (View.write (Elt F) (Memref.whole cc0_scratch1 : Memref sig .tc .vmem S4x256 .f32).view fk
        (ReadAs.same.apply (View.read (Elt F) (Memref.whole main_arg1 : Memref sig .tc .hbm S4x256 .f32).view (m ((c : Thread nD τ).loc main_arg1)))) Finset.univ)
      (k0_pay5 : FVec F S4x3x256 .f32)
      fo (m ((c : Thread nD τ).loc main_v1))
      = outC m c := by
  rw [copied_x, copied_k, Final.final_eq]
  unfold outC
  rw [halo_first m c (not_not.mpr h0)]

/-- What a device's body leaves: the result block computed, the arguments as they were, the scratch at some contents, the
    kernel's seven own semaphores at zero, nothing owed. -/
def post (c : Dev nD) : sProp 𝕄 :=
  iprop(Φ₁ m c ∗ ∃ W', owes (c : Thread nD τ) 0 W')

open Lean Elab Tactic Meta in
/-- Unfold, in the goal, every auxiliary definition the stepping of the body introduced (their names have the component `sl`). -/
elab "unfold_run_names" : tactic => do
  let g ← getMainGoal
  let ty ← instantiateMVars (← g.getType)
  let ty' ← Meta.transform ty (pre := fun e => do
    match e.getAppFn with
    | .const n _ =>
      if n.components.contains `sl then
        match ← unfoldDefinition? e with
        | some e' => return .visit e'.headBeta
        | none => return .continue
      else return .continue
    | _ => return .continue)
  let g' ← g.replaceTargetDefEq ty'
  replaceMainGoal [g']

section Body

variable (K : Dev nD × Fin 3 → ℕ)

/-- The transfer of the send buffer into the right neighbour's halo buffer, addressed to `n = nxt c`: it pays the
    departure duty of `c`'s send cell with the send buffer and the arrival duty of `nxt c`'s receive cell with the halo
    buffer rewritten, and takes the receive cell's credit off what `c` owes. -/
theorem wp_send_line (c n : Dev nD) (hn : n = nxt c) (hR : c.val ≠ 7)
    {hsc : (hM : Memref sig (Dev.tc n : Thread nD τ).2.kind .vmem S4x3x256 .f32).view.ref.isScScratch = false}
    {hsrc : (sM : Memref sig .tc .vmem S4x3x256 .f32).view.WordExact} {hdst : (hM : Memref sig .tc .vmem S4x3x256 .f32).view.WordExact}
    {hsem : DmaTarget.Typed .vmem (.dma recvS.sem) (.remote (Dev.tc n : Thread nD τ) (hM : Memref sig .tc .vmem S4x3x256 .f32) (.dma sendS.sem) hsc)}
    {α : Type} {Q : α → sProp 𝕄} {k : PUnit → Prog (TpuEff nD τ sig (Elt F) Λ₀ .tc) α}
    (fn : Buf (Elt F) ((hM : Memref sig .tc .vmem S4x3x256 .f32).view.loc (nxt c : Thread nD τ))) (W : Waits sig Unit) :
    iprop(cellInv ER (lineRd m) (K (c, 1)) (sendCell c) ∗ cellInv ER (lineRd m) (K (nxt c, 2)) (recvCell (nxt c))
        ∗ ((sM : Memref sig .tc .vmem S4x3x256 .f32).view.loc (c : Thread nD τ) ↦[(sM : Memref sig .tc .vmem S4x3x256 .f32).view.set]{fullShare} sent m c)
        ∗ ((hM : Memref sig .tc .vmem S4x3x256 .f32).view.loc (nxt c : Thread nD τ) ↦[(hM : Memref sig .tc .vmem S4x3x256 .f32).view.set]{fullShare} fn)
        ∗ owes (c : Thread nD τ) (tallyAt (recvCell (nxt c)) () N) W
        ∗ dutyTok ER (sendCell c) 0 () ∗ reached ER (sendCell c) 0
        ∗ dutyTok ER (recvCell (nxt c)) 0 () ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) hM (.dma sendS.sem) hsc) (.dma recvS.sem) hsrc hdst hsem) k) Q) := by
  subst hn
  exact Rounds.wp_send_pointsTo 𝒱₀ ER (lineRd m) (c : Thread nD τ) none (κ₁ := K (c, 1)) (κ₂ := K (nxt c, 2))
    (r₁ := 0) (r₂ := 0) (d₁ := ()) (d₂ := ()) (fd := fn)
    (by rw [duties_send m c hR]; exact Finset.mem_singleton_self _) (by rw [duties_recv_nxt m c hR]; exact Finset.mem_singleton_self _)
    () () N rfl (amount_send m c ()) (amount_recv m (nxt c) ()) 0 (by rw [zero_add]) (W := W)
    (by rw [payload_send, s_set])
    (by rw [payload_recv_nxt, landed_eq, h_set])

set_option maxHeartbeats 4000000 in
theorem sound_mid (c : Dev nD) (hL : c.val ≠ 0) (hR : c.val ≠ 7) (W : Waits sig Unit)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ)))
    (fh : Buf (Elt F) ((hM : Memref sig .tc .vmem S4x3x256 .f32).view.loc (c : Thread nD τ)))
    (fs : Buf (Elt F) ((sM : Memref sig .tc .vmem S4x3x256 .f32).view.loc (c : Thread nD τ)))
    (Kt : PUnit → sProp 𝕄) :
    iprop(ghost m K c ∗ cred (tallyAt (barCell c) () 1) ∗ cred (tallyAt (recvCell c) () N) ∗ levAts L lv ∗ lsems0 c
        ∗ pt c aM (m ((c : Thread nD τ).loc main_arg0)) ∗ pt c bM (m ((c : Thread nD τ).loc main_arg1)) ∗ pt c rM (m ((c : Thread nD τ).loc main_v1))
        ∗ pt c xM fx ∗ pt c kM fk ∗ pt c oM fo ∗ pt c hM fh ∗ pt c sM fs
        ∗ owes (c : Thread nD τ) (tallyAt (recvCell (nxt c)) () N + tallyAt (barCell (prv c)) () 1) W
        ∗ (post m c -∗ Kt ⟨⟩))
      ⊢ wp frame (wpE (defs₀ (F := F)) 𝒱₀ c none) Set.univ (bodyAt0 (F := F) t0_0) Kt := by
  have h1 : k0_cond1 c = 1#1 := (cond1_iff c).mpr hL
  have h2 : k0_cond2 c = 1#1 := (cond2_iff c).mpr hR
  have hmw1 := mayWait_low (F := F) c (nxt c) (.dma ⟨0, by decide⟩) (by decide)
  have hmw2 := mayWait_low (F := F) c (nxt c) (.dma ⟨1, by decide⟩) (by decide)
  have hmwb := mayWait_low (F := F) c (nxt c) (.reg barS) (fun h => by cases h)
  unfold ghost invs
  unfold pt
  iintro ⟨⟨⟨#HIbar, #HIsnd, #HIrcv, #HIrcvN, #HIbarP⟩, HatB, HatS, HatV, #HrBP, #HrVN, #HrS, #HrV, HtBP, HtVN, HtS⟩, HcB, HcV, #Hlev, ⟨Hd0, Hd1, Hd2, Hd3, Hd4⟩,
    Ha, Hb, Hr, Hx, Hk, Ho, Hh, Hs, HO, HK⟩
  unfold bodyAt0
  -- to the transfer: the signal to the left, the two loads, the send buffer, the first half and its store, the barrier wait
  set_option sl_exec.dmaWindow true in sl_exec
  -- the transfer, by its rule: the send buffer restated at its contents
  unfold_run_names
  ihave Hs' := (Entails.of_eq (sent_pts_eq m c fx fs)) $$ Hs
  ihave Hn' := (Entails.of_eq (halo_pts_eq (nxt c) HatB_pay1_v)) $$ HatB_pay1
  iapply (wp_send_line m K c _ (dev2_eq c h2) hR HatB_pay1_v _) $$ [Hs' Hn' HO HtS HtVN]
  · isplitr; · iexact HIsnd
    isplitr; · iexact HIrcvN
    isplitl [Hs']; · iexact Hs'
    isplitl [Hn']; · iexact Hn'
    isplitl [HO]; · iexact HO
    isplitl [HtS]; · iexact HtS
    isplitr; · iexact HrS
    isplitl [HtVN]; · iexact HtVN
    iexact HrVN
  iintro ⟨HcS, HO⟩
  have hF : ¬ (Scalar.cmpi .ne (Scalar.extui (Scalar.cmpi .eq (Scalar.remsi (Scalar.divsi (Dev.word c) 1#32) 8#32) 0#32)) 0#32 = 1#1) := (isFirst_iff c).not.mpr hL
  have hNF := (notFirst_iff c).mpr hL
  have hNL := (notLast_iff c).mpr hR
  set_option sl_exec.dmaWindow true in sl_exec (disch := first | sl_exact hF | sl_exact hNF | sl_exact hNL)
  -- the two own cells close: their counters at zero are the core's again
  imod (Rounds.cell_close ER (lineRd m) (Set.mem_univ (K (c, 1))) (fun h => h) (R := 0 + 1) (duties_later m (sendCell c))) $$ [HatS] with HzS
  · isplitr; · iexact HIsnd
    iexact HatS
  imod (Rounds.cell_close ER (lineRd m) (Set.mem_univ (K (c, 2))) (fun h => h) (R := 0 + 1) (duties_later m (recvCell c))) $$ [HatV] with HzV
  · isplitr; · iexact HIrcv
    iexact HatV
  unfold_run_names
  ihave Hr' := (Entails.of_eq (congrArg (fun f => ((rM : Memref sig .tc .hbm S4x512x256 .bf16).view.loc (c : Thread nD τ) ↦{fullShare} f : sProp 𝕄))
    (final_hasL m c hL fx fk fo))) $$ Hr
  rw [wp_ret]; imodintro
  iapply HK
  unfold post Φ₁ scratch pt
  isplitl [Ha Hb Hr' Hx Hk Ho HatV_pay1 HatS_pay1 Hd0 Hd1 Hd2 Hd3 Hd4 HzS HzV]
  · isplitl [Ha Hb Hr']
    · isplitl [Ha]; · iexact Ha
      isplitl [Hb]; · iexact Hb
      iexact Hr'
    isplitl [Hx Hk Ho HatV_pay1 HatS_pay1]
    · isplitl [Hx]; · iexists _; iexact Hx
      isplitl [Hk]; · iexists _; iexact Hk
      isplitl [Ho]; · iexists _; iexact Ho
      isplitl [HatV_pay1]; · iexists _; iexact HatV_pay1
      iexists _; iexact HatS_pay1
    isplitl [Hd0 Hd1 Hd2 Hd3 Hd4]
    · isplitl [Hd0]; · iexact Hd0
      isplitl [Hd1]; · iexact Hd1
      isplitl [Hd2]; · iexact Hd2
      isplitl [Hd3]; · iexact Hd3
      iexact Hd4
    isplitl [HzS]; · iexact HzS
    iexact HzV
  iexists _; iexact HO

set_option maxHeartbeats 4000000 in
theorem sound_first (c : Dev nD) (h0 : c.val = 0) (W : Waits sig Unit)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ)))
    (fh : Buf (Elt F) ((hM : Memref sig .tc .vmem S4x3x256 .f32).view.loc (c : Thread nD τ)))
    (fs : Buf (Elt F) ((sM : Memref sig .tc .vmem S4x3x256 .f32).view.loc (c : Thread nD τ)))
    (Kt : PUnit → sProp 𝕄) :
    iprop(ghost m K c ∗ cred (tallyAt (barCell c) () 1) ∗ levAts L lv ∗ lsems0 c
        ∗ pt c aM (m ((c : Thread nD τ).loc main_arg0)) ∗ pt c bM (m ((c : Thread nD τ).loc main_arg1)) ∗ pt c rM (m ((c : Thread nD τ).loc main_v1))
        ∗ pt c xM fx ∗ pt c kM fk ∗ pt c oM fo ∗ pt c hM fh ∗ pt c sM fs
        ∗ owes (c : Thread nD τ) (tallyAt (recvCell (nxt c)) () N) W
        ∗ (post m c -∗ Kt ⟨⟩))
      ⊢ wp frame (wpE (defs₀ (F := F)) 𝒱₀ c none) Set.univ (bodyAt0 (F := F) t0_0) Kt := by
  have hR : c.val ≠ 7 := by omega
  have h1 : ¬ k0_cond1 c = 1#1 := fun h => (cond1_iff c).mp h h0
  have h2 : k0_cond2 c = 1#1 := (cond2_iff c).mpr hR
  have hmw1 := mayWait_low (F := F) c (nxt c) (.dma ⟨0, by decide⟩) (by decide)
  have hmw2 := mayWait_low (F := F) c (nxt c) (.dma ⟨1, by decide⟩) (by decide)
  have hmwb := mayWait_low (F := F) c (nxt c) (.reg barS) (fun h => by cases h)
  unfold ghost invs
  unfold pt
  iintro ⟨⟨⟨#HIbar, #HIsnd, #HIrcv, #HIrcvN, #HIbarP⟩, HatB, HatS, HatV, #HrBP, #HrVN, #HrS, #HrV, HtBP, HtVN, HtS⟩, HcB, #Hlev, ⟨Hd0, Hd1, Hd2, Hd3, Hd4⟩,
    Ha, Hb, Hr, Hx, Hk, Ho, Hh, Hs, HO, HK⟩
  unfold bodyAt0
  -- to the transfer: the signal to the left, the two loads, the send buffer, the first half and its store, the barrier wait
  set_option sl_exec.dmaWindow true in sl_exec
  -- the transfer, by its rule: the send buffer restated at its contents
  unfold_run_names
  ihave Hs' := (Entails.of_eq (sent_pts_eq m c fx fs)) $$ Hs
  ihave Hn' := (Entails.of_eq (halo_pts_eq (nxt c) HatB_pay1_v)) $$ HatB_pay1
  iapply (wp_send_line m K c _ (dev2_eq c h2) hR HatB_pay1_v _) $$ [Hs' Hn' HO HtS HtVN]
  · isplitr; · iexact HIsnd
    isplitr; · iexact HIrcvN
    isplitl [Hs']; · iexact Hs'
    isplitl [Hn']; · iexact Hn'
    isplitl [HO]; · iexact HO
    isplitl [HtS]; · iexact HtS
    isplitr; · iexact HrS
    isplitl [HtVN]; · iexact HtVN
    iexact HrVN
  iintro ⟨HcS, HO⟩
  have hF := (isFirst_iff c).mpr h0
  have hNF : ¬ (Scalar.cmpi .ne (Scalar.extui (Scalar.xori (Scalar.cmpi .eq (Scalar.remsi (Scalar.divsi (Dev.word c) 1#32) 8#32) 0#32) 1#1)) 0#32 = 1#1) := (notFirst_iff c).not.mpr (not_not.mpr h0)
  have hNL := (notLast_iff c).mpr hR
  set_option sl_exec.dmaWindow true in sl_exec (disch := first | sl_exact hF | sl_exact hNF | sl_exact hNL)
  -- the two own cells close: their counters at zero are the core's again
  imod (Rounds.cell_close ER (lineRd m) (Set.mem_univ (K (c, 1))) (fun h => h) (R := 0 + 1) (duties_later m (sendCell c))) $$ [HatS] with HzS
  · isplitr; · iexact HIsnd
    iexact HatS
  imod (Rounds.cell_close ER (lineRd m) (Set.mem_univ (K (c, 2))) (fun h => h) (R := 0) (duties_recv_none m c h0)) $$ [HatV] with HzV
  · isplitr; · iexact HIrcv
    iexact HatV
  unfold_run_names
  rw [halo_cov (F := F)]
  ihave Hr' := (Entails.of_eq (congrArg (fun f => ((rM : Memref sig .tc .hbm S4x512x256 .bf16).view.loc (c : Thread nD τ) ↦{fullShare} f : sProp 𝕄))
    (final_first m c h0 fx fk fo))) $$ Hr
  rw [wp_ret]; imodintro
  iapply HK
  unfold post Φ₁ scratch pt
  isplitl [Ha Hb Hr' Hx Hk Ho Hh HatS_pay1 Hd0 Hd1 Hd2 Hd3 Hd4 HzS HzV]
  · isplitl [Ha Hb Hr']
    · isplitl [Ha]; · iexact Ha
      isplitl [Hb]; · iexact Hb
      iexact Hr'
    isplitl [Hx Hk Ho Hh HatS_pay1]
    · isplitl [Hx]; · iexists _; iexact Hx
      isplitl [Hk]; · iexists _; iexact Hk
      isplitl [Ho]; · iexists _; iexact Ho
      isplitl [Hh]; · iexists _; iexact Hh
      iexists _; iexact HatS_pay1
    isplitl [Hd0 Hd1 Hd2 Hd3 Hd4]
    · isplitl [Hd0]; · iexact Hd0
      isplitl [Hd1]; · iexact Hd1
      isplitl [Hd2]; · iexact Hd2
      isplitl [Hd3]; · iexact Hd3
      iexact Hd4
    isplitl [HzS]; · iexact HzS
    iexact HzV
  iexists _; iexact HO

set_option maxHeartbeats 4000000 in
theorem sound_last (c : Dev nD) (h7 : c.val = 7) (W : Waits sig Unit)
    (fx : Buf (Elt F) ((xM : Memref sig .tc .vmem S4x512x256 .f32).view.loc (c : Thread nD τ)))
    (fk : Buf (Elt F) ((kM : Memref sig .tc .vmem S4x256 .f32).view.loc (c : Thread nD τ)))
    (fo : Buf (Elt F) ((oM : Memref sig .tc .vmem S4x512x256 .bf16).view.loc (c : Thread nD τ)))
    (fh : Buf (Elt F) ((hM : Memref sig .tc .vmem S4x3x256 .f32).view.loc (c : Thread nD τ)))
    (fs : Buf (Elt F) ((sM : Memref sig .tc .vmem S4x3x256 .f32).view.loc (c : Thread nD τ)))
    (Kt : PUnit → sProp 𝕄) :
    iprop(ghost m K c ∗ cred (tallyAt (recvCell c) () N) ∗ levAts L lv ∗ lsems0 c
        ∗ pt c aM (m ((c : Thread nD τ).loc main_arg0)) ∗ pt c bM (m ((c : Thread nD τ).loc main_arg1)) ∗ pt c rM (m ((c : Thread nD τ).loc main_v1))
        ∗ pt c xM fx ∗ pt c kM fk ∗ pt c oM fo ∗ pt c hM fh ∗ pt c sM fs
        ∗ owes (c : Thread nD τ) (tallyAt (barCell (prv c)) () 1) W
        ∗ (post m c -∗ Kt ⟨⟩))
      ⊢ wp frame (wpE (defs₀ (F := F)) 𝒱₀ c none) Set.univ (bodyAt0 (F := F) t0_0) Kt := by
  have hL : c.val ≠ 0 := by omega
  have h1 : k0_cond1 c = 1#1 := (cond1_iff c).mpr hL
  have h2 : ¬ k0_cond2 c = 1#1 := fun h => (cond2_iff c).mp h h7
  have hmw1 := mayWait_low (F := F) c (nxt c) (.dma ⟨0, by decide⟩) (by decide)
  have hmw2 := mayWait_low (F := F) c (nxt c) (.dma ⟨1, by decide⟩) (by decide)
  have hmwb := mayWait_low (F := F) c (nxt c) (.reg barS) (fun h => by cases h)
  unfold ghost invs
  unfold pt
  iintro ⟨⟨⟨#HIbar, #HIsnd, #HIrcv, #HIrcvN, #HIbarP⟩, HatB, HatS, HatV, #HrBP, #HrVN, #HrS, #HrV, HtBP, HtVN, HtS⟩, HcV, #Hlev, ⟨Hd0, Hd1, Hd2, Hd3, Hd4⟩,
    Ha, Hb, Hr, Hx, Hk, Ho, Hh, Hs, HO, HK⟩
  unfold bodyAt0
  have hF : ¬ (Scalar.cmpi .ne (Scalar.extui (Scalar.cmpi .eq (Scalar.remsi (Scalar.divsi (Dev.word c) 1#32) 8#32) 0#32)) 0#32 = 1#1) := (isFirst_iff c).not.mpr hL
  have hNF := (notFirst_iff c).mpr hL
  have hNL : ¬ (Scalar.cmpi .ne (Scalar.extui (Scalar.xori (Scalar.cmpi .eq (Scalar.remsi (Scalar.divsi (Dev.word c) 1#32) 8#32) 7#32) 1#1)) 0#32 = 1#1) := (notLast_iff c).not.mpr (not_not.mpr h7)
  set_option sl_exec.dmaWindow true in sl_exec (disch := first | sl_exact hF | sl_exact hNF | sl_exact hNL)
  -- the two own cells close: their counters at zero are the core's again
  imod (Rounds.cell_close ER (lineRd m) (Set.mem_univ (K (c, 1))) (fun h => h) (R := 0) (duties_send_none m c h7)) $$ [HatS] with HzS
  · isplitr; · iexact HIsnd
    iexact HatS
  imod (Rounds.cell_close ER (lineRd m) (Set.mem_univ (K (c, 2))) (fun h => h) (R := 0 + 1) (duties_later m (recvCell c))) $$ [HatV] with HzV
  · isplitr; · iexact HIrcv
    iexact HatV
  unfold_run_names
  ihave Hr' := (Entails.of_eq (congrArg (fun f => ((rM : Memref sig .tc .hbm S4x512x256 .bf16).view.loc (c : Thread nD τ) ↦{fullShare} f : sProp 𝕄))
    (final_hasL m c hL fx fk fo))) $$ Hr
  rw [wp_ret]; imodintro
  iapply HK
  unfold post Φ₁ scratch pt
  isplitl [Ha Hb Hr' Hx Hk Ho HatV_pay1 Hs Hd0 Hd1 Hd2 Hd3 Hd4 HzS HzV]
  · isplitl [Ha Hb Hr']
    · isplitl [Ha]; · iexact Ha
      isplitl [Hb]; · iexact Hb
      iexact Hr'
    isplitl [Hx Hk Ho HatV_pay1 Hs]
    · isplitl [Hx]; · iexists _; iexact Hx
      isplitl [Hk]; · iexists _; iexact Hk
      isplitl [Ho]; · iexists _; iexact Ho
      isplitl [HatV_pay1]; · iexists _; iexact HatV_pay1
      iexists _; iexact Hs
    isplitl [Hd0 Hd1 Hd2 Hd3 Hd4]
    · isplitl [Hd0]; · iexact Hd0
      isplitl [Hd1]; · iexact Hd1
      isplitl [Hd2]; · iexact Hd2
      isplitl [Hd3]; · iexact Hd3
      iexact Hd4
    isplitl [HzS]; · iexact HzS
    iexact HzV
  iexists _; iexact HO

end Body

/-- The library's body obligation on device `c`: the launch's holdings sorted into the three places a device can have on
    the line, the body run, its post handed back. -/
theorem body_obligation (c : Dev nD) : BodyObligation (dats (F := F) m 0 c) (defs₀ (F := F)) 𝒱₀ () Set.univ := fun t => by
  rw [fin_N0 t]
  rw [show (dats (F := F) m 0 c).Φ t0_0.castSucc = Φ₀ m c from rfl, show (dats (F := F) m 0 c).Φ t0_0.succ = Φ₁ m c from rfl]
  unfold Dat.owesAt Pipeline.owesWithin
  rw [show (dats (F := F) m 0 c).owed t0_0.castSucc = O₀ c from rfl, show (dats (F := F) m 0 c).owed t0_0.succ = 0 from rfl]
  unfold Φ₀ start scratch creds O₀
  by_cases h0 : c.val = 0
  · have hR : c.val ≠ 7 := by omega
    rw [if_pos hR, if_pos hR, if_neg (not_not.mpr h0), if_neg (not_not.mpr h0), add_zero]
    iintro ⟨⟨⟨⟨%K, Hg⟩, ⟨HcB, -⟩, Hlev, Hls, Ha, Hb, Hr⟩, ⟨%fx, Hx⟩, ⟨%fk, Hk⟩, ⟨%fo, Ho⟩, ⟨%fh, Hh⟩, ⟨%fs, Hs⟩⟩, ⟨%W, %hW, HO⟩, -⟩
    iapply (sound_first m K c h0 W fx fk fo fh fs _)
    isplitl [Hg]; · iexact Hg
    isplitl [HcB]; · iexact HcB
    isplitl [Hlev]; · iexact Hlev
    isplitl [Hls]; · iexact Hls
    isplitl [Ha]; · iexact Ha
    isplitl [Hb]; · iexact Hb
    isplitl [Hr]; · iexact Hr
    isplitl [Hx]; · iexact Hx
    isplitl [Hk]; · iexact Hk
    isplitl [Ho]; · iexact Ho
    isplitl [Hh]; · iexact Hh
    isplitl [Hs]; · iexact Hs
    isplitl [HO]; · iexact HO
    iintro Hp
    unfold post
    icases Hp with ⟨HΦ1, ⟨%W', HO'⟩⟩
    isplitl [HΦ1]; · iexact HΦ1
    isplitl [HO']
    · iexists W'
      isplitr; · ipureintro; exact fun _ _ => Or.inl trivial
      iexact HO'
    rw [Finset.univ_eq_empty, BI.bigSep_empty]
    iempintro
  by_cases h7 : c.val = 7
  · rw [if_neg (not_not.mpr h7), if_neg (not_not.mpr h7), if_pos h0, if_pos h0, zero_add]
    iintro ⟨⟨⟨⟨%K, Hg⟩, ⟨-, HcV⟩, Hlev, Hls, Ha, Hb, Hr⟩, ⟨%fx, Hx⟩, ⟨%fk, Hk⟩, ⟨%fo, Ho⟩, ⟨%fh, Hh⟩, ⟨%fs, Hs⟩⟩, ⟨%W, %hW, HO⟩, -⟩
    iapply (sound_last m K c h7 W fx fk fo fh fs _)
    isplitl [Hg]; · iexact Hg
    isplitl [HcV]; · iexact HcV
    isplitl [Hlev]; · iexact Hlev
    isplitl [Hls]; · iexact Hls
    isplitl [Ha]; · iexact Ha
    isplitl [Hb]; · iexact Hb
    isplitl [Hr]; · iexact Hr
    isplitl [Hx]; · iexact Hx
    isplitl [Hk]; · iexact Hk
    isplitl [Ho]; · iexact Ho
    isplitl [Hh]; · iexact Hh
    isplitl [Hs]; · iexact Hs
    isplitl [HO]; · iexact HO
    iintro Hp
    unfold post
    icases Hp with ⟨HΦ1, ⟨%W', HO'⟩⟩
    isplitl [HΦ1]; · iexact HΦ1
    isplitl [HO']
    · iexists W'
      isplitr; · ipureintro; exact fun _ _ => Or.inl trivial
      iexact HO'
    rw [Finset.univ_eq_empty, BI.bigSep_empty]
    iempintro
  · rw [if_pos h7, if_pos h7, if_pos h0, if_pos h0]
    iintro ⟨⟨⟨⟨%K, Hg⟩, ⟨HcB, HcV⟩, Hlev, Hls, Ha, Hb, Hr⟩, ⟨%fx, Hx⟩, ⟨%fk, Hk⟩, ⟨%fo, Ho⟩, ⟨%fh, Hh⟩, ⟨%fs, Hs⟩⟩, ⟨%W, %hW, HO⟩, -⟩
    iapply (sound_mid m K c h0 h7 W fx fk fo fh fs _)
    isplitl [Hg]; · iexact Hg
    isplitl [HcB]; · iexact HcB
    isplitl [HcV]; · iexact HcV
    isplitl [Hlev]; · iexact Hlev
    isplitl [Hls]; · iexact Hls
    isplitl [Ha]; · iexact Ha
    isplitl [Hb]; · iexact Hb
    isplitl [Hr]; · iexact Hr
    isplitl [Hx]; · iexact Hx
    isplitl [Hk]; · iexact Hk
    isplitl [Ho]; · iexact Ho
    isplitl [Hh]; · iexact Hh
    isplitl [Hs]; · iexact Hs
    isplitl [HO]; · iexact HO
    iintro Hp
    unfold post
    icases Hp with ⟨HΦ1, ⟨%W', HO'⟩⟩
    isplitl [HΦ1]; · iexact HΦ1
    isplitl [HO']
    · iexists W'
      isplitr; · ipureintro; exact fun _ _ => Or.inl trivial
      iexact HO'
    rw [Finset.univ_eq_empty, BI.bigSep_empty]
    iempintro

/-- info: 'Cert.KernelProof.body_obligation' depends on axioms: [propext, Classical.choice, Quot.sound] -/
#guard_msgs in #print axioms body_obligation

end Cert.KernelProof
end
-- ==== Proof.Bits.LaunchK.lean ====
/-
  The launch of the eight devices' kernels: from a memory with every counter at zero to each device's body started from
  its share of the protocol's ghost state, and from each body's end to the final memory read off.

  The launch element is split between the pipeline library's copy of the rounds algebra and the protocol's. The
  protocol's half funds, per device, the round state of its three cells (barrier, send, receive), its positions, that
  round 0 is reached, and one token per cell. Every device's seven own semaphores and its barrier semaphore arrive at
  zero at once: the barrier, send and receive counters go into the three cells' invariants, the five local copy
  counters stay with the device. The tokens are then dealt along the line: a barrier cell's token to the device on its
  right (which signals it), a receive cell's token to the device on its left (whose transfer pays it), the send cell's
  token stays. The launch credit is what the neighbours owe: one unit on the barrier cell of a device with a right
  neighbour, the halo's credit on the receive cell of a device with a left neighbour.
-/
import proofs.«900435_g7700000000000436_dist_gconv1d_seqshard_i_b4_s512_c256_v7x_i8_bf16_1_alg».proof.Proof.Bits.Proto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element and what it funds -/

theorem ownSemFacts : Pipeline.OwnSemFacts cfg0.spec osem := by decide

theorem share_eq (c : Dev nD) (w : Fin cfg0.W) : (dats m 0 c).share w = fullShare := w.elim0

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The protocol's cells: three a device. -/
def lineCells : Finset (GSem nD τ sig) := Finset.univ.map ⟨kcell, kcell_injective⟩

/-- One token a cell: round 0's one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def lineToks : Finset (GSem nD τ sig × ℕ × Unit) := Finset.univ.map ⟨tokOf, tokOf_injective⟩

def u₀ : UU :=
  (initOf (Pipeline.cells cfgs cellOf_inj) (Pipeline.launchToks cfgs cellOf_inj), (initOf lineCells lineToks, 1))

omit [FloatOps F] in
/-- The launch element, owned, is its two halves owned through their embeddings. -/
theorem ownU_split (a : UR sig nD τ) (b : UX) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`: its three cells' round states, its positions with round 0 reached, its
    cells' tokens. -/
def G (c : Dev nD) : sProp 𝕄 :=
  iprop((bigSep Finset.univ fun k : Fin 3 => roundState ER (lineRd m) (kcell (c, k)) 0)
    ∗ (bigSep Finset.univ fun k : Fin 3 => iprop(atPos ER (kcell (c, k)) 0 ∅ 0 ∗ reached ER (kcell (c, k)) 0)) ∗ toks c)

/-- What the global step makes of it: the protocol's ghost state as the body wants it, and the five local copy
    counters at zero. -/
def G' (c : Dev nD) : sProp 𝕄 := iprop((∃ K, ghost m K c) ∗ lsems0 c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_line : BI.own (ER (initOf lineCells lineToks)) ⊢ (|==> bigSep Finset.univ (G m) : sProp 𝕄) := by
  have hX (Φ : GSem nD τ sig → sProp 𝕄) : bigSep lineCells Φ = bigSep Finset.univ fun c : Dev nD => bigSep Finset.univ fun k : Fin 3 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin3]; rfl
  iintro HX
  imod (Rounds.fund ER (lineRd m) lineCells lineToks) $$ HX with ⟨Hst, Hr, Hat, Htok⟩
  imodintro
  ihave Hst' := (Entails.of_eq (hX fun g => roundState ER (lineRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the cells' invariants allocated, the tokens dealt along the line -/

omit [FloatOps F] in
/-- The kernel's own seven semaphores: the five local copy cells, the send cell, the receive cell; -/
theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0
        ∗ semVal ((c : Thread nD τ), osem 3) 0 ∗ semVal ((c : Thread nD τ), osem 4) 0 ∗ semVal (sendCell c) 0 ∗ semVal (recvCell c) 0) := by
  rw [Pipeline.ownSems0_eq_of_list c osem [0, 1, 2, 3, 4, 5, 6] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The five local copy counters of device `c` at zero (kept closed while the sums over devices are regrouped). -/
def locals0 (c : Dev nD) : sProp 𝕄 := lsems0 c

omit [FloatOps F] in
/-- The three protocol counters at zero, and the five local ones beside them. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 3 => semVal (kcell (c, k)) 0) ∗ locals0 c : sProp 𝕄) := by
  unfold locals0
  rw [ownSems0_eq, unscopedSems0_eq, bigSep_fin3]
  iintro ⟨⟨H0, H1, H2, H3, H4, HS, HV⟩, HB⟩
  isplitl [HB HS HV]
  · isplitl [HB]; · iexact HB
    isplitl [HS] <;> iassumption
  isplitl [H0]; · iexact H0
  isplitl [H1]; · iexact H1
  isplitl [H2]; · iexact H2
  isplitl [H3]; · iexact H3
  iexact H4

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (lineRd m) κ (kcell (c, k))))
          ∗ (bigSep Finset.univ fun k => iprop(atPos ER (kcell (c, k)) 0 ∅ 0 ∗ reached ER (kcell (c, k)) 0)) ∗ toks c ∗ locals0 c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : Fin 3 => semVal (kcell (c, k)) 0) ∗ bigSep Finset.univ fun k : Fin 3 => roundState ER (lineRd m) (kcell (c, k)) 0)
      ⊢ (|={Set.univ}=> bigSep Finset.univ fun k => iprop(∃ κ : ℕ, cellInv ER (lineRd m) κ (kcell (c, k))) : sProp 𝕄) from by
        rw [← bigSep_sep']
        exact (bigSep_mono fun k _ => (Rounds.body_intro ER (lineRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The persistent records every device reads from: every cell's invariant at its name, round 0 of every cell reached. -/
def records (K : Dev nD × Fin 3 → ℕ) : sProp 𝕄 :=
  iprop((bigSep Finset.univ fun ck : Dev nD × Fin 3 => cellInv ER (lineRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (lineRd m) (K ck) (kcell ck) : sProp 𝕄)) ⊢ cellInv ER (lineRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ iprop(∃ K, ghost m K c) := by
  unfold records linear payToks ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (nxt c, 2)); iexact HI
    iapply (inv_at m K (prv c, 0)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtB]; · iexact HtB
  isplitl [HtV]; · iexact HtV
  iexact HtS

omit [FloatOps F] in
/-- The tokens dealt along the line: a barrier cell's token one device up (to the device that signals it), a receive
    cell's token one device down (to the device whose transfer pays it); the send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv line.symm (fun c : Dev nD => (dutyTok ER (barCell c) 0 () : sProp 𝕄)),
    bigSep_univ_equiv line (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (lineRd m) κ (kcell (c, k))))
          ∗ (bigSep Finset.univ fun k => iprop(atPos ER (kcell (c, k)) 0 ∅ 0 ∗ reached ER (kcell (c, k)) 0)) ∗ toks c ∗ locals0 c) : sProp 𝕄)
      ⊢ bigSep Finset.univ (G' m) := by
  rw [bigSep_sep', bigSep_sep', bigSep_sep', ← bigSep_univ_prod (fun ck : Dev nD × Fin 3 => iprop(∃ κ : ℕ, cellInv ER (lineRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hl⟩
  ihave HK := (BI.bigSep_exists_pi Finset.univ (fun (ck : Dev nD × Fin 3) (κ : ℕ) => (cellInv ER (lineRd m) κ (kcell ck) : sProp 𝕄))) $$ HI
  icases HK with ⟨%K, #HI⟩
  ihave Htk := (toks_around (F := F)) $$ Htok
  iapply (bigSep_with_persistent (R := records m K) (Φ := fun c => iprop(linear c ∗ locals0 c)) fun c _ => by
    unfold G' locals0
    iintro ⟨#HR, Hlin, Hl⟩
    isplitl [Hlin]
    · iapply (ghost_intro m K c); isplitr; · iexact HR
      iexact Hlin
    · iexact Hl)
  isplitr
  · unfold records; isplitl; · iexact HI
    iexact HR
  · rw [bigSep_sep']
    isplitl [Hat Htk]
    · iapply ((Entails.of_eq (bigSep_sep' Finset.univ (fun c : Dev nD => bigSep Finset.univ fun k : Fin 3 => (atPos ER (kcell (c, k)) 0 ∅ 0 : sProp 𝕄)) payToks).symm).trans
        (bigSep_mono fun c _ => show _ ⊢ linear c from Entails.of_eq (by unfold linear; rw [bigSep_fin3])))
      isplitl [Hat]; · iexact Hat
      iexact Htk
    · iexact Hl

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
theorem nxt_val_ne_zero_iff (c : Dev nD) : (nxt c).val ≠ 0 ↔ c.val ≠ 7 := by revert c; decide
omit [FloatOps F] in
theorem prv_val_ne_seven_iff (c : Dev nD) : (prv c).val ≠ 7 ↔ c.val ≠ 0 := by revert c; decide

omit [FloatOps F] in
/-- What device `d` owes device `c`'s barrier cell: one unit if it is `c`'s right neighbour. -/
theorem owed_bar (d c : Dev nD) : O₀ d (barCell c) () = if d = nxt c then (if c.val ≠ 7 then 1 else 0) else 0 := by
  unfold O₀
  rw [Pi.add_apply, Finsupp.add_apply]
  have h1 : (if d.val ≠ 7 then tallyAt (recvCell (nxt d)) () N else (0 : CellTallies nD τ sig Unit)) (barCell c) () = 0 := by
    split
    · rw [tallyAt_ne_cell (fun h => recv_ne_bar (congrArg Prod.snd h).symm)]; rfl
    · rfl
  rw [h1, Nat.zero_add]
  by_cases h : d = nxt c
  · subst h; rw [if_pos rfl, prv_nxt]
    by_cases h7 : c.val ≠ 7
    · rw [if_pos ((nxt_val_ne_zero_iff c).mpr h7), if_pos h7, tallyAt_self]
    · rw [if_neg (fun h0 => h7 ((nxt_val_ne_zero_iff c).mp h0)), if_neg h7]; rfl
  · rw [if_neg h]
    split
    · rw [tallyAt_apply, if_neg (fun ⟨h1, _⟩ => h (by rw [← nxt_prv d]; exact congrArg nxt (bar_eq_iff.mp h1).symm))]
    · rfl

omit [FloatOps F] in
/-- What device `d` owes device `c`'s receive cell: the halo's credit if it is `c`'s left neighbour. -/
theorem owed_recv (d c : Dev nD) : O₀ d (recvCell c) () = if d = prv c then (if c.val ≠ 0 then N else 0) else 0 := by
  unfold O₀
  rw [Pi.add_apply, Finsupp.add_apply]
  have h2 : (if d.val ≠ 0 then tallyAt (barCell (prv d)) () 1 else (0 : CellTallies nD τ sig Unit)) (recvCell c) () = 0 := by
    split
    · rw [tallyAt_ne_cell (fun h => recv_ne_bar (congrArg Prod.snd h))]; rfl
    · rfl
  rw [h2, Nat.add_zero]
  by_cases h : d = prv c
  · subst h; rw [if_pos rfl, nxt_prv]
    by_cases h0 : c.val ≠ 0
    · rw [if_pos ((prv_val_ne_seven_iff c).mpr h0), if_pos h0, tallyAt_self]
    · rw [if_neg (fun h7 => h0 ((prv_val_ne_seven_iff c).mp h7)), if_neg h0]; rfl
  · rw [if_neg h]
    split
    · rw [tallyAt_apply, if_neg (fun ⟨h1, _⟩ => h (by rw [← prv_nxt d]; exact congrArg prv (recv_eq_iff.mp h1).symm))]
    · rfl

omit [FloatOps F] in
theorem launch_bar (c : Dev nD) :
    tallyOn (barCell c) (launchCredit (Pipeline.owing O₀) 0 (barCell c)) = (if c.val ≠ 7 then tallyAt (barCell c) () 1 else 0 : CellTallies nD τ sig Unit) := by
  have hs : launchCredit (Pipeline.owing O₀) 0 (barCell c) = Finsupp.single () (if c.val ≠ 7 then 1 else 0) := Finsupp.ext fun u => by
    cases u
    rw [Pipeline.launchCredit_owing, Finsupp.single_eq_same, Finset.sum_congr rfl fun d _ => owed_bar d c,
      Finset.sum_ite_eq' Finset.univ (nxt c), if_pos (Finset.mem_univ _)]
  rw [hs]
  split
  · rfl
  · rw [Finsupp.single_zero, tallyOn_zero]

omit [FloatOps F] in
theorem launch_recv (c : Dev nD) :
    tallyOn (recvCell c) (launchCredit (Pipeline.owing O₀) 0 (recvCell c)) = (if c.val ≠ 0 then tallyAt (recvCell c) () N else 0 : CellTallies nD τ sig Unit) := by
  have hs : launchCredit (Pipeline.owing O₀) 0 (recvCell c) = Finsupp.single () (if c.val ≠ 0 then N else 0) := Finsupp.ext fun u => by
    cases u
    rw [Pipeline.launchCredit_owing, Finsupp.single_eq_same, Finset.sum_congr rfl fun d _ => owed_recv d c,
      Finset.sum_ite_eq' Finset.univ (prv c), if_pos (Finset.mem_univ _)]
  rw [hs]
  split
  · rfl
  · rw [Finsupp.single_zero, tallyOn_zero]

omit [FloatOps F] in
/-- The launch credit of device `c` holds the two tokens its body waits with. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

/-- What a device holds of the arrays after its body: the arguments as launched, the result block computed. -/
def Y (c : Dev nD) : sProp 𝕄 :=
  iprop(pt c aM (m ((c : Thread nD τ).loc main_arg0)) ∗ pt c bM (m ((c : Thread nD τ).loc main_arg1)) ∗ pt c rM (outC m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start
  iintro ⟨⟨Ha, Hb, Hr⟩, Hlev, Hcr, -, HG, Hl⟩
  ihave Hc := (creds_intro (F := F) c) $$ Hcr
  imodintro
  isplitl
  · isplitl [HG]; · iexact HG
    isplitl [Hc]; · iexact Hc
    isplitl [Hlev]; · iexact Hlev
    isplitl [Hl]; · iexact Hl
    isplitl [Ha]; · iexact Ha
    isplitl [Hb]; · iexact Hb
    iexact Hr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩, ⟨%f3, H3⟩, ⟨%f4, H4⟩⟩
  isplitl [Hs]; · iexact Hs
  isplitl [H0]; · iexists f0; iexact H0
  isplitl [H1]; · iexists f1; iexact H1
  isplitl [H2]; · iexists f2; iexact H2
  isplitl [H3]; · iexists f3; iexact H3
  iexists f4; iexact H4

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y scratch
  iintro ⟨HY, ⟨⟨%f0, H0⟩, ⟨%f1, H1⟩, ⟨%f2, H2⟩, ⟨%f3, H3⟩, ⟨%f4, H4⟩⟩, ⟨L0, L1, L2, L3, L4⟩, HS, HV⟩
  isplitl [HY]; · iexact HY
  isplitl [L0 L1 L2 L3 L4 HS HV]
  · isplitl [L0]; · iexact L0
    isplitl [L1]; · iexact L1
    isplitl [L2]; · iexact L2
    isplitl [L3]; · iexact L3
    isplitl [L4]; · iexact L4
    isplitl [HS] <;> iassumption
  isplitl [H0]; · iexists f0; iexact H0
  isplitl [H1]; · iexists f1; iexact H1
  isplitl [H2]; · iexists f2; iexact H2
  isplitl [H3]; · iexists f3; iexact H3
  iexists f4; iexact H4

/-- No window is staged: the pipeline itself waits on nothing. -/
theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 8000 in
/-- At the compiled line of eight devices, for any float values, from any memory with zero counters: every weakly fair
    execution of @main — the eight kernels handshaking on the barrier semaphore, then each transferring its last three
    rows to its right neighbour — terminates, and every final state has each device's result block at the computed
    contents and its two arguments unchanged. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_line m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c.tc : Thread nD τ).loc main_v1) = outC m c
      ∧ s.mem ((c.tc : Thread nD τ).loc main_arg0) = m ((c.tc : Thread nD τ).loc main_arg0)
      ∧ s.mem ((c.tc : Thread nD τ).loc main_arg1) = m ((c.tc : Thread nD τ).loc main_arg1))
    (hY := fun c s' => by
      unfold Y
      iintro ⟨⟨Ha, Hb, Hr⟩, -, HSI⟩
      icombine HSI Ha gives %ha
      icombine HSI Hb gives %hb
      icombine HSI Hr gives %hr
      imodintro
      isplitr
      · ipureintro; exact ⟨Buf.eq_of_forall_mem_univ hr, Buf.eq_of_forall_mem_univ ha, Buf.eq_of_forall_mem_univ hb⟩
      iexact HSI)
    (hQ := fun _ h c => (h c).2.2)

/-- info: 'Cert.KernelProof.run_main' depends on axioms: [propext, Classical.choice, Quot.sound] -/
#guard_msgs in #print axioms run_main

end Cert.KernelProof

end
-- ==== Proof.ConvLaws.lean ====
/-
  Two laws of the extended reals that the convolution's value proof rests on.

  * The SiLU law: a · (½ · tanh(½ · a) + ½) = a / (1 + exp(−a)) at EVERY extended real a. On a real a this is the
    identity ½ · tanh(a/2) + ½ = 1 / (1 + e^{−a}); at +∞ both sides are +∞ (tanh(+∞) = 1, exp(−∞) = 0); at −∞ both sides
    are 0 (tanh(−∞) = −1 makes the bracket 0, and a quotient by +∞ is 0).
  * The four-term sum: ((p₃ + p₂) + p₁) + p₀ = (((z + p₀) + p₁) + p₂) + p₃ when z = 0, addition of extended reals being
    commutative and associative.
-/
import Idealize.ShloMosaic.PureOps.Ideal.Laws
import Idealize.ShloMosaic.Lib.IdealHost

noncomputable section

namespace Cert.KernelIdeal.ConvLaws

open Idealize.ShloMosaic

/-- The f32 pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

/-- On the reals: ½ · tanh(r/2) + ½ = 1 / (1 + e^{−r}). -/
theorem real_logistic (r : ℝ) : (1 : ℝ) / 2 * Real.tanh (1 / 2 * r) + 1 / 2 = (1 + Real.exp (-r))⁻¹ := by
  have hu : 0 < Real.exp (1 / 2 * r) := Real.exp_pos _
  have he : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, he, Real.exp_neg]
  generalize Real.exp (1 / 2 * r) = u at hu
  have hu' : u ≠ 0 := ne_of_gt hu
  field_simp
  ring

/-- The SiLU law with the two factors as reals. -/
theorem silu_real (a : EReal) :
    a * ((((1 : ℝ) / 2 : ℝ) : EReal) * Ideal.tanh ((((1 : ℝ) / 2 : ℝ) : EReal) * a) + (((1 : ℝ) / 2 : ℝ) : EReal))
      = Ideal.div a (1 + Ideal.exp (-a)) := by
  have hpos : (0 : ℝ) < 1 / 2 := by norm_num
  induction a using EReal.rec with
  | bot =>
    rw [EReal.coe_mul_bot_of_pos hpos, Ideal.tanh_bot, EReal.neg_bot, Ideal.exp_top]
    have h1 : ((((1 : ℝ) / 2 : ℝ) : EReal) * (-1 : EReal) + (((1 : ℝ) / 2 : ℝ) : EReal)) = 0 := by
      rw [show (-1 : EReal) = ((-1 : ℝ) : EReal) by rw [EReal.coe_neg, EReal.coe_one], ← EReal.coe_mul, ← EReal.coe_add]
      norm_num
    rw [h1, mul_zero]
    unfold Ideal.div
    rw [show (1 : EReal) + ⊤ = ⊤ from EReal.add_top_of_ne_bot (by decide)]
    rw [if_neg (by decide : (⊤ : EReal) ≠ 0), EReal.inv_top, mul_zero]
  | top =>
    rw [EReal.coe_mul_top_of_pos hpos, Ideal.tanh_top, EReal.neg_top, Ideal.exp_bot, add_zero]
    have h1 : ((((1 : ℝ) / 2 : ℝ) : EReal) * (1 : EReal) + (((1 : ℝ) / 2 : ℝ) : EReal)) = 1 := by
      rw [show (1 : EReal) = ((1 : ℝ) : EReal) by norm_cast, ← EReal.coe_mul, ← EReal.coe_add]
      norm_num
    rw [h1, mul_one]
    unfold Ideal.div
    rw [if_neg (by norm_num : (1 : EReal) ≠ 0), inv_one, mul_one]
  | coe r =>
    rw [← EReal.coe_mul, Ideal.tanh_coe, ← EReal.coe_mul, ← EReal.coe_add, ← EReal.coe_mul, ← EReal.coe_neg,
      Ideal.exp_coe, show (1 : EReal) = ((1 : ℝ) : EReal) by norm_cast, ← EReal.coe_add]
    have hne : (1 : ℝ) + Real.exp (-r) ≠ 0 := ne_of_gt (by positivity)
    unfold Ideal.div
    rw [if_neg (by exact_mod_cast hne), ← EReal.coe_inv, ← EReal.coe_mul, real_logistic]

/-- THE SiLU LAW, over the two float literals as the programs spell them: with h the pattern of one half and o the
    pattern of one, a · (h · tanh(h · a) + h) = a / (o + exp(−a)) at every extended real a. -/
theorem silu_law (a : EReal) :
    a * (Ideal.ofBits .f32 0x3F000000#32 * Ideal.tanh (Ideal.ofBits .f32 0x3F000000#32 * a) + Ideal.ofBits .f32 0x3F000000#32)
      = Ideal.div a (Ideal.ofBits .f32 0x3F800000#32 + Ideal.exp (-a)) := by
  rw [ofBits_half_f32, Ideal.ofBits_one_f32]
  exact silu_real a

/-- The four products summed last tap first equal the four summed first tap first onto a zero. -/
theorem sum4_rev (z p0 p1 p2 p3 : EReal) (hz : z = 0) :
    ((p3 + p2) + p1) + p0 = (((z + p0) + p1) + p2) + p3 := by
  rw [hz, zero_add]
  rw [add_comm p3 p2, add_comm (p2 + p3) p1, add_comm (p1 + (p2 + p3)) p0]
  simp only [add_assoc]

end Cert.KernelIdeal.ConvLaws

end
-- ==== Proof.ConvRef.lean ====
/-
  The reference's result read at one index.

  The reference puts three zero rows in front of the input's 4096 rows (the padded input, 4099 rows) and sums, onto a
  zero, tap j times the padded input j rows further on, j = 0 … 3; the result is that sum t divided by 1 + exp(−t).
  Here each stage is read at the index (b, g, ch): the padded input at row n is the zero literal for n < 3 and the
  input's row n − 3 otherwise (`padded`), a tap's broadcast is the filter's entry (j, ch), and so the result at
  (b, g, ch) is `silu (refAcc …)`.
-/
import proofs.«900435_g7700000000000436_dist_gconv1d_seqshard_i_b4_s512_c256_v7x_i8_bf16_1_alg».proof.Proof.Gen.ReferenceIdeal.Read
import Idealize.ShloMosaic.Lib.ValueIdx
import Idealize.ShloMosaic.Lib.Pipeline.Value
import Idealize.ShloMosaic.PureOps.Ideal.Laws

noncomputable section

namespace Cert.KernelIdeal.ConvRef

open Cert.ReferenceIdeal Cert.ReferenceIdeal.Gen Cert.ReferenceIdeal.Read
open Idealize.ShloMosaic Idealize.ShloMosaic.ValueIdx

/-- The whole input and the filter, as the reference's @main receives them. -/
abbrev XArr : Type := (⟨3, ![4, 4096, 256]⟩ : Shape).Idx → EReal
abbrev KArr : Type := (⟨2, ![4, 256]⟩ : Shape).Idx → EReal

/-- Row `n` of the padded input: three zero rows, then the input's rows. -/
def padded (x : XArr) (b : Fin 4) (n : Fin 4099) (ch : Fin 256) : EReal :=
  if h : n.val < 3 then Ideal.ofBits .f32 0x00000000#32
  else x (ix3 b ⟨n.val - 3, by have := n.isLt; omega⟩ ch)

/-- The convolution's sum at (b, g, ch), in the reference's order of addition: onto the zero literal, tap 0 first. -/
def refAcc (x : XArr) (k : KArr) (b : Fin 4) (g : Fin 4096) (ch : Fin 256) : EReal :=
  (((Ideal.ofBits .f32 0x00000000#32
      + padded x b ⟨g.val, by have := g.isLt; omega⟩ ch * k (ix2 (0 : Fin 4) ch))
      + padded x b ⟨1 + g.val, by have := g.isLt; omega⟩ ch * k (ix2 (1 : Fin 4) ch))
      + padded x b ⟨2 + g.val, by have := g.isLt; omega⟩ ch * k (ix2 (2 : Fin 4) ch))
      + padded x b ⟨3 + g.val, by have := g.isLt; omega⟩ ch * k (ix2 (3 : Fin 4) ch)

/-- The reference's last step on a sum t: t / (1 + exp(−t)), the one as the literal the program spells. -/
def silu (t : EReal) : EReal := Ideal.div t (Ideal.ofBits .f32 0x3F800000#32 + Ideal.exp (-t))

/-- The padded input is the concatenation the reference builds. -/
theorem v1_apply (x : XArr) (b : Fin 4) (n : Fin 4099) (ch : Fin 256) :
    val_main_v1 (F := Ideal) x (ix3 b n ch) = padded x b n ch := by
  unfold val_main_v1 padded
  by_cases h : n.val < 3
  · rw [dif_pos h]
    refine (concatenate_pair_apply_left (t := S4x4099x256) (s₁ := S4x3x256) (s₂ := S4x4096x256) 1 _ _ concatenates_S4x3x256_S4x4096x256_S4x4099x256_d1 (ix3 b n ch) rfl
      (ix3 b (⟨n.val, h⟩ : Fin 3) ch) (fun a => ?_)).trans ?_
    · match a with
      | ⟨0, _⟩ => rfl
      | ⟨1, _⟩ => rfl
      | ⟨2, _⟩ => rfl
    · rw [val_main_v0_apply, val_main_cst_apply]; rfl
  · rw [dif_neg h]
    have hn : n.val < 4099 := n.isLt
    refine concatenate_pair_apply_right (t := S4x4099x256) (s₁ := S4x3x256) (s₂ := S4x4096x256) 1 _ _ concatenates_S4x3x256_S4x4096x256_S4x4099x256_d1 (ix3 b n ch) rfl rfl
      (ix3 b (⟨n.val - 3, by omega⟩ : Fin 4096) ch) (fun a ha => ?_) ?_
    · match a with
      | ⟨0, _⟩ => rfl
      | ⟨1, _⟩ => exact absurd rfl ha
      | ⟨2, _⟩ => rfl
    · show n.val - 3 + 3 = n.val
      omega

/-! The four slices of the padded input read it j rows further on. -/

theorem idx_v3 (b : Fin 4) (g : Fin 4096) (ch : Fin 256) :
    idx_main_v3 (ix3 b g ch) = ix3 b (⟨g.val, by have := g.isLt; omega⟩ : Fin 4099) ch := by
  funext a; refine Fin.ext ?_
  match a with
  | ⟨0, _⟩ => rfl
  | ⟨1, _⟩ => rfl
  | ⟨2, _⟩ => rfl
theorem idx_v10 (b : Fin 4) (g : Fin 4096) (ch : Fin 256) :
    idx_main_v10 (ix3 b g ch) = ix3 b (⟨1 + g.val, by have := g.isLt; omega⟩ : Fin 4099) ch := by
  funext a; refine Fin.ext ?_
  match a with
  | ⟨0, _⟩ => rfl
  | ⟨1, _⟩ => rfl
  | ⟨2, _⟩ => rfl
theorem idx_v17 (b : Fin 4) (g : Fin 4096) (ch : Fin 256) :
    idx_main_v17 (ix3 b g ch) = ix3 b (⟨2 + g.val, by have := g.isLt; omega⟩ : Fin 4099) ch := by
  funext a; refine Fin.ext ?_
  match a with
  | ⟨0, _⟩ => rfl
  | ⟨1, _⟩ => rfl
  | ⟨2, _⟩ => rfl
theorem idx_v24 (b : Fin 4) (g : Fin 4096) (ch : Fin 256) :
    idx_main_v24 (ix3 b g ch) = ix3 b (⟨3 + g.val, by have := g.isLt; omega⟩ : Fin 4099) ch := by
  funext a; refine Fin.ext ?_
  match a with
  | ⟨0, _⟩ => rfl
  | ⟨1, _⟩ => rfl
  | ⟨2, _⟩ => rfl

/-! A tap's broadcast reads the filter's entry (j, ch) everywhere. -/

theorem idx_tap0 (b : Fin 4) (g : Fin 4096) (ch : Fin 256) :
    idx_main_v4 (idx_main_v5 (idx_main_v6 (idx_main_v7 (ix3 b g ch)))) = ix2 (0 : Fin 4) ch := by
  funext a; refine Fin.ext ?_
  match a with
  | ⟨0, _⟩ => rfl
  | ⟨1, _⟩ => exact Nat.mod_eq_of_lt ch.isLt
theorem idx_tap1 (b : Fin 4) (g : Fin 4096) (ch : Fin 256) :
    idx_main_v11 (idx_main_v12 (idx_main_v13 (idx_main_v14 (ix3 b g ch)))) = ix2 (1 : Fin 4) ch := by
  funext a; refine Fin.ext ?_
  match a with
  | ⟨0, _⟩ => rfl
  | ⟨1, _⟩ => exact Nat.mod_eq_of_lt ch.isLt
theorem idx_tap2 (b : Fin 4) (g : Fin 4096) (ch : Fin 256) :
    idx_main_v18 (idx_main_v19 (idx_main_v20 (idx_main_v21 (ix3 b g ch)))) = ix2 (2 : Fin 4) ch := by
  funext a; refine Fin.ext ?_
  match a with
  | ⟨0, _⟩ => rfl
  | ⟨1, _⟩ => exact Nat.mod_eq_of_lt ch.isLt
theorem idx_tap3 (b : Fin 4) (g : Fin 4096) (ch : Fin 256) :
    idx_main_v25 (idx_main_v26 (idx_main_v27 (idx_main_v28 (ix3 b g ch)))) = ix2 (3 : Fin 4) ch := by
  funext a; refine Fin.ext ?_
  match a with
  | ⟨0, _⟩ => rfl
  | ⟨1, _⟩ => exact Nat.mod_eq_of_lt ch.isLt

/-- The reference's sum at an index is `refAcc`. -/
theorem v30_apply (x : XArr) (k : KArr) (b : Fin 4) (g : Fin 4096) (ch : Fin 256) :
    val_main_v30 (F := Ideal) x k (ix3 b g ch) = refAcc x k b g ch := by
  rw [val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_cst_0_apply,
    idx_v3, idx_v10, idx_v17, idx_v24, idx_tap0, idx_tap1, idx_tap2, idx_tap3,
    v1_apply, v1_apply, v1_apply, v1_apply]
  rfl

/-- THE REFERENCE AT AN INDEX: the sum, then t ↦ t / (1 + exp(−t)). -/
theorem ref_apply (x : XArr) (k : KArr) (b : Fin 4) (g : Fin 4096) (ch : Fin 256) :
    val_main_v36 (F := Ideal) x k (ix3 b g ch) = silu (refAcc x k b g ch) := by
  rw [val_main_v36_apply, val_main_v35_apply, val_main_v34_apply, val_main_v33_apply, val_main_cst_1_apply,
    val_main_v32_apply, val_main_v31_apply, v30_apply]
  rfl

end Cert.KernelIdeal.ConvRef

end
-- ==== Proof.ConvKernel.lean ====
/-
  The kernel's payloads read at one index.

  A device computes its block three ways. Away from the block's first three rows it rotates its rows down by one, three
  times over, and sums tap 3 − s times the rotation by s, s = 0 … 3: at row r ≥ 3 the rotation by s reads row r − s
  (`rotAcc`). On the first three rows it joins the three rows before the block (the halo) to the block's first three
  rows and sums, onto a zero, tap j times the joined rows j further on (`edgeAcc`). Both sums then go through
  t ↦ t · (½ · tanh(½ · t) + ½) (`siluK`).
-/
import proofs.«900435_g7700000000000436_dist_gconv1d_seqshard_i_b4_s512_c256_v7x_i8_bf16_1_alg».proof.Proof.Gen.KernelIdeal.Skeleton
import proofs.«900435_g7700000000000436_dist_gconv1d_seqshard_i_b4_s512_c256_v7x_i8_bf16_1_alg».proof.Proof.OutSpec
import Idealize.ShloMosaic.Lib.ValueIdx
import Idealize.ShloMosaic.Lib.Pipeline.Value
import Idealize.ShloMosaic.Lib.KernelVsHost

noncomputable section

namespace Cert.KernelIdeal.ConvKernel

open Cert.KernelIdeal Cert.KernelIdeal.Gen Cert.KernelIdeal.Out
open Idealize.ShloMosaic Idealize.ShloMosaic.ValueIdx

/-! ## Layout operations of this kernel at an index -/

section Generic
variable {α : Type}

/-- A rotation by one along the rows reads the row before (away from the first row). -/
theorem rot1_apply {n : ℕ} (h : (⟨3, ![4, n, 256]⟩ : Shape).Rotates 1 none) (y : (⟨3, ![4, n, 256]⟩ : Shape).Idx → α)
    (b : Fin 4) (r : Fin n) (ch : Fin 256) (hr : 1 ≤ r.val) :
    dynamicRotate 1 1#32 none y h (ix3 b r ch) = y (ix3 b ⟨r.val - 1, by have := r.isLt; omega⟩ ch) := by
  have hn : r.val < n := r.isLt
  refine dynamicRotate_apply 1 1#32 y h _ _ (fun a => ?_)
  by_cases ha : a = 1
  · subst ha
    rw [if_pos rfl]
    show r.val - 1 = (r.val + n - (1#32).toNat % n) % n
    have h1 : (1#32).toNat % n = 1 := by
      rw [show (1#32).toNat = 1 from rfl]; exact Nat.mod_eq_of_lt (by omega)
    rw [h1, show r.val + n - 1 = (r.val - 1) + n by omega, Nat.add_mod_right, Nat.mod_eq_of_lt (by omega)]
  · rw [if_neg ha]
    match a, ha with
    | ⟨0, _⟩, _ => rfl
    | ⟨1, _⟩, ha => exact absurd (Fin.ext rfl) ha
    | ⟨2, _⟩, _ => rfl

/-- Tap `t` of the filter cut out as a row, flattened, and spread over a [4, n, 256] array reads the filter's entry
    (t, ch) everywhere. -/
theorem tapB_apply {n : ℕ} (off : Fin 2 → ℕ) (t : Fin 4) (h0 : off 0 = t.val) (h1 : off 1 = 0)
    (k : (⟨2, ![4, 256]⟩ : Shape).Idx → α)
    (hs : (⟨2, ![4, 256]⟩ : Shape).Slices off ⟨2, ![1, 256]⟩)
    (hc1 : (⟨2, ![1, 256]⟩ : Shape).ShapeCasts ⟨1, ![256]⟩)
    (hc2 : (⟨1, ![256]⟩ : Shape).ShapeCasts ⟨3, ![1, 1, 256]⟩)
    (hb : (⟨3, ![1, 1, 256]⟩ : Shape).Broadcasts ⟨3, ![4, n, 256]⟩)
    (b : Fin 4) (r : Fin n) (ch : Fin 256) :
    broadcastTo ⟨3, ![4, n, 256]⟩
        (shapeCast ⟨3, ![1, 1, 256]⟩ (shapeCast ⟨1, ![256]⟩ (extractStridedSlice ⟨2, ![1, 256]⟩ off k hs) hc1) hc2) hb
        (ix3 b r ch)
      = k (ix2 t ch) := by
  refine (broadcastTo_apply _ hb (ix3 b r ch) (ix3 (0 : Fin 1) (0 : Fin 1) ch) (fun a => ?_)).trans ?_
  · match a with
    | ⟨0, _⟩ => show 0 = if (1 : ℕ) = 1 then 0 else _; rw [if_pos rfl]
    | ⟨1, _⟩ => show 0 = if (1 : ℕ) = 1 then 0 else _; rw [if_pos rfl]
    | ⟨2, _⟩ => show ch.val = if (256 : ℕ) = 1 then 0 else _; rw [if_neg (by decide)]; rfl
  refine (shapeCast_apply _ hc2 (ix3 (0 : Fin 1) (0 : Fin 1) ch) (ix1 ch) ?_).trans ?_
  · rw [Shape.rowMajor_val_one, Shape.rowMajor_val_three]
    show ch.val = (0 * 1 + 0) * 256 + ch.val
    omega
  refine (shapeCast_apply _ hc1 (ix1 ch) (ix2 (0 : Fin 1) ch) ?_).trans ?_
  · rw [Shape.rowMajor_val_two, Shape.rowMajor_val_one]
    show 0 * 256 + ch.val = ch.val
    omega
  refine extractStridedSlice_apply off k hs (ix2 (0 : Fin 1) ch) (ix2 t ch) (fun a => ?_)
  match a with
  | ⟨0, _⟩ => show t.val = off 0 + 0; omega
  | ⟨1, _⟩ => show ch.val = off 1 + ch.val; omega

/-- A row given a leading unit axis and spread over a [4, n, 256] array reads its entry ch everywhere. -/
theorem tapE_apply {n : ℕ} (v : (⟨2, ![1, 256]⟩ : Shape).Idx → α)
    (hc : (⟨2, ![1, 256]⟩ : Shape).ShapeCasts ⟨3, ![1, 1, 256]⟩)
    (hb : (⟨3, ![1, 1, 256]⟩ : Shape).Broadcasts ⟨3, ![4, n, 256]⟩)
    (b : Fin 4) (r : Fin n) (ch : Fin 256) :
    broadcastTo ⟨3, ![4, n, 256]⟩ (shapeCast ⟨3, ![1, 1, 256]⟩ v hc) hb (ix3 b r ch) = v (ix2 (0 : Fin 1) ch) := by
  refine (broadcastTo_apply _ hb (ix3 b r ch) (ix3 (0 : Fin 1) (0 : Fin 1) ch) (fun a => ?_)).trans ?_
  · match a with
    | ⟨0, _⟩ => show 0 = if (1 : ℕ) = 1 then 0 else _; rw [if_pos rfl]
    | ⟨1, _⟩ => show 0 = if (1 : ℕ) = 1 then 0 else _; rw [if_pos rfl]
    | ⟨2, _⟩ => show ch.val = if (256 : ℕ) = 1 then 0 else _; rw [if_neg (by decide)]; rfl
  refine shapeCast_apply _ hc (ix3 (0 : Fin 1) (0 : Fin 1) ch) (ix2 (0 : Fin 1) ch) ?_
  rw [Shape.rowMajor_val_two, Shape.rowMajor_val_three]
  show 0 * 256 + ch.val = (0 * 1 + 0) * 256 + ch.val
  omega

/-- Six rows: the first three from `h`, the last three from `x3`. -/
def cat6 (h x3 : (⟨3, ![4, 3, 256]⟩ : Shape).Idx → α) (b : Fin 4) (n : Fin 6) (ch : Fin 256) : α :=
  if hn : n.val < 3 then h (ix3 b ⟨n.val, hn⟩ ch) else x3 (ix3 b ⟨n.val - 3, by have := n.isLt; omega⟩ ch)

/-- The join of two three-row arrays along the rows is `cat6`. -/
theorem cat6_apply (h x3 : (⟨3, ![4, 3, 256]⟩ : Shape).Idx → α)
    (hc : Shape.Concatenates [(⟨3, ![4, 3, 256]⟩ : Shape), ⟨3, ![4, 3, 256]⟩] ⟨3, ![4, 6, 256]⟩ 1)
    (b : Fin 4) (n : Fin 6) (ch : Fin 256) :
    concatenate ⟨3, ![4, 6, 256]⟩ 1 [⟨⟨3, ![4, 3, 256]⟩, h⟩, ⟨⟨3, ![4, 3, 256]⟩, x3⟩] hc (ix3 b n ch) = cat6 h x3 b n ch := by
  unfold cat6
  have hn6 : n.val < 6 := n.isLt
  by_cases hn : n.val < 3
  · rw [dif_pos hn]
    refine concatenate_pair_apply_left (t := ⟨3, ![4, 6, 256]⟩) (s₁ := ⟨3, ![4, 3, 256]⟩) (s₂ := ⟨3, ![4, 3, 256]⟩) 1 _ _ hc (ix3 b n ch) rfl
      (ix3 b (⟨n.val, hn⟩ : Fin 3) ch) (fun a => ?_)
    match a with
    | ⟨0, _⟩ => rfl
    | ⟨1, _⟩ => rfl
    | ⟨2, _⟩ => rfl
  · rw [dif_neg hn]
    refine concatenate_pair_apply_right (t := ⟨3, ![4, 6, 256]⟩) (s₁ := ⟨3, ![4, 3, 256]⟩) (s₂ := ⟨3, ![4, 3, 256]⟩) 1 _ _ hc (ix3 b n ch) rfl rfl
      (ix3 b (⟨n.val - 3, by omega⟩ : Fin 3) ch) (fun a ha => ?_) ?_
    · match a with
      | ⟨0, _⟩ => rfl
      | ⟨1, _⟩ => exact absurd rfl ha
      | ⟨2, _⟩ => rfl
    · show n.val - 3 + 3 = n.val
      omega

/-- Three rows of the six, from row `j` on. -/
theorem slice6_apply (j : ℕ) (hj : j ≤ 3) (off : Fin 3 → ℕ) (h0 : off 0 = 0) (h1 : off 1 = j) (h2 : off 2 = 0)
    (v : (⟨3, ![4, 6, 256]⟩ : Shape).Idx → α) (hs : (⟨3, ![4, 6, 256]⟩ : Shape).Slices off ⟨3, ![4, 3, 256]⟩)
    (b : Fin 4) (r : Fin 3) (ch : Fin 256) :
    extractStridedSlice ⟨3, ![4, 3, 256]⟩ off v hs (ix3 b r ch)
      = v (ix3 b (⟨j + r.val, by have := r.isLt; omega⟩ : Fin 6) ch) := by
  refine extractStridedSlice_apply off v hs (ix3 b r ch) _ (fun a => ?_)
  match a with
  | ⟨0, _⟩ => show b.val = off 0 + b.val; omega
  | ⟨1, _⟩ => show j + r.val = off 1 + r.val; omega
  | ⟨2, _⟩ => show ch.val = off 2 + ch.val; omega

end Generic

/-- A hyperbolic tangent at an index. -/
theorem tanh_apply {s : Shape} {φ : FTy} (a : FVec Ideal s φ) (i : s.Idx) : tanh a i = Ideal.tanh (a i) := rfl

/-! ## The sums and the last step -/

/-- The kernel's last step on a sum t: t · (½ · tanh(½ · t) + ½), one half as the literal the kernel spells. -/
def siluK (t : EReal) : EReal :=
  t * (Ideal.ofBits .f32 0x3F000000#32 * Ideal.tanh (Ideal.ofBits .f32 0x3F000000#32 * t) + Ideal.ofBits .f32 0x3F000000#32)

/-- The sum the rotations build at a row r ≥ 3, last tap first: row r − s meets tap 3 − s. -/
def rotAcc {n : ℕ} (k : (⟨2, ![4, 256]⟩ : Shape).Idx → EReal) (y : (⟨3, ![4, n, 256]⟩ : Shape).Idx → EReal)
    (b : Fin 4) (r : Fin n) (hr : 3 ≤ r.val) (ch : Fin 256) : EReal :=
  ((y (ix3 b r ch) * k (ix2 (3 : Fin 4) ch)
      + y (ix3 b ⟨r.val - 1, by have := r.isLt; omega⟩ ch) * k (ix2 (2 : Fin 4) ch))
      + y (ix3 b ⟨r.val - 1 - 1, by have := r.isLt; omega⟩ ch) * k (ix2 (1 : Fin 4) ch))
      + y (ix3 b ⟨r.val - 1 - 1 - 1, by have := r.isLt; omega⟩ ch) * k (ix2 (0 : Fin 4) ch)

/-- The edge sum at row r < 3: onto a zero, tap j times row r + j of the joined six rows. -/
def edgeAcc (h x3 : (⟨3, ![4, 3, 256]⟩ : Shape).Idx → EReal) (t0 t1 t2 t3 : (⟨2, ![1, 256]⟩ : Shape).Idx → EReal)
    (b : Fin 4) (r : Fin 3) (ch : Fin 256) : EReal :=
  (((Ideal.ofBits .f32 0x00000000#32
      + cat6 h x3 b ⟨0 + r.val, by have := r.isLt; omega⟩ ch * t0 (ix2 (0 : Fin 1) ch))
      + cat6 h x3 b ⟨1 + r.val, by have := r.isLt; omega⟩ ch * t1 (ix2 (0 : Fin 1) ch))
      + cat6 h x3 b ⟨2 + r.val, by have := r.isLt; omega⟩ ch * t2 (ix2 (0 : Fin 1) ch))
      + cat6 h x3 b ⟨3 + r.val, by have := r.isLt; omega⟩ ch * t3 (ix2 (0 : Fin 1) ch)

/-! ## The payloads at an index -/

/-- Rows 0 … 255 of the block: at a row r ≥ 3 the payload is the rotations' sum through the last step. -/
theorem pay3_apply (k : Vec Ideal S4x256 .f32) (y : Vec Ideal S4x256x256 .f32) (b : Fin 4) (r : Fin 256) (ch : Fin 256)
    (hr : 3 ≤ r.val) :
    k0_pay3 (F := Ideal) k y (k0_pay2 k y) (ix3 b r ch) = siluK (rotAcc k y b r hr ch) := by
  have hlt : r.val < 256 := r.isLt
  have e1 : ∀ (z : FVec Ideal S4x256x256 .f32) (r' : Fin 256) (h1 : 1 ≤ r'.val),
      dynamicRotate 1 1#32 none z rotates_S4x256x256_d1 (ix3 b r' ch)
        = z (ix3 b ⟨r'.val - 1, by have := r'.isLt; omega⟩ ch) :=
    fun z r' h1 => rot1_apply _ z b r' ch h1
  unfold k0_pay3 k0_pay2 siluK rotAcc
  simp only [shapeCast_self, truncf_apply, mulf_apply, addf_apply, tanh_apply, broadcast_apply]
  rw [tapB_apply ![3, 0] 3 rfl rfl, tapB_apply ![2, 0] 2 rfl rfl, tapB_apply ![1, 0] 1 rfl rfl, tapB_apply ![0, 0] 0 rfl rfl]
  rw [e1 _ r (by omega), e1 _ r (by omega), e1 _ r (by omega),
    e1 _ ⟨r.val - 1, by omega⟩ (by show 1 ≤ r.val - 1; omega), e1 _ ⟨r.val - 1, by omega⟩ (by show 1 ≤ r.val - 1; omega),
    e1 _ ⟨r.val - 1 - 1, by omega⟩ (by show 1 ≤ r.val - 1 - 1; omega)]
  rfl

/-- Eight rows before row 8 dropped: the cut reads row 8 + r. -/
theorem slice264_apply {α : Type} (off : Fin 3 → ℕ) (h0 : off 0 = 0) (h1 : off 1 = 8) (h2 : off 2 = 0)
    (v : (⟨3, ![4, 264, 256]⟩ : Shape).Idx → α) (hs : (⟨3, ![4, 264, 256]⟩ : Shape).Slices off ⟨3, ![4, 256, 256]⟩)
    (b : Fin 4) (r : Fin 256) (ch : Fin 256) :
    extractStridedSlice ⟨3, ![4, 256, 256]⟩ off v hs (ix3 b r ch)
      = v (ix3 b (⟨8 + r.val, by have := r.isLt; omega⟩ : Fin 264) ch) := by
  refine extractStridedSlice_apply off v hs (ix3 b r ch) _ (fun a => ?_)
  match a with
  | ⟨0, _⟩ => show b.val = off 0 + b.val; omega
  | ⟨1, _⟩ => show 8 + r.val = off 1 + r.val; omega
  | ⟨2, _⟩ => show ch.val = off 2 + ch.val; omega

/-- Rows 256 … 511 of the block: the payload over rows 248 … 511, its first eight rows dropped, at row r is the
    rotations' sum at row 8 + r of those 264 through the last step. -/
theorem pay4_apply (k : Vec Ideal S4x256 .f32) (y : Vec Ideal S4x264x256 .f32) (b : Fin 4) (r : Fin 256) (ch : Fin 256) :
    k0_pay4 (F := Ideal) k y (ix3 b r ch)
      = siluK (rotAcc k y b (⟨8 + r.val, by have := r.isLt; omega⟩ : Fin 264) (by show 3 ≤ 8 + r.val; omega) ch) := by
  have hlt : r.val < 256 := r.isLt
  have e1 : ∀ (z : FVec Ideal S4x264x256 .f32) (r' : Fin 264) (h1 : 1 ≤ r'.val),
      dynamicRotate 1 1#32 none z rotates_S4x264x256_d1 (ix3 b r' ch)
        = z (ix3 b ⟨r'.val - 1, by have := r'.isLt; omega⟩ ch) :=
    fun z r' h1 => rot1_apply _ z b r' ch h1
  unfold k0_pay4 siluK rotAcc
  simp only [shapeCast_self]
  rw [slice264_apply ![0, 8, 0] rfl rfl rfl]
  simp only [truncf_apply, mulf_apply, addf_apply, tanh_apply, broadcast_apply]
  rw [tapB_apply ![3, 0] 3 rfl rfl, tapB_apply ![2, 0] 2 rfl rfl, tapB_apply ![1, 0] 1 rfl rfl, tapB_apply ![0, 0] 0 rfl rfl]
  rw [e1 _ ⟨8 + r.val, by omega⟩ (by show 1 ≤ 8 + r.val; omega), e1 _ ⟨8 + r.val, by omega⟩ (by show 1 ≤ 8 + r.val; omega),
    e1 _ ⟨8 + r.val, by omega⟩ (by show 1 ≤ 8 + r.val; omega),
    e1 _ ⟨8 + r.val - 1, by omega⟩ (by show 1 ≤ 8 + r.val - 1; omega),
    e1 _ ⟨8 + r.val - 1, by omega⟩ (by show 1 ≤ 8 + r.val - 1; omega),
    e1 _ ⟨8 + r.val - 1 - 1, by omega⟩ (by show 1 ≤ 8 + r.val - 1 - 1; omega)]
  rfl

/-- The halo of the first device is zero everywhere. -/
theorem pay5_apply (i : S4x3x256.Idx) : k0_pay5 (F := Ideal) i = Ideal.ofBits .f32 0x00000000#32 := by
  unfold k0_pay5
  simp only [shapeCast_self, broadcast_apply]
  rfl

/-- The halo of another device is the three rows it received, unchanged. -/
theorem pay1_eq (v : Vec Ideal S4x3x256 .f32) : k0_pay1 (F := Ideal) v = v := by
  unfold k0_pay1
  exact shapeCast_self _ _

/-- The first three rows of the block: the edge sum. -/
theorem pay6_apply (h x3 : Vec Ideal S4x3x256 .f32) (t0 t1 t2 t3 : Vec Ideal S1x256 .f32) (b : Fin 4) (r : Fin 3) (ch : Fin 256) :
    k0_pay6 (F := Ideal) h x3 t0 t1 t2 t3 (ix3 b r ch) = edgeAcc h x3 t0 t1 t2 t3 b r ch := by
  unfold k0_pay6 edgeAcc
  simp only [mulf_apply, addf_apply, broadcast_apply]
  rw [tapE_apply, tapE_apply, tapE_apply, tapE_apply]
  rw [slice6_apply 0 (by omega) ![0, 0, 0] rfl rfl rfl, slice6_apply 1 (by omega) ![0, 1, 0] rfl rfl rfl,
    slice6_apply 2 (by omega) ![0, 2, 0] rfl rfl rfl, slice6_apply 3 (by omega) ![0, 3, 0] rfl rfl rfl]
  rw [cat6_apply, cat6_apply, cat6_apply, cat6_apply]
  rfl

/-- The edge sum goes through the last step. -/
theorem pay7_apply (v : FVec Ideal S4x3x256 .f32) (i : S4x3x256.Idx) :
    k0_pay7 (F := Ideal) v (Scalar.ofBits .f32 0x3F000000#32) i = siluK (v i) := by
  unfold k0_pay7 siluK
  simp only [shapeCast_self, truncf_apply, mulf_apply, addf_apply, tanh_apply, broadcast_apply]
  rfl

end Cert.KernelIdeal.ConvKernel

end
-- ==== Proof.ConvValue.lean ====
/-
  What a device computes is its block of the reference's result.

  Device c holds rows 512·c … 512·c + 511 of the input. At row r of its block (row g = 512·c + r of the whole) the reference
  sums, onto a zero, tap j times row g + j of the padded input (three zero rows, then the input), j = 0 … 3, and divides the
  sum t by 1 + exp(−t). The device builds the same four products — by rotations of its own rows away from the block's
  first three rows, from the halo joined to its first three rows on them — adds them in another order, and multiplies the
  sum t by ½ · tanh(½ · t) + ½. The products agree row by row, the order of addition does not matter over the extended
  reals, and the two last steps are one function there.
-/
import proofs.«900435_g7700000000000436_dist_gconv1d_seqshard_i_b4_s512_c256_v7x_i8_bf16_1_alg».proof.Proof.Gen.ReferenceIdeal.Read
import proofs.«900435_g7700000000000436_dist_gconv1d_seqshard_i_b4_s512_c256_v7x_i8_bf16_1_alg».proof.Proof.OutSpec
import proofs.«900435_g7700000000000436_dist_gconv1d_seqshard_i_b4_s512_c256_v7x_i8_bf16_1_alg».proof.Proof.ConvLaws
import proofs.«900435_g7700000000000436_dist_gconv1d_seqshard_i_b4_s512_c256_v7x_i8_bf16_1_alg».proof.Proof.ConvRef
import proofs.«900435_g7700000000000436_dist_gconv1d_seqshard_i_b4_s512_c256_v7x_i8_bf16_1_alg».proof.Proof.ConvKernel
import Idealize.ShloMosaic.Lib.ValueIdx
import Idealize.ShloMosaic.Lib.Pipeline.Value
import Idealize.ShloMosaic.Lib.Layout
import Idealize.ShloMosaic.PureOps.Ideal.Laws

noncomputable section

namespace Cert.KernelIdeal.ConvValue

open Cert.KernelIdeal Cert.KernelIdeal.Gen Cert.KernelIdeal.Out
open Cert.KernelIdeal.ConvLaws Cert.KernelIdeal.ConvRef Cert.KernelIdeal.ConvKernel
open Idealize.ShloMosaic Idealize.ShloMosaic.ValueIdx

/-- Block `c` of an array of 4096 rows cut into eight along the rows, at (b, r, ch), is the array at row 512·c + r. -/
theorem block_ix3 {α : Type} (X : (⟨3, ![4, 4096, 256]⟩ : Shape).Idx → α) (c : Fin 8)
    (hT : Layout.Tiles ⟨3, ![4, 512, 256]⟩ ⟨3, ![4, 4096, 256]⟩ 1 8) (b : Fin 4) (r : Fin 512) (ch : Fin 256) :
    Layout.block ⟨3, ![4, 512, 256]⟩ ⟨3, ![4, 4096, 256]⟩ 1 8 c X hT (ix3 b r ch)
      = X (ix3 b (⟨c.val * 512 + r.val, by have := c.isLt; have := r.isLt; omega⟩ : Fin 4096) ch) := by
  show X (hT.idx c (ix3 b r ch)) = _
  congr 1
  funext a; refine Fin.ext ?_
  match a with
  | ⟨0, _⟩ => rfl
  | ⟨1, _⟩ => rfl
  | ⟨2, _⟩ => rfl

/-- An array at two rows of the same number. -/
theorem x_congr {α : Type} (X : (⟨3, ![4, 4096, 256]⟩ : Shape).Idx → α) (b : Fin 4) (n n' : Fin 4096) (ch : Fin 256)
    (h : n.val = n'.val) : X (ix3 b n ch) = X (ix3 b n' ch) := by
  rw [Fin.ext h]

/-- A run of the device's rows, read in the padded input: row o + q of block c is row 512·c + o + q + 3 there. -/
theorem rows_eq_padded (X : XArr) (c : Fin 8) (hT : Layout.Tiles ⟨3, ![4, 512, 256]⟩ ⟨3, ![4, 4096, 256]⟩ 1 8)
    (n o : ℕ) (ho : o + n ≤ 512) (b : Fin 4) (q : Fin n) (ch : Fin 256) (N : Fin 4099)
    (hN : c.val * 512 + (o + q.val) + 3 = N.val) :
    rowsOf (F := Ideal) n o ho (Layout.block ⟨3, ![4, 512, 256]⟩ ⟨3, ![4, 4096, 256]⟩ 1 8 c X hT) (ix3 b q ch)
      = padded X b N ch := by
  have hq := q.isLt
  unfold padded
  rw [dif_neg (by omega)]
  show Layout.block ⟨3, ![4, 512, 256]⟩ ⟨3, ![4, 4096, 256]⟩ 1 8 c X hT (ix3 b (⟨o + q.val, by omega⟩ : Fin 512) ch) = _
  rw [block_ix3]
  exact x_congr X b _ _ ch (by show c.val * 512 + (o + q.val) = N.val - 3; omega)

/-- The halo joined to the block's first three rows, read in the padded input: joined row m is row 512·c + m there — zero
    rows on the first device, the last three rows of the block to the left on the others. -/
theorem cat6_eq_padded (X : XArr) (c : Fin 8) (hT : Layout.Tiles ⟨3, ![4, 512, 256]⟩ ⟨3, ![4, 4096, 256]⟩ 1 8)
    (b : Fin 4) (m : Fin 6) (ch : Fin 256) (N : Fin 4099) (hN : c.val * 512 + m.val = N.val) :
    cat6 (haloOf (F := Ideal) (if c.val = 0 then none else some
            (Layout.block ⟨3, ![4, 512, 256]⟩ ⟨3, ![4, 4096, 256]⟩ 1 8 (left c) X hT)))
          (rowsOf (F := Ideal) 3 0 (by decide) (Layout.block ⟨3, ![4, 512, 256]⟩ ⟨3, ![4, 4096, 256]⟩ 1 8 c X hT)) b m ch
      = padded X b N ch := by
  have hm6 := m.isLt
  have hc8 := c.isLt
  unfold cat6 padded
  by_cases hm : m.val < 3
  · rw [dif_pos hm]
    by_cases hc0 : c.val = 0
    · rw [dif_pos (by omega), if_pos hc0]
      show k0_pay5 (F := Ideal) _ = _
      exact pay5_apply _
    · rw [dif_neg (by omega), if_neg hc0]
      show k0_pay1 (F := Ideal) (rowsOf (F := Ideal) 3 509 (by decide)
          (Layout.block ⟨3, ![4, 512, 256]⟩ ⟨3, ![4, 4096, 256]⟩ 1 8 (left c) X hT)) (ix3 b (⟨m.val, hm⟩ : Fin 3) ch) = _
      rw [pay1_eq]
      show Layout.block ⟨3, ![4, 512, 256]⟩ ⟨3, ![4, 4096, 256]⟩ 1 8 (left c) X hT
          (ix3 b (⟨509 + m.val, by omega⟩ : Fin 512) ch) = _
      rw [block_ix3]
      exact x_congr X b _ _ ch (by show (c.val + 7) % 8 * 512 + (509 + m.val) = N.val - 3; omega)
  · rw [dif_neg hm, dif_neg (by omega)]
    show Layout.block ⟨3, ![4, 512, 256]⟩ ⟨3, ![4, 4096, 256]⟩ 1 8 c X hT
        (ix3 b (⟨0 + (m.val - 3), by omega⟩ : Fin 512) ch) = _
    rw [block_ix3]
    exact x_congr X b _ _ ch (by show c.val * 512 + (0 + (m.val - 3)) = N.val - 3; omega)

/-- Away from the first three rows: the rotations' sum over a run of the device's rows is the reference's sum. -/
theorem rotAcc_eq_refAcc (X : XArr) (K : KArr) (c : Fin 8) (hT : Layout.Tiles ⟨3, ![4, 512, 256]⟩ ⟨3, ![4, 4096, 256]⟩ 1 8)
    (n o : ℕ) (ho : o + n ≤ 512) (b : Fin 4) (q : Fin n) (hq3 : 3 ≤ q.val) (ch : Fin 256) (g : Fin 4096)
    (hg : c.val * 512 + (o + q.val) = g.val) :
    rotAcc K (rowsOf (F := Ideal) n o ho (Layout.block ⟨3, ![4, 512, 256]⟩ ⟨3, ![4, 4096, 256]⟩ 1 8 c X hT)) b q hq3 ch
      = refAcc X K b g ch := by
  have hq := q.isLt
  have hg4 := g.isLt
  unfold rotAcc refAcc
  rw [rows_eq_padded X c hT n o ho b q ch ⟨3 + g.val, by omega⟩ (by show _ = 3 + g.val; omega),
    rows_eq_padded X c hT n o ho b ⟨q.val - 1, by omega⟩ ch ⟨2 + g.val, by omega⟩
      (by show c.val * 512 + (o + (q.val - 1)) + 3 = 2 + g.val; omega),
    rows_eq_padded X c hT n o ho b ⟨q.val - 1 - 1, by omega⟩ ch ⟨1 + g.val, by omega⟩
      (by show c.val * 512 + (o + (q.val - 1 - 1)) + 3 = 1 + g.val; omega),
    rows_eq_padded X c hT n o ho b ⟨q.val - 1 - 1 - 1, by omega⟩ ch ⟨g.val, by omega⟩
      (by show c.val * 512 + (o + (q.val - 1 - 1 - 1)) + 3 = g.val; omega)]
  exact sum4_rev _ _ _ _ _ Ideal.ofBits_zero_f32

/-- On the first three rows: the edge sum is the reference's sum. -/
theorem edgeAcc_eq_refAcc (X : XArr) (K : KArr) (c : Fin 8) (hT : Layout.Tiles ⟨3, ![4, 512, 256]⟩ ⟨3, ![4, 4096, 256]⟩ 1 8)
    (b : Fin 4) (r : Fin 3) (ch : Fin 256) (g : Fin 4096) (hg : c.val * 512 + r.val = g.val) :
    edgeAcc (haloOf (F := Ideal) (if c.val = 0 then none else some
            (Layout.block ⟨3, ![4, 512, 256]⟩ ⟨3, ![4, 4096, 256]⟩ 1 8 (left c) X hT)))
          (rowsOf (F := Ideal) 3 0 (by decide) (Layout.block ⟨3, ![4, 512, 256]⟩ ⟨3, ![4, 4096, 256]⟩ 1 8 c X hT))
          (tap (F := Ideal) 0 K) (tap (F := Ideal) 1 K) (tap (F := Ideal) 2 K) (tap (F := Ideal) 3 K) b r ch
      = refAcc X K b g ch := by
  have hr := r.isLt
  have hg4 := g.isLt
  unfold edgeAcc refAcc
  rw [cat6_eq_padded X c hT b ⟨0 + r.val, by omega⟩ ch ⟨g.val, by omega⟩ (by show c.val * 512 + (0 + r.val) = g.val; omega),
    cat6_eq_padded X c hT b ⟨1 + r.val, by omega⟩ ch ⟨1 + g.val, by omega⟩ (by show c.val * 512 + (1 + r.val) = 1 + g.val; omega),
    cat6_eq_padded X c hT b ⟨2 + r.val, by omega⟩ ch ⟨2 + g.val, by omega⟩ (by show c.val * 512 + (2 + r.val) = 2 + g.val; omega),
    cat6_eq_padded X c hT b ⟨3 + r.val, by omega⟩ ch ⟨3 + g.val, by omega⟩ (by show c.val * 512 + (3 + r.val) = 3 + g.val; omega)]
  rfl

/-! The three ranges of rows of `outSpec`. -/

theorem outSpec_edge (x : Vec Ideal S4x512x256 .f32) (k : Vec Ideal S4x256 .f32) (h : Vec Ideal S4x3x256 .f32)
    (b : Fin 4) (r : Fin 512) (ch : Fin 256) (h3 : r.val < 3) :
    outSpec (F := Ideal) x k h (ix3 b r ch)
      = k0_pay7 (k0_pay6 h (rowsOf 3 0 (by decide) x) (tap 0 k) (tap 1 k) (tap 2 k) (tap 3 k)) (Scalar.ofBits .f32 0x3F000000#32)
          (ix3 b (⟨r.val, h3⟩ : Fin 3) ch) := by
  unfold outSpec
  exact dif_pos h3

theorem outSpec_lo (x : Vec Ideal S4x512x256 .f32) (k : Vec Ideal S4x256 .f32) (h : Vec Ideal S4x3x256 .f32)
    (b : Fin 4) (r : Fin 512) (ch : Fin 256) (h3 : ¬ r.val < 3) (h256 : r.val < 256) :
    outSpec (F := Ideal) x k h (ix3 b r ch)
      = k0_pay3 k (rowsOf 256 0 (by decide) x) (k0_pay2 k (rowsOf 256 0 (by decide) x)) (ix3 b (⟨r.val, h256⟩ : Fin 256) ch) := by
  unfold outSpec
  exact (dif_neg h3).trans (dif_pos h256)

theorem outSpec_hi (x : Vec Ideal S4x512x256 .f32) (k : Vec Ideal S4x256 .f32) (h : Vec Ideal S4x3x256 .f32)
    (b : Fin 4) (r : Fin 512) (ch : Fin 256) (h3 : ¬ r.val < 3) (h256 : ¬ r.val < 256) :
    outSpec (F := Ideal) x k h (ix3 b r ch)
      = k0_pay4 k (rowsOf 264 248 (by decide) x)
          (ix3 b (⟨r.val - 256, by have := r.isLt; omega⟩ : Fin 256) ch) := by
  unfold outSpec
  exact (dif_neg h3).trans (dif_neg h256)

/-- The two last steps are one function of the sum. -/
theorem siluK_eq_silu (t : EReal) : siluK t = silu t := silu_law t

/-- WHAT A DEVICE COMPUTES IS ITS BLOCK OF THE REFERENCE'S RESULT, over the input and the filter as arrays. -/
theorem outSpec_eq_block_val (X : XArr) (K : KArr) (c : Fin 8)
    (hT : Layout.Tiles ⟨3, ![4, 512, 256]⟩ ⟨3, ![4, 4096, 256]⟩ 1 8) :
    outSpec (F := Ideal) (Layout.block ⟨3, ![4, 512, 256]⟩ ⟨3, ![4, 4096, 256]⟩ 1 8 c X hT) K
        (haloOf (F := Ideal) (if c.val = 0 then none else some
          (Layout.block ⟨3, ![4, 512, 256]⟩ ⟨3, ![4, 4096, 256]⟩ 1 8 (left c) X hT)))
      = Layout.block ⟨3, ![4, 512, 256]⟩ ⟨3, ![4, 4096, 256]⟩ 1 8 c
          (Cert.ReferenceIdeal.Read.val_main_v36 (F := Ideal) X K) hT := by
  funext i
  obtain ⟨b, r, ch, rfl⟩ : ∃ (b : Fin 4) (r : Fin 512) (ch : Fin 256), i = ix3 b r ch := ⟨i 0, i 1, i 2, eq_ix3 i⟩
  have hr : r.val < 512 := r.isLt
  have hc : c.val < 8 := c.isLt
  rw [block_ix3, ref_apply]
  by_cases h3 : r.val < 3
  · rw [outSpec_edge _ _ _ b r ch h3, pay7_apply, pay6_apply, siluK_eq_silu,
      edgeAcc_eq_refAcc X K c hT b ⟨r.val, h3⟩ ch ⟨c.val * 512 + r.val, by omega⟩ rfl]
  · by_cases h256 : r.val < 256
    · rw [outSpec_lo _ _ _ b r ch h3 h256, pay3_apply _ _ b ⟨r.val, h256⟩ ch (by show 3 ≤ r.val; omega), siluK_eq_silu,
        rotAcc_eq_refAcc X K c hT 256 0 (by decide) b ⟨r.val, h256⟩ _ ch ⟨c.val * 512 + r.val, by omega⟩
          (by show c.val * 512 + (0 + r.val) = c.val * 512 + r.val; omega)]
    · rw [outSpec_hi _ _ _ b r ch h3 h256, pay4_apply, siluK_eq_silu,
        rotAcc_eq_refAcc X K c hT 264 248 (by decide) b ⟨8 + (r.val - 256), by omega⟩ _ ch ⟨c.val * 512 + r.val, by omega⟩
          (by show c.val * 512 + (248 + (8 + (r.val - 256))) = c.val * 512 + r.val; omega)]

open Idealize.ShloMosaic in
/-- WHAT A DEVICE COMPUTES IS ITS BLOCK OF THE REFERENCE'S RESULT: `outSpec` of device c's block of the input, the filter
    and the halo (zero on the first device, the last three rows of the block to the left on the others) is device c's
    block of the result the reference's run leaves. -/
theorem outSpec_eq_block
    (m' : (ℓ : Loc Cert.ReferenceIdeal.nD Cert.ReferenceIdeal.τ Cert.ReferenceIdeal.sig) → Buf (Elt Ideal) ℓ) (c : Fin 8) :
    Cert.KernelIdeal.Out.outSpec (F := Ideal)
        (Layout.block ⟨3, ![4, 512, 256]⟩ ⟨3, ![4, 4096, 256]⟩ 1 8 c (m' (((0 : Dev Cert.ReferenceIdeal.nD).tc : Thread Cert.ReferenceIdeal.nD Cert.ReferenceIdeal.τ).loc Cert.ReferenceIdeal.main_arg0)))
        (m' (((0 : Dev Cert.ReferenceIdeal.nD).tc : Thread Cert.ReferenceIdeal.nD Cert.ReferenceIdeal.τ).loc Cert.ReferenceIdeal.main_arg1))
        (Cert.KernelIdeal.Out.haloOf (F := Ideal) (if c.val = 0 then none else some
          (Layout.block ⟨3, ![4, 512, 256]⟩ ⟨3, ![4, 4096, 256]⟩ 1 8 (Cert.KernelIdeal.Out.left c) (m' (((0 : Dev Cert.ReferenceIdeal.nD).tc : Thread Cert.ReferenceIdeal.nD Cert.ReferenceIdeal.τ).loc Cert.ReferenceIdeal.main_arg0)))))
      = Layout.block ⟨3, ![4, 512, 256]⟩ ⟨3, ![4, 4096, 256]⟩ 1 8 c (Cert.ReferenceIdeal.Value.res_main_v36 (F := Ideal) m' 0) := by
  rw [Cert.ReferenceIdeal.Read.val_main_v36_eq]
  exact outSpec_eq_block_val _ _ c _

end Cert.KernelIdeal.ConvValue

end
-- ==== Proof.lean ====
/-
  A causal depthwise convolution with four taps along the sequence axis followed by SiLU, over x : [4, 4096, 256] and
  k : [4, 256], computed two ways: by one program over the whole arrays (the reference), and by eight devices on a line,
  device c holding rows [512c, 512c + 512) of x and of the result.

  Each output row needs the three rows of x before it. A device's first three rows therefore need the last three rows of
  the block to its left (zero rows for the first block): every device with a right neighbour transfers its last three rows
  into that neighbour's halo buffer, after an entry handshake that tells it the neighbour is inside the kernel. The five
  claims:
    * the three frames: each program runs to its end without fault and leaves its arguments as they were — for the two
      eight-device programs from the one run of the mesh (every device's body stepped once at a symbolic device, the
      protocol's cells funded at launch), for the reference from its run read back;
    * the idealization rewrote nothing, so `preserves` states nothing;
    * at the extended reals the eight blocks the devices leave are the eight blocks of the reference's result: row by row
      the same four products summed in another order, and a·(½·tanh(½a) + ½) = a / (1 + e⁻ᵃ) at every extended real.
-/
import proofs.«900435_g7700000000000436_dist_gconv1d_seqshard_i_b4_s512_c256_v7x_i8_bf16_1_alg».proof.Defs
import proofs.«900435_g7700000000000436_dist_gconv1d_seqshard_i_b4_s512_c256_v7x_i8_bf16_1_alg».proof.Proof.Gen.Kernel
import proofs.«900435_g7700000000000436_dist_gconv1d_seqshard_i_b4_s512_c256_v7x_i8_bf16_1_alg».proof.Proof.Gen.KernelIdeal
import proofs.«900435_g7700000000000436_dist_gconv1d_seqshard_i_b4_s512_c256_v7x_i8_bf16_1_alg».proof.Proof.Gen.ReferenceIdeal
import proofs.«900435_g7700000000000436_dist_gconv1d_seqshard_i_b4_s512_c256_v7x_i8_bf16_1_alg».proof.Proof.Gen.Pre_finite_inputs_Kernel
import proofs.«900435_g7700000000000436_dist_gconv1d_seqshard_i_b4_s512_c256_v7x_i8_bf16_1_alg».proof.Proof.Gen.Pre_finite_inputs_ReferenceIdeal
import proofs.«900435_g7700000000000436_dist_gconv1d_seqshard_i_b4_s512_c256_v7x_i8_bf16_1_alg».proof.Proof.Gen.ReferenceIdeal.Run
import proofs.«900435_g7700000000000436_dist_gconv1d_seqshard_i_b4_s512_c256_v7x_i8_bf16_1_alg».proof.Proof.Body
import proofs.«900435_g7700000000000436_dist_gconv1d_seqshard_i_b4_s512_c256_v7x_i8_bf16_1_alg».proof.Proof.LaunchK
import proofs.«900435_g7700000000000436_dist_gconv1d_seqshard_i_b4_s512_c256_v7x_i8_bf16_1_alg».proof.Proof.Bits.Body
import proofs.«900435_g7700000000000436_dist_gconv1d_seqshard_i_b4_s512_c256_v7x_i8_bf16_1_alg».proof.Proof.Bits.LaunchK
import proofs.«900435_g7700000000000436_dist_gconv1d_seqshard_i_b4_s512_c256_v7x_i8_bf16_1_alg».proof.Proof.ConvValue
import Idealize.ShloMosaic.Adequacy
import Idealize.ShloMosaic.Init

noncomputable section

namespace Cert.Proof

open Idealize.ShloMosaic Idealize.SL.Sem

/-- The word-level program on the mesh: its run with the result named, the result dropped. -/
theorem frame_k : Cert.frame_Kernel := fun m ρ _ =>
  (θ_run Cert.Kernel.defs _ _).mono (fun _ h c => (h c).2)
    (Cert.KernelProof.run_main (F := Bits) m ρ (Cert.KernelProof.body_obligation m))

/-- The idealized program on the mesh, likewise. -/
theorem frame_ki : Cert.frame_KernelIdeal := fun m ρ _ =>
  (θ_run Cert.KernelIdeal.defs _ _).mono (fun _ h c => (h c).2)
    (Cert.KernelIdealProof.run_main (F := Ideal) m ρ (Cert.KernelIdealProof.body_obligation m))

/-- The reference: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- What device `c` leaves, from arrays that are the blocks of the reference's, is block `c` of the reference's result. -/
theorem out_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨3, ![4, 512, 256]⟩ ⟨3, ![4, 4096, 256]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) :
    Cert.KernelIdealProof.outC m c
      = Layout.block ⟨3, ![4, 512, 256]⟩ ⟨3, ![4, 4096, 256]⟩ 1 8 c (Cert.ReferenceIdeal.Value.res_main_v36 (F := Ideal) m' 0) := by
  unfold Cert.KernelIdealProof.outC Cert.KernelIdealProof.halo Cert.KernelIdealProof.xblk Cert.KernelIdealProof.kblk Cert.KernelIdealProof.prv
  rw [(hagree c).1, (hagree c).2, (hagree (Cert.KernelIdeal.Out.left c)).1]
  exact Cert.KernelIdeal.ConvValue.outSpec_eq_block m' c

/-- Both idealized programs run, the devices' result blocks the blocks of the reference's result. -/
theorem algebraic : Cert.algebraic_KernelIdeal_ReferenceIdeal := by
  intro m g m' g' _ hagree
  refine ⟨Cert.ReferenceIdeal.Value.res_main_v36 (F := Ideal) m' 0, ?_, ?_⟩
  · exact (θ_run Cert.KernelIdeal.defs _ _).mono (fun _ h c => ⟨(h c).1.trans (out_eq_block m m' hagree c), (h c).2.1, (h c).2.2⟩)
      (Cert.KernelIdealProof.run_main (F := Ideal) m g (Cert.KernelIdealProof.body_obligation m))
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
